-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x16384 : Shape := ⟨2, ![8192, 16384]⟩
abbrev S16384 : Shape := ⟨1, ![16384]⟩
abbrev S7 : Shape := ⟨1, ![7]⟩
abbrev S_ : Shape := ⟨0, ![]⟩

class Facts : Prop where
  bcast_S_S8192x16384 : S_.BroadcastsInDim S8192x16384 (![] : Fin 0 → Fin S8192x16384.rank)
  reducesTo_S8192x16384_S_d0_1 : S8192x16384.ReducesTo [0, 1] S_
  h_S_ : 0 < S_.numel
  bcast_S_S16384 : S_.BroadcastsInDim S16384 (![] : Fin 0 → Fin S16384.rank)
  reducesTo_S16384_S_d0 : S16384.ReducesTo [0] S_
  bcast_S_S7 : S_.BroadcastsInDim S7 (![] : Fin 0 → Fin S7.rank)
  reducesTo_S7_S_d0 : S7.ReducesTo [0] S_

variable [Facts]

def fn {F : FTy → Type} [FloatOps F] (main_arg0 : FVec F S8192x16384 .f32) (main_arg1 : FVec F S16384 .f32) (main_arg2 : FVec F S7 .f32) : IVec S_ 1 :=
  let main_v0 : FVec F S8192x16384 .f32 := Host.absf main_arg0
  let main_cst : FVec F S_ .f32 := constant S_ .f32 0x7F800000#32
  let main_v1 : FVec F S8192x16384 .f32 := broadcastInDim S8192x16384 ![] bcast_S_S8192x16384 main_cst
  let main_v2 : IVec S8192x16384 1 := cmpf .olt main_v0 main_v1
  let main_c : IVec S_ 1 := constantI S_ 1 1#1
  let main_v3 : IVec S_ 1 := (fun x v => Host.reduce IntOp.andi x v reducesTo_S8192x16384_S_d0_1 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S7 .f32 := Host.absf main_arg2
  let main_cst_2 : FVec F S_ .f32 := constant S_ .f32 0x7F800000#32
  let main_v10 : FVec F S7 .f32 := broadcastInDim S7 ![] bcast_S_S7 main_cst_2
  let main_v11 : IVec S7 1 := cmpf .olt main_v9 main_v10
  let main_c_3 : IVec S_ 1 := constantI S_ 1 1#1
  let main_v12 : IVec S_ 1 := (fun x v => Host.reduce IntOp.andi x v reducesTo_S7_S_d0 h_S_) main_v11 main_c_3
  let main_v13 : IVec S_ 1 := andi main_v8 main_v12
  main_v13
-- ==== Kernel.lean ====
abbrev S8192x16384 : Shape := ⟨2, ![8192, 16384]⟩
abbrev S16384 : Shape := ⟨1, ![16384]⟩
abbrev S7 : Shape := ⟨1, ![7]⟩
abbrev S8192x7 : Shape := ⟨2, ![8192, 7]⟩
abbrev S512x4096 : Shape := ⟨2, ![512, 4096]⟩
abbrev S4096 : Shape := ⟨1, ![4096]⟩
abbrev S512x7 : Shape := ⟨2, ![512, 7]⟩
abbrev S512x128 : Shape := ⟨2, ![512, 128]⟩
abbrev S128 : Shape := ⟨1, ![128]⟩
abbrev S1x128 : Shape := ⟨2, ![1, 128]⟩
abbrev S512 : Shape := ⟨1, ![512]⟩
abbrev S512x1 : Shape := ⟨2, ![512, 1]⟩
abbrev S1x7 : Shape := ⟨2, ![1, 7]⟩

abbrev nBuf : Space → Nat
  | .hbm => 4
  | .vmem => 15
  | .smem => 0
  | _ => 0

abbrev bufTy : (tb : Table) → Fin (tcTables nBuf tb) → BufTy
  | .hbm, ⟨0, _⟩ => ⟨S8192x16384, .f32⟩
  | .hbm, ⟨1, _⟩ => ⟨S16384, .f32⟩
  | .hbm, ⟨2, _⟩ => ⟨S7, .f32⟩
  | .hbm, ⟨3, _⟩ => ⟨S8192x7, .f32⟩
  | .local _ .vmem, ⟨0, _⟩ => ⟨S512x4096, .f32⟩
  | .local _ .vmem, ⟨1, _⟩ => ⟨S512x4096, .f32⟩
  | .local _ .vmem, ⟨2, _⟩ => ⟨S4096, .f32⟩
  | .local _ .vmem, ⟨3, _⟩ => ⟨S4096, .f32⟩
  | .local _ .vmem, ⟨4, _⟩ => ⟨S7, .f32⟩
  | .local _ .vmem, ⟨5, _⟩ => ⟨S512x7, .f32⟩
  | .local _ .vmem, ⟨6, _⟩ => ⟨S512x7, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | _, _ => ⟨S8192x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32_1 : BitVec 32 := 0#32
  let c32_i32 : BitVec 32 := 32#32
  let v3 : BitVec 32 := Scalar.addi c0_i32_1 c32_i32
  let c1_i32 : BitVec 32 := 1#32
  ⟨c0_i32_1, v3, c1_i32⟩
def k0_mult1 (k0_t1 : Fin k0_t1_loop.trips) : BitVec 32 :=
  let c0_i32_5 : BitVec 32 := 0#32
  let c0_i32_1 : BitVec 32 := 0#32
  let c1_i32 : BitVec 32 := 1#32
  let arg14 : BitVec 32 := Scf.iv c0_i32_1 c1_i32 k0_t1
  let c1_i32_4 : BitVec 32 := 1#32
  let v7 : BitVec 32 := Scalar.muli arg14 c1_i32_4
  let v8 : BitVec 32 := Scalar.addi c0_i32_5 v7
  let c128_i32 : BitVec 32 := 128#32
  let v9 : BitVec 32 := Scalar.muli v8 c128_i32
  v9
def k0_off1 (k0_t1 : Fin k0_t1_loop.trips) : Fin 1 → Nat :=
  let c0_i32_5 : BitVec 32 := 0#32
  let c0_i32_1 : BitVec 32 := 0#32
  let c1_i32 : BitVec 32 := 1#32
  let arg14 : BitVec 32 := Scf.iv c0_i32_1 c1_i32 k0_t1
  let c1_i32_4 : BitVec 32 := 1#32
  let v7 : BitVec 32 := Scalar.muli arg14 c1_i32_4
  let v8 : BitVec 32 := Scalar.addi c0_i32_5 v7
  let c128_i32 : BitVec 32 := 128#32
  let v9 : BitVec 32 := Scalar.muli v8 c128_i32
  let v10 : BitVec 32 := v9
  let v11 : Index := Scalar.indexCast v10
  ![v11.toNat]
def k0_off2 (k0_t1 : Fin k0_t1_loop.trips) : Fin 2 → Nat :=
  let c0 : Index := 0#32
  let c0_i32_5 : BitVec 32 := 0#32
  let c0_i32_1 : BitVec 32 := 0#32
  let c1_i32 : BitVec 32 := 1#32
  let arg14 : BitVec 32 := Scf.iv c0_i32_1 c1_i32 k0_t1
  let c1_i32_4 : BitVec 32 := 1#32
  let v7 : BitVec 32 := Scalar.muli arg14 c1_i32_4
  let v8 : BitVec 32 := Scalar.addi c0_i32_5 v7
  let c128_i32 : BitVec 32 := 128#32
  let v9 : BitVec 32 := Scalar.muli v8 c128_i32
  let v10 : BitVec 32 := v9
  let v13 : Index := Scalar.indexCast v10
  ![0, v13.toNat]
def k0_cond2 (i : grid0.Coords) : BitVec 1 :=
  let arg1 : BitVec 32 := BitVec.ofNat 32 (i 1).val
  let c3_i32 : BitVec 32 := 3#32
  let v4 : BitVec 1 := Scalar.cmpi .eq arg1 c3_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S7 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x7 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S512x128_S512x128_0_0 : ∀ a, (![0, 0] : Fin 2 → Nat) a + S512x128.size a ≤ S512x128.size a
  h_S512x128 : 0 < S512x128.numel
  shapeCasts_S512x128_S512x128 : S512x128.ShapeCasts S512x128
  h_S128 : 0 < S128.numel
  shapeCasts_S128_S1x128 : S128.ShapeCasts S1x128
  broadcasts_S1x128_S512x128 : S1x128.Broadcasts S512x128
  reduces_S512x128_S512 : S512x128.Reduces [1] S512
  shapeCasts_S512_S512x1 : S512.ShapeCasts S512x1
  concatenates_S512x1_S512x1_S512x1_S512x1_S512x1_S512x1_S512x1_S512x7_d1 : Shape.Concatenates [S512x1, S512x1, S512x1, S512x1, S512x1, S512x1, S512x1] S512x7 1
  inb_S7_S7_0 : ∀ a, (![0] : Fin 1 → Nat) a + S7.size a ≤ S7.size a
  h_S7 : 0 < S7.numel
  shapeCasts_S7_S1x7 : S7.ShapeCasts S1x7
  broadcasts_S1x7_S512x7 : S1x7.Broadcasts S512x7
  inb_S512x7_S512x7_0_0 : ∀ a, (![0, 0] : Fin 2 → Nat) a + S512x7.size a ≤ S512x7.size a
  h_S512x7 : 0 < S512x7.numel
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128.size a ≤ S4096.size a
  k0_off2_inb : ∀ k0_t1 : Fin k0_t1_loop.trips, ∀ a, (k0_off2 k0_t1) a + S512x128.size a ≤ S512x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x16384.size a
  hwx0_0 : ∀ i : grid0.Coords, EltTy.bits .f32 = 32 ∨ (Rect.block (s := S8192x16384) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S16384.size a
  hwx0_1 : ∀ i : grid0.Coords, EltTy.bits .f32 = 32 ∨ (Rect.block (s := S16384) S4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7.size a ≤ S7.size a
  hwx0_2 : ∀ i : grid0.Coords, EltTy.bits .f32 = 32 ∨ (Rect.block (s := S7) S7.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x7.size a ≤ S8192x7.size a
  hwx0_3 : ∀ i : grid0.Coords, EltTy.bits .f32 = 32 ∨ (Rect.block (s := S8192x7) S512x7.size (cc0_transform_3 i) (hinb0_3 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S7.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x7.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x16384 : Shape := ⟨2, ![8192, 16384]⟩
abbrev S16384 : Shape := ⟨1, ![16384]⟩
abbrev S7 : Shape := ⟨1, ![7]⟩
abbrev S1x16384 : Shape := ⟨2, ![1, 16384]⟩
abbrev S_ : Shape := ⟨0, ![]⟩
abbrev S8192 : Shape := ⟨1, ![8192]⟩
abbrev S8192x1 : Shape := ⟨2, ![8192, 1]⟩
abbrev S8192x7 : Shape := ⟨2, ![8192, 7]⟩
abbrev S1x7 : Shape := ⟨2, ![1, 7]⟩

abbrev nBuf : Space → Nat
  | .hbm => 93
  | .vmem => 0
  | .smem => 0
  | _ => 0

abbrev bufTy : (tb : Table) → Fin (tcTables nBuf tb) → BufTy
  | .hbm, ⟨0, _⟩ => ⟨S8192x16384, .f32⟩
  | .hbm, ⟨1, _⟩ => ⟨S16384, .f32⟩
  | .hbm, ⟨2, _⟩ => ⟨S7, .f32⟩
  | .hbm, ⟨3, _⟩ => ⟨S1x16384, .f32⟩
  | .hbm, ⟨4, _⟩ => ⟨S8192x16384, .f32⟩
  | .hbm, ⟨5, _⟩ => ⟨S8192x16384, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x16384, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x16384, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x16384, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x16384, .f32⟩
  | .hbm, ⟨47, _⟩ => ⟨S8192x16384, .f32⟩
  | .hbm, ⟨48, _⟩ => ⟨S8192x16384, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x16384, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x16384, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S8192x1, .f32⟩
  | .hbm, ⟨73, _⟩ => ⟨S8192x1, .i1⟩
  | .hbm, ⟨74, _⟩ => ⟨S8192x1, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S8192x7, .f32⟩
  | .hbm, ⟨90, _⟩ => ⟨S1x7, .f32⟩
  | .hbm, ⟨91, _⟩ => ⟨S8192x7, .f32⟩
  | .hbm, ⟨92, _⟩ => ⟨S8192x7, .f32⟩
  | _, _ => ⟨S8192x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_cst_10 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_11 : Ref sig .tc := ⟨.hbm, 56, rfl⟩
abbrev main_v41 : Ref sig .tc := ⟨.hbm, 57, rfl⟩
abbrev main_v42 : Ref sig .tc := ⟨.hbm, 58, rfl⟩
abbrev main_cst_12 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_13 : Ref sig .tc := ⟨.hbm, 63, rfl⟩
abbrev main_v46 : Ref sig .tc := ⟨.hbm, 64, rfl⟩
abbrev main_v47 : Ref sig .tc := ⟨.hbm, 65, rfl⟩
abbrev main_cst_14 : Ref sig .tc := ⟨.hbm, 66, rfl⟩
abbrev main_v48 : Ref sig .tc := ⟨.hbm, 67, rfl⟩
abbrev main_v49 : Ref sig .tc := ⟨.hbm, 68, rfl⟩
abbrev main_cst_15 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_16 : Ref sig .tc := ⟨.hbm, 76, rfl⟩
abbrev main_call0_v0 : Ref sig .tc := ⟨.hbm, 77, rfl⟩
abbrev main_v56 : Ref sig .tc := ⟨.hbm, 78, rfl⟩
abbrev main_cst_17 : Ref sig .tc := ⟨.hbm, 79, rfl⟩
abbrev main_v57 : Ref sig .tc := ⟨.hbm, 80, rfl⟩
abbrev main_v58 : Ref sig .tc := ⟨.hbm, 81, rfl⟩
abbrev main_cst_18 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_19 : Ref sig .tc := ⟨.hbm, 86, rfl⟩
abbrev main_call1_v0 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩

abbrev nD : Nat := 1
abbrev τ : Topo := Topo.v7x

variable {F : FTy → Type} [FloatOps F]

class Facts₀ : Prop where
  bcast_S16384_S1x16384_1 : S16384.BroadcastsInDim S1x16384 (![1] : Fin 1 → Fin S1x16384.rank)
  bcast_S1x16384_S8192x16384_0_1 : S1x16384.BroadcastsInDim S8192x16384 (![0, 1] : Fin 2 → Fin S8192x16384.rank)
  reducesTo_S8192x16384_S8192_d1 : S8192x16384.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x16384_0_1 : S8192x1.BroadcastsInDim S8192x16384 (![0, 1] : Fin 2 → Fin S8192x16384.rank)
  concatenates_S8192x1_S8192x1_S8192x1_S8192x1_S8192x1_S8192x1_S8192x1_S8192x7_d1 : Shape.Concatenates [S8192x1, S8192x1, S8192x1, S8192x1, S8192x1, S8192x1, S8192x1] S8192x7 1
  bcast_S7_S1x7_1 : S7.BroadcastsInDim S1x7 (![1] : Fin 1 → Fin S1x7.rank)
  bcast_S1x7_S8192x7_0_1 : S1x7.BroadcastsInDim S8192x7 (![0, 1] : Fin 2 → Fin S8192x7.rank)

variable [Facts₀]

class Facts : Prop extends Facts₀ where

variable [Facts]
-- ==== Proof.AccDefs.lean ====
/-
  The kernel's arithmetic between its memory operations, as pure functions of what it loads. Eight lane-wide
  accumulators (one 512 × 128 tile each: running maximum, running minimum, and the running sums of y, y², y³, y⁴, |y|, √|y|,
  where y = x · w) are reset at the first column tile of a row tile, updated once per 128-lane group — 32 groups per column
  tile — and reduced across lanes after the last column tile into the 512 × 7 block of statistics, scaled by the bias row.
  Each step is a composition of the program's named payloads; the loaded slices are parameters.
-/
import proofs.«101824_j84121229459701_2_alg».proof.Proof.Gen.KernelIdeal.Skeleton

noncomputable section

namespace Cert.KernelIdeal.AccDefs

open Cert.KernelIdeal Cert.KernelIdeal.Gen Idealize.ShloMosaic

variable {F : FTy → Type} [FloatOps F]

/-- The eight accumulators, in the order of the kernel's scratch operands. -/
structure Acc (F : FTy → Type) where
  mx : FVec F S512x128 .f32
  mn : FVec F S512x128 .f32
  s1 : FVec F S512x128 .f32
  s2 : FVec F S512x128 .f32
  s3 : FVec F S512x128 .f32
  s4 : FVec F S512x128 .f32
  sa : FVec F S512x128 .f32
  sq : FVec F S512x128 .f32

/-- The reset at the first column tile: −∞, +∞, and six zeros. -/
def accInit : Acc F :=
  ⟨k0_pay7, k0_pay8, k0_pay9, k0_pay10, k0_pay11, k0_pay12, k0_pay13, k0_pay1 k0_pay14⟩

/-- One lane group: with `wg` the 128 weights and `xg` the 512 × 128 slice of the group, each accumulator absorbs
    y = xg · wg (the maximum and minimum by max / min, the sums by +). -/
def tripStep (wg : Vec F S128 .f32) (xg : Vec F S512x128 .f32) (A : Acc F) : Acc F :=
  ⟨k0_pay19 wg xg A.mx, k0_pay20 wg xg A.mn, k0_pay21 wg xg A.s1, k0_pay22 wg xg A.s2,
   k0_pay2 (k0_pay15 wg xg) (k0_pay16 wg xg) A.s3, k0_pay3 (k0_pay16 wg xg) A.s4,
   k0_pay4 (k0_pay17 wg xg) A.sa, k0_pay5 (k0_pay18 wg xg) A.sq⟩

/-- The accumulators after the first `n` lane groups of a column tile, from `A`. -/
def tripsFrom (ws : Fin 32 → Vec F S128 .f32) (xs : Fin 32 → Vec F S512x128 .f32) : ℕ → Acc F → Acc F
  | 0, A => A
  | n + 1, A => if h : n < 32 then tripStep (ws ⟨n, h⟩) (xs ⟨n, h⟩) (tripsFrom ws xs n A) else tripsFrom ws xs n A

theorem tripsFrom_succ (ws : Fin 32 → Vec F S128 .f32) (xs : Fin 32 → Vec F S512x128 .f32) (k : Fin 32) (A : Acc F) :
    tripsFrom ws xs (k.val + 1) A = tripStep (ws k) (xs k) (tripsFrom ws xs k.val A) := by
  rw [tripsFrom, dif_pos k.isLt]

/-- The block of seven statistics per row, scaled by the bias row `b`, from the final accumulators: the lane
    reductions, the moments' algebra, the concatenation. -/
def epilogue (A : Acc F) (b : Vec F S7 .f32) : FVec F S512x7 .f32 :=
  k0_pay6 (k0_pay32 (k0_pay27 A.s1) (k0_pay28 A.s2) (k0_pay29 A.s3))
    (k0_pay33 (k0_pay25 A.mx) (k0_pay26 A.mn))
    (k0_pay35 (k0_pay25 A.mx) (k0_pay28 A.s2))
    (k0_pay36 (k0_pay23 A.sa) (k0_pay28 A.s2))
    (k0_pay37 (k0_pay25 A.mx) (k0_pay28 A.s2))
    (k0_pay38 (k0_pay24 A.sq) (k0_pay25 A.mx))
    (k0_pay39 (k0_pay27 A.s1) (k0_pay28 A.s2))
    (k0_pay40 (k0_pay27 A.s1) (k0_pay28 A.s2))
    (k0_pay41 (k0_pay27 A.s1) (k0_pay28 A.s2) (k0_pay29 A.s3) (k0_pay30 A.s4))
    (Scalar.ofBits .f32 0x7FC00000#32) b

end Cert.KernelIdeal.AccDefs

end
-- ==== Proof.BodyBase.lean ====
import proofs.«101824_j84121229459701_2_alg».proof.Proof.Gen.KernelIdeal.Frame
import proofs.«101824_j84121229459701_2_alg».proof.Proof.Gen.KernelIdeal.Loops
import proofs.«101824_j84121229459701_2_alg».proof.Proof.AccDefs
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, decided over the 16 × 4 grid

The grid point `t` is (row tile `t / 4`, column tile `t % 4`). The accumulators are reset at column tile 0 and the
statistics are stored at column tile 3. -/

/-- "This is the first column tile": the condition of the reset, as the body computes it from the point. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last column tile": the condition of the final reduction and store. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last column tile the body stores nothing into the output block, -/
theorem idleAt0_3 : ∀ t : Fin cfg0.N, ¬cond0_1 (grid0.coords t) → cfg0.idle 3 (grid0.coords t) = true := by decide +kernel
/-- and the block is not written back there; -/
theorem noFlush0_3 : ∀ t : Fin cfg0.N, ¬cond0_1 (grid0.coords t) → (cfg0.win 3).flush t = false := by decide +kernel
/-- at the last column tile it is live. -/
theorem liveAt0_3 : ∀ t : Fin cfg0.N, cond0_1 (grid0.coords t) → cfg0.idle 3 (grid0.coords t) = false := by decide +kernel

/-! ## The memrefs the body is called with -/

abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S7 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x7 .f32 := win0_3.stage (cfg0.slots t 3)
abbrev hs0_3 (t : Fin cfg0.N) : (ms0_3 t).IsWhole := hstage0_3 ((cfg0.slots t 3).cast nbuf0_3)

/-- The eight accumulators' buffers: whole scoped buffers of the kernel's own. -/
abbrev scM0_0 : Memref sig .tc .vmem S512x128 .f32 := Memref.whole cc0_scratch0
abbrev scM0_1 : Memref sig .tc .vmem S512x128 .f32 := Memref.whole cc0_scratch1
abbrev scM0_2 : Memref sig .tc .vmem S512x128 .f32 := Memref.whole cc0_scratch2
abbrev scM0_3 : Memref sig .tc .vmem S512x128 .f32 := Memref.whole cc0_scratch3
abbrev scM0_4 : Memref sig .tc .vmem S512x128 .f32 := Memref.whole cc0_scratch4
abbrev scM0_5 : Memref sig .tc .vmem S512x128 .f32 := Memref.whole cc0_scratch5
abbrev scM0_6 : Memref sig .tc .vmem S512x128 .f32 := Memref.whole cc0_scratch6
abbrev scM0_7 : Memref sig .tc .vmem S512x128 .f32 := Memref.whole cc0_scratch7

/-- The eight accumulators held at the fields of `A`. -/
def accOwned (c : Dev nD) (A : AccDefs.Acc F) : sProp 𝕄 :=
  iprop(owns (c : Thread nD τ) scM0_0 fullShare A.mx ∗ owns (c : Thread nD τ) scM0_1 fullShare A.mn
    ∗ owns (c : Thread nD τ) scM0_2 fullShare A.s1 ∗ owns (c : Thread nD τ) scM0_3 fullShare A.s2
    ∗ owns (c : Thread nD τ) scM0_4 fullShare A.s3 ∗ owns (c : Thread nD τ) scM0_5 fullShare A.s4
    ∗ owns (c : Thread nD τ) scM0_6 fullShare A.sa ∗ owns (c : Thread nD τ) scM0_7 fullShare A.sq)

/-- The eight accumulators held at anything. -/
def accAny (c : Dev nD) : sProp 𝕄 :=
  iprop((∃ d, owns (c : Thread nD τ) scM0_0 fullShare d) ∗ (∃ d, owns (c : Thread nD τ) scM0_1 fullShare d)
    ∗ (∃ d, owns (c : Thread nD τ) scM0_2 fullShare d) ∗ (∃ d, owns (c : Thread nD τ) scM0_3 fullShare d)
    ∗ (∃ d, owns (c : Thread nD τ) scM0_4 fullShare d) ∗ (∃ d, owns (c : Thread nD τ) scM0_5 fullShare d)
    ∗ (∃ d, owns (c : Thread nD τ) scM0_6 fullShare d) ∗ (∃ d, owns (c : Thread nD τ) scM0_7 fullShare d))

/-- The region's class invariant: the eight accumulators at anything, and the generator register at some state. -/
theorem PhiA0_eq (c : Dev nD) :
    (Pipeline.ΦA spec0 c : sProp 𝕄) = iprop(accAny c ∗ (∃ r, prngReg c r)) := by
  unfold Pipeline.ΦA accAny; rw [scopedRest0_eq]
  simp only [scM0_0, scM0_1, scM0_2, scM0_3, scM0_4, scM0_5, scM0_6, scM0_7, owns_whole]; try rfl

theorem accOwned_any (c : Dev nD) (A : AccDefs.Acc F) : accOwned c A ⊢ (accAny c : sProp 𝕄) := by
  unfold accOwned accAny
  iintro ⟨H0, H1, H2, H3, H4, H5, H6, H7⟩
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  iexists _; iexact H7

end Cert.KernelIdeal.Body

end
-- ==== Proof.BodyTrip.lean ====
import proofs.«101824_j84121229459701_2_alg».proof.Proof.Gen.KernelIdeal.Frame
import proofs.«101824_j84121229459701_2_alg».proof.Proof.Gen.KernelIdeal.Loops
import proofs.«101824_j84121229459701_2_alg».proof.Proof.BodyBase
import Idealize.ShloMosaic.Lib.Pipeline.Value
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open AccDefs

/-! ## One lane group of the column tile

With the column tile's staged block `X` (512 × 4096) and weights `W` (4096), lane group `k` reads the 512 × 128 slice of `X`
and the 128 weights at column offset 128·k, and every accumulator, read whole, is stored back whole with the group absorbed. -/

/-- Lane group `k`'s slice of the staged block, and its weights. -/
def xsl (X : Vec F S512x4096 .f32) (k : Fin 32) : Vec F S512x128 .f32 :=
  View.ld X (Rect.unit (s := S512x4096) (k0_off2 k) S512x128.size (k0_off2_inb k))
def wsl (W : Vec F S4096 .f32) (k : Fin 32) : Vec F S128 .f32 :=
  View.ld W (Rect.unit (s := S4096) (k0_off1 k) S128.size (k0_off1_inb k))

/-- What one lane group touches: the two staged inputs and the eight accumulators, on any whole memrefs. -/
def tripRes (c : Dev nD) (arg2 : Memref sig .tc .vmem S512x4096 .f32) (harg2 : arg2.IsWhole) (arg3 : Memref sig .tc .vmem S4096 .f32) (harg3 : arg3.IsWhole) (arg4 : Memref sig .tc .vmem S7 .f32) (harg4 : arg4.IsWhole) (arg5 : Memref sig .tc .vmem S512x7 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole)
    (X : Vec F S512x4096 .f32) (W : Vec F S4096 .f32) (A : Acc F) : sProp 𝕄 :=
  iprop(owns (c : Thread nD τ) arg2 fullShare X ∗ owns (c : Thread nD τ) arg3 fullShare W
    ∗ owns (c : Thread nD τ) arg6 fullShare A.mx ∗ owns (c : Thread nD τ) arg7 fullShare A.mn ∗ owns (c : Thread nD τ) arg8 fullShare A.s1 ∗ owns (c : Thread nD τ) arg9 fullShare A.s2
    ∗ owns (c : Thread nD τ) arg10 fullShare A.s3 ∗ owns (c : Thread nD τ) arg11 fullShare A.s4 ∗ owns (c : Thread nD τ) arg12 fullShare A.sa ∗ owns (c : Thread nD τ) arg13 fullShare A.sq)

theorem hz2 : (![0, 0] : Fin S512x128.rank → Nat) = fun _ => 0 := by
  funext a; match a with | ⟨0, _⟩ => rfl | ⟨1, _⟩ => rfl

/-- A whole-block store into a whole buffer leaves its payload. -/
theorem read_whole_store (m : Memref sig .tc .vmem S512x128 .f32) (f : m.view.ty.Contents (Elt F)) (P : Vec F S512x128 .f32) :
    m.view.read (Elt F) (m.view.writes (Elt F) f [⟨Rect.unit (s := S512x128) ![0, 0] S512x128.size inb_S512x128_S512x128_0_0, P⟩]) = P := by
  rw [View.read_writes_eq_canon _ _ _ (fun y => ⟨_, List.mem_singleton_self _, View.mem_set_unit_zero hz2 inb_S512x128_S512x128_0_0 y⟩), View.canon_unit_zero hz2]

omit [FloatOps F] in
/-- A whole-block load of a whole buffer reads its contents. -/
theorem readAt_whole (m : Memref sig .tc .vmem S512x128 .f32) (hm : m.IsWhole) (a : Vec F S512x128 .f32) :
    View.readAt (Elt F) m.view (Rect.unit (s := S512x128) ![0, 0] S512x128.size inb_S512x128_S512x128_0_0).toLoadRect (hm.unread a) = a := by
  rw [View.readAt_eq_ld, hm.read_unread, View.ld_unit_zero hz2]

set_option maxHeartbeats 4000000 in
/-- One lane group, from the accumulators at `A` to the accumulators at `tripStep` of the group's slices. -/
theorem trip_sound (c : Dev nD) (i : grid0.Coords) (arg2 : Memref sig .tc .vmem S512x4096 .f32) (harg2 : arg2.IsWhole) (arg3 : Memref sig .tc .vmem S4096 .f32) (harg3 : arg3.IsWhole) (arg4 : Memref sig .tc .vmem S7 .f32) (harg4 : arg4.IsWhole) (arg5 : Memref sig .tc .vmem S512x7 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (k : Fin k0_t1_loop.trips)
    (X : Vec F S512x4096 .f32) (W : Vec F S4096 .f32) (A : Acc F) :
    tripRes c arg2 harg2 arg3 harg3 arg4 harg4 arg5 harg5 arg6 harg6 arg7 harg7 arg8 harg8 arg9 harg9 arg10 harg10 arg11 harg11 arg12 harg12 arg13 harg13 X W A
      ⊢ wp frame (wpE (defs₀ (F := F)) Variants.none c none) Set.univ (k0_t1_body i arg2 harg2 arg3 harg3 arg4 harg4 arg5 harg5 arg6 harg6 arg7 harg7 arg8 harg8 arg9 harg9 arg10 harg10 arg11 harg11 arg12 harg12 arg13 harg13 k ())
          (fun _ => tripRes c arg2 harg2 arg3 harg3 arg4 harg4 arg5 harg5 arg6 harg6 arg7 harg7 arg8 harg8 arg9 harg9 arg10 harg10 arg11 harg11 arg12 harg12 arg13 harg13 X W (tripStep (wsl W k) (xsl X k) A)) := by
  unfold k0_t1_body tripRes
  unfold owns
  iintro ⟨⟨%f2, %hf2, H2⟩, ⟨%f3, %hf3, H3⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩
  obtain rfl := harg2.eq_unread hf2; obtain rfl := harg3.eq_unread hf3
  obtain rfl := harg6.eq_unread hf6; obtain rfl := harg7.eq_unread hf7; obtain rfl := harg8.eq_unread hf8; obtain rfl := harg9.eq_unread hf9
  obtain rfl := harg10.eq_unread hf10; obtain rfl := harg11.eq_unread hf11; obtain rfl := harg12.eq_unread hf12; obtain rfl := harg13.eq_unread hf13
  sl_exec
  sl_step
  sl_unfold_run_names
  have hx : View.readAt (Elt F) arg2.view (Rect.unit (s := S512x4096) (k0_off2 k) S512x128.size (k0_off2_inb k)).toLoadRect (harg2.unread X) = xsl X k := by
    rw [View.readAt_eq_ld, harg2.read_unread]; rfl
  have hw : View.readAt (Elt F) arg3.view (Rect.unit (s := S4096) (k0_off1 k) S128.size (k0_off1_inb k)).toLoadRect (harg3.unread W) = wsl W k := by
    rw [View.readAt_eq_ld, harg3.read_unread]; rfl
  isplitl [H2]
  · iexists _; isplitr
    swap; · iexact H2
    ipureintro; exact harg2.read_unread _
  isplitl [H3]
  · iexists _; isplitr
    swap; · iexact H3
    ipureintro; exact harg3.read_unread _
  isplitl [H6]
  · iexists _; isplitr
    swap; · iexact H6
    ipureintro; rw [read_whole_store, hw, hx, readAt_whole]; rfl
  isplitl [H7]
  · iexists _; isplitr
    swap; · iexact H7
    ipureintro; rw [read_whole_store, hw, hx, readAt_whole]; rfl
  isplitl [H8]
  · iexists _; isplitr
    swap; · iexact H8
    ipureintro; rw [read_whole_store, hw, hx, readAt_whole]; rfl
  isplitl [H9]
  · iexists _; isplitr
    swap; · iexact H9
    ipureintro; rw [read_whole_store, hw, hx, readAt_whole]; rfl
  isplitl [H10]
  · iexists _; isplitr
    swap; · iexact H10
    ipureintro; rw [read_whole_store, hw, hx, readAt_whole]; rfl
  isplitl [H11]
  · iexists _; isplitr
    swap; · iexact H11
    ipureintro; rw [read_whole_store, hw, hx, readAt_whole]; rfl
  isplitl [H12]
  · iexists _; isplitr
    swap; · iexact H12
    ipureintro; rw [read_whole_store, hw, hx, readAt_whole]; rfl
  iexists _; isplitr
  swap; · iexact H13
  ipureintro; rw [read_whole_store, hw, hx, readAt_whole]; rfl

end Cert.KernelIdeal.Body

end
-- ==== Proof.BodyRunDefs.lean ====
import proofs.«101824_j84121229459701_2_alg».proof.Proof.Gen.KernelIdeal.Frame
import proofs.«101824_j84121229459701_2_alg».proof.Proof.Gen.KernelIdeal.Loops
import proofs.«101824_j84121229459701_2_alg».proof.Proof.BodyTrip
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open AccDefs

/-- The accumulators after all 32 lane groups of a column tile whose staged block is `X` and weights `W`, from `A`. -/
def loopOut (X : Vec F S512x4096 .f32) (W : Vec F S4096 .f32) (A : Acc F) : Acc F :=
  tripsFrom (wsl W) (xsl X) 32 A

/-- The eight accumulators held at the fields of `A`, on any eight memrefs. -/
def accOn (c : Dev nD) (arg6 arg7 arg8 arg9 arg10 arg11 arg12 arg13 : Memref sig .tc .vmem S512x128 .f32) (A : Acc F) : sProp 𝕄 :=
  iprop(owns (c : Thread nD τ) arg6 fullShare A.mx ∗ owns (c : Thread nD τ) arg7 fullShare A.mn
    ∗ owns (c : Thread nD τ) arg8 fullShare A.s1 ∗ owns (c : Thread nD τ) arg9 fullShare A.s2
    ∗ owns (c : Thread nD τ) arg10 fullShare A.s3 ∗ owns (c : Thread nD τ) arg11 fullShare A.s4
    ∗ owns (c : Thread nD τ) arg12 fullShare A.sa ∗ owns (c : Thread nD τ) arg13 fullShare A.sq)

theorem accOwned_eq (c : Dev nD) (A : Acc F) : accOwned c A = accOn c scM0_0 scM0_1 scM0_2 scM0_3 scM0_4 scM0_5 scM0_6 scM0_7 A := rfl

end Cert.KernelIdeal.Body

end
-- ==== Proof.BodyData.lean ====
/-
  The kernel's proof data for the pipeline: what the eight accumulators hold after each grid point (by recursion on the
  point: reset at the first column tile of a row tile, carried on otherwise), what the output block holds after a point of
  the last column tile, the region invariant point by point, and the data record with its projections.
-/
import proofs.«101824_j84121229459701_2_alg».proof.Proof.BodyRunDefs
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulators point by point -/

/-- The eight accumulators AFTER the body at position `n`: the 32 lane groups of the point's blocks absorbed, from the
    reset values at the first column tile of a row tile, from what the point before left otherwise. -/
def accAt (c : Dev nD) : (n : ℕ) → n < cfg0.N → AccDefs.Acc F
  | 0, hn => loopOut (iblk m c 0 ⟨0, hn⟩) (iblk m c 1 ⟨0, hn⟩) AccDefs.accInit
  | n + 1, hn =>
    if h0 : (n + 1) % 4 = 0 then
      loopOut (iblk m c 0 ⟨n + 1, hn⟩) (iblk m c 1 ⟨n + 1, hn⟩) AccDefs.accInit
    else
      loopOut (iblk m c 0 ⟨n + 1, hn⟩) (iblk m c 1 ⟨n + 1, hn⟩) (accAt c n (Nat.lt_of_succ_lt hn))

/-- At the first column tile of a row tile: from the reset values. -/
theorem accAt_reset (c : Dev nD) (t : Fin cfg0.N) (h0 : t.val % 4 = 0) :
    accAt m c t.val t.isLt = loopOut (iblk m c 0 t) (iblk m c 1 t) AccDefs.accInit := by
  obtain ⟨n, hn⟩ := t
  cases n with
  | zero => exact rfl
  | succ n => exact dif_pos h0

/-- At any other column tile: from what the point before left. -/
theorem accAt_step (c : Dev nD) (t : Fin cfg0.N) (h0 : ¬t.val % 4 = 0) :
    accAt m c t.val t.isLt
      = loopOut (iblk m c 0 t) (iblk m c 1 t) (accAt m c (t.val - 1) (Nat.lt_of_le_of_lt (Nat.sub_le _ _) t.isLt)) := by
  obtain ⟨n, hn⟩ := t
  cases n with
  | zero => exact absurd (Nat.zero_mod _) h0
  | succ n => exact dif_neg h0

/-- What the output block's staging buffer holds after a point of the last column tile: the statistics of the row
    tile's final accumulators, scaled by the bias row. (At the other points the window is idle and this is not consulted.) -/
def outAt (c : Dev nD) (t : Fin cfg0.N) : Vec F S512x7 .f32 :=
  AccDefs.epilogue (accAt m c t.val t.isLt) (iblk m c 2 t)

/-! ## The region invariant -/

/-- Before position `n`: before the first point the class's invariant (every scratch at anything); afterwards the eight
    accumulators at what the point before left, and the generator register at some state. -/
def PhiS (c : Dev nD) : (n : ℕ) → n ≤ cfg0.N → sProp 𝕄
  | 0, _ => Pipeline.ΦA spec0 c
  | n + 1, hn => iprop(accOwned c (accAt m c n hn) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(accOwned c (accAt m c n hn) ∗ (∃ r, prngReg c r)) := rfl

theorem PhiS_pos (c : Dev nD) (n : ℕ) (h : n ≤ cfg0.N) (hz : n ≠ 0) :
    PhiS m c n h = iprop(accOwned c (accAt m c (n - 1) (by omega)) ∗ (∃ r, prngReg c r)) := by
  cases n with
  | zero => exact absurd rfl hz
  | succ n => rfl

/-! ## The pipeline's proof data -/

/-- The proof data of the one pipeline on core `c`: the arrays as the region finds them; after the body at point `t`
    each input's buffer at its block and the output's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

/-- The proof data's arrays are the region-entry contents (the definition projected, nothing unfolded). -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

end Cert.KernelIdeal.Body

end
-- ==== Proof.BodyRunA.lean ====
import proofs.«101824_j84121229459701_2_alg».proof.Proof.Gen.KernelIdeal.Frame
import proofs.«101824_j84121229459701_2_alg».proof.Proof.Gen.KernelIdeal.Loops
import proofs.«101824_j84121229459701_2_alg».proof.Proof.BodyRunDefs
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open AccDefs

/-- The step equation of the lane-group fold at a natural-number trip. -/
private theorem tripsFrom_succ_nat (ws : Fin 32 → Vec F S128 .f32) (xs : Fin 32 → Vec F S512x128 .f32) (n : ℕ) (h : n < 32) (A : Acc F) :
    tripsFrom ws xs (n + 1) A = tripStep (ws ⟨n, h⟩) (xs ⟨n, h⟩) (tripsFrom ws xs n A) := by
  rw [tripsFrom, dif_pos h]

/-! ## The first column tile of a row tile: the reset, then the 32 lane groups -/

theorem read_whole_store' (m : Memref sig .tc .vmem S512x128 .f32) (f : m.view.ty.Contents (Elt F)) (P Q : Vec F S512x128 .f32) (h : P = Q) :
    m.view.read (Elt F) (m.view.writes (Elt F) f [⟨Rect.unit (s := S512x128) ![0, 0] S512x128.size inb_S512x128_S512x128_0_0, P⟩]) = Q :=
  (read_whole_store m f P).trans h

set_option maxHeartbeats 4000000 in
theorem runA (c : Dev nD) (i : grid0.Coords) (arg2 : Memref sig .tc .vmem S512x4096 .f32) (harg2 : arg2.IsWhole) (arg3 : Memref sig .tc .vmem S4096 .f32) (harg3 : arg3.IsWhole) (arg4 : Memref sig .tc .vmem S7 .f32) (harg4 : arg4.IsWhole) (arg5 : Memref sig .tc .vmem S512x7 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc0 : cond0_0 i) (hc1 : ¬cond0_1 i)
    (X : Vec F S512x4096 .f32) (W : Vec F S4096 .f32) (B : Vec F S7 .f32) (D : Vec F S512x7 .f32) (K : PUnit → sProp 𝕄) :
    iprop(owns (c : Thread nD τ) arg2 fullShare X ∗ owns (c : Thread nD τ) arg3 fullShare W ∗ owns (c : Thread nD τ) arg4 fullShare B ∗ owns (c : Thread nD τ) arg5 fullShare D
        ∗ ((∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d))
        ∗ (iprop(owns (c : Thread nD τ) arg2 fullShare X ∗ owns (c : Thread nD τ) arg3 fullShare W ∗ owns (c : Thread nD τ) arg4 fullShare B ∗ owns (c : Thread nD τ) arg5 fullShare D
              ∗ accOn c arg6 arg7 arg8 arg9 arg10 arg11 arg12 arg13 (loopOut X W accInit)) -∗ K ⟨⟩))
      ⊢ wp frame (wpE (defs₀ (F := F)) Variants.none c none) Set.univ (cc0__kernel i arg2 harg2 arg3 harg3 arg4 harg4 arg5 harg5 arg6 harg6 arg7 harg7 arg8 harg8 arg9 harg9 arg10 harg10 arg11 harg11 arg12 harg12 arg13 harg13) K := by
  simp only [cc0__kernel_eq_skeleton]; unfold cc0__kernel_skel
  unfold accOn owns
  iintro ⟨H2, H3, H4, H5, ⟨⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩⟩, Hk⟩
  sl_exec (disch := first | exact hc0 | exact hc1)
  sl_unfold_run_names
  sl_for (fun n (_ : Unit) => tripRes c arg2 harg2 arg3 harg3 arg4 harg4 arg5 harg5 arg6 harg6 arg7 harg7 arg8 harg8 arg9 harg9 arg10 harg10 arg11 harg11 arg12 harg12 arg13 harg13 X W (tripsFrom (wsl W) (xsl X) n accInit)) $$ [H2 H3 H6 H7 H8 H9 H10 H11 H12 H13]
  case region => intro k acc; dsimp only; rw [tripsFrom_succ_nat _ _ k.val k.isLt]; exact trip_sound c i arg2 harg2 arg3 harg3 arg4 harg4 arg5 harg5 arg6 harg6 arg7 harg7 arg8 harg8 arg9 harg9 arg10 harg10 arg11 harg11 arg12 harg12 arg13 harg13 k X W _
  · unfold tripRes owns
    isplitl [H2]; · iexact H2
    isplitl [H3]; · iexact H3
    isplitl [H6]
    · iexists _; isplitr
      swap; · iexact H6
      ipureintro; exact read_whole_store' _ _ _ _ rfl
    isplitl [H7]
    · iexists _; isplitr
      swap; · iexact H7
      ipureintro; exact read_whole_store' _ _ _ _ rfl
    isplitl [H8]
    · iexists _; isplitr
      swap; · iexact H8
      ipureintro; exact read_whole_store' _ _ _ _ rfl
    isplitl [H9]
    · iexists _; isplitr
      swap; · iexact H9
      ipureintro; exact read_whole_store' _ _ _ _ rfl
    isplitl [H10]
    · iexists _; isplitr
      swap; · iexact H10
      ipureintro; exact read_whole_store' _ _ _ _ rfl
    isplitl [H11]
    · iexists _; isplitr
      swap; · iexact H11
      ipureintro; exact read_whole_store' _ _ _ _ rfl
    isplitl [H12]
    · iexists _; isplitr
      swap; · iexact H12
      ipureintro; exact read_whole_store' _ _ _ _ rfl
    iexists _; isplitr
    swap; · iexact H13
    ipureintro; exact read_whole_store' _ _ _ _ rfl
  iintro %acc HI
  unfold tripRes owns
  icases HI with ⟨H2, H3, H6, H7, H8, H9, H10, H11, H12, H13⟩
  sl_exec (disch := first | exact hc0 | exact hc1)
  sl_step
  iapply Hk
  unfold loopOut
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end Cert.KernelIdeal.Body

end
-- ==== Proof.BodyRunB.lean ====
import proofs.«101824_j84121229459701_2_alg».proof.Proof.Gen.KernelIdeal.Frame
import proofs.«101824_j84121229459701_2_alg».proof.Proof.Gen.KernelIdeal.Loops
import proofs.«101824_j84121229459701_2_alg».proof.Proof.BodyRunDefs
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open AccDefs

/-- The step equation of the lane-group fold at a natural-number trip. -/
private theorem tripsFrom_succ_nat (ws : Fin 32 → Vec F S128 .f32) (xs : Fin 32 → Vec F S512x128 .f32) (n : ℕ) (h : n < 32) (A : Acc F) :
    tripsFrom ws xs (n + 1) A = tripStep (ws ⟨n, h⟩) (xs ⟨n, h⟩) (tripsFrom ws xs n A) := by
  rw [tripsFrom, dif_pos h]

/-! ## A middle column tile: the 32 lane groups only -/

set_option maxHeartbeats 4000000 in
theorem runB (c : Dev nD) (i : grid0.Coords) (arg2 : Memref sig .tc .vmem S512x4096 .f32) (harg2 : arg2.IsWhole) (arg3 : Memref sig .tc .vmem S4096 .f32) (harg3 : arg3.IsWhole) (arg4 : Memref sig .tc .vmem S7 .f32) (harg4 : arg4.IsWhole) (arg5 : Memref sig .tc .vmem S512x7 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : ¬cond0_1 i)
    (X : Vec F S512x4096 .f32) (W : Vec F S4096 .f32) (B : Vec F S7 .f32) (D : Vec F S512x7 .f32) (A : Acc F) (K : PUnit → sProp 𝕄) :
    iprop(owns (c : Thread nD τ) arg2 fullShare X ∗ owns (c : Thread nD τ) arg3 fullShare W ∗ owns (c : Thread nD τ) arg4 fullShare B ∗ owns (c : Thread nD τ) arg5 fullShare D
        ∗ accOn c arg6 arg7 arg8 arg9 arg10 arg11 arg12 arg13 A
        ∗ (iprop(owns (c : Thread nD τ) arg2 fullShare X ∗ owns (c : Thread nD τ) arg3 fullShare W ∗ owns (c : Thread nD τ) arg4 fullShare B ∗ owns (c : Thread nD τ) arg5 fullShare D
              ∗ accOn c arg6 arg7 arg8 arg9 arg10 arg11 arg12 arg13 (loopOut X W A)) -∗ K ⟨⟩))
      ⊢ wp frame (wpE (defs₀ (F := F)) Variants.none c none) Set.univ (cc0__kernel i arg2 harg2 arg3 harg3 arg4 harg4 arg5 harg5 arg6 harg6 arg7 harg7 arg8 harg8 arg9 harg9 arg10 harg10 arg11 harg11 arg12 harg12 arg13 harg13) K := by
  simp only [cc0__kernel_eq_skeleton]; unfold cc0__kernel_skel
  unfold accOn
  iintro ⟨H2, H3, H4, H5, ⟨H6, H7, H8, H9, H10, H11, H12, H13⟩, Hk⟩
  sl_exec (disch := first | exact hc0 | exact hc1)
  sl_for (fun n (_ : Unit) => tripRes c arg2 harg2 arg3 harg3 arg4 harg4 arg5 harg5 arg6 harg6 arg7 harg7 arg8 harg8 arg9 harg9 arg10 harg10 arg11 harg11 arg12 harg12 arg13 harg13 X W (tripsFrom (wsl W) (xsl X) n A)) $$ [H2 H3 H6 H7 H8 H9 H10 H11 H12 H13]
  case region => intro k acc; dsimp only; rw [tripsFrom_succ_nat _ _ k.val k.isLt]; exact trip_sound c i arg2 harg2 arg3 harg3 arg4 harg4 arg5 harg5 arg6 harg6 arg7 harg7 arg8 harg8 arg9 harg9 arg10 harg10 arg11 harg11 arg12 harg12 arg13 harg13 k X W _
  · unfold tripRes
    isplitl [H2]; · iexact H2
    isplitl [H3]; · iexact H3
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro %acc HI
  unfold tripRes owns
  icases HI with ⟨⟨%f2, %hf2, H2⟩, ⟨%f3, %hf3, H3⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩
  obtain rfl := harg2.eq_unread hf2; obtain rfl := harg3.eq_unread hf3
  obtain rfl := harg6.eq_unread hf6; obtain rfl := harg7.eq_unread hf7; obtain rfl := harg8.eq_unread hf8; obtain rfl := harg9.eq_unread hf9
  obtain rfl := harg10.eq_unread hf10; obtain rfl := harg11.eq_unread hf11; obtain rfl := harg12.eq_unread hf12; obtain rfl := harg13.eq_unread hf13
  sl_exec (disch := first | exact hc0 | exact hc1)
  sl_step
  iapply Hk
  unfold loopOut
  isplitl [H2]
  · iexists _; isplitr
    swap; · iexact H2
    ipureintro; exact harg2.read_unread _
  isplitl [H3]
  · iexists _; isplitr
    swap; · iexact H3
    ipureintro; exact harg3.read_unread _
  isplitl [H4]; · iexact H4
  isplitl [H5]; · iexact H5
  isplitl [H6]
  · iexists _; isplitr
    swap; · iexact H6
    ipureintro; exact harg6.read_unread _
  isplitl [H7]
  · iexists _; isplitr
    swap; · iexact H7
    ipureintro; exact harg7.read_unread _
  isplitl [H8]
  · iexists _; isplitr
    swap; · iexact H8
    ipureintro; exact harg8.read_unread _
  isplitl [H9]
  · iexists _; isplitr
    swap; · iexact H9
    ipureintro; exact harg9.read_unread _
  isplitl [H10]
  · iexists _; isplitr
    swap; · iexact H10
    ipureintro; exact harg10.read_unread _
  isplitl [H11]
  · iexists _; isplitr
    swap; · iexact H11
    ipureintro; exact harg11.read_unread _
  isplitl [H12]
  · iexists _; isplitr
    swap; · iexact H12
    ipureintro; exact harg12.read_unread _
  iexists _; isplitr
  swap; · iexact H13
  ipureintro; exact harg13.read_unread _

end Cert.KernelIdeal.Body

end
-- ==== Proof.BodyRunC.lean ====
import proofs.«101824_j84121229459701_2_alg».proof.Proof.Gen.KernelIdeal.Frame
import proofs.«101824_j84121229459701_2_alg».proof.Proof.Gen.KernelIdeal.Loops
import proofs.«101824_j84121229459701_2_alg».proof.Proof.BodyRunDefs
import Idealize.ShloMosaic.Lib.Pipeline.Value
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open AccDefs

/-- The step equation of the lane-group fold at a natural-number trip. -/
private theorem tripsFrom_succ_nat (ws : Fin 32 → Vec F S128 .f32) (xs : Fin 32 → Vec F S512x128 .f32) (n : ℕ) (h : n < 32) (A : Acc F) :
    tripsFrom ws xs (n + 1) A = tripStep (ws ⟨n, h⟩) (xs ⟨n, h⟩) (tripsFrom ws xs n A) := by
  rw [tripsFrom, dif_pos h]

/-! ## The last column tile of a row tile: the 32 lane groups, then the lane reductions and the store of the statistics -/

theorem hz7 : (![0, 0] : Fin S512x7.rank → Nat) = fun _ => 0 := by
  funext a; match a with | ⟨0, _⟩ => rfl | ⟨1, _⟩ => rfl
theorem hz1 : (![0] : Fin S7.rank → Nat) = fun _ => 0 := by
  funext a; match a with | ⟨0, _⟩ => rfl

/-- A whole-block store into a whole 512 × 7 buffer leaves its payload. -/
theorem read_whole_store7 (m : Memref sig .tc .vmem S512x7 .f32) (f : m.view.ty.Contents (Elt F)) (P : Vec F S512x7 .f32) :
    m.view.read (Elt F) (m.view.writes (Elt F) f [⟨Rect.unit (s := S512x7) ![0, 0] S512x7.size inb_S512x7_S512x7_0_0, P⟩]) = P := by
  rw [View.read_writes_eq_canon _ _ _ (fun y => ⟨_, List.mem_singleton_self _, View.mem_set_unit_zero hz7 inb_S512x7_S512x7_0_0 y⟩), View.canon_unit_zero hz7]

omit [FloatOps F] in
/-- A whole load of a whole 7-element buffer reads its contents. -/
theorem readAt_whole1 (m : Memref sig .tc .vmem S7 .f32) (hm : m.IsWhole) (b : Vec F S7 .f32) :
    View.readAt (Elt F) m.view (Rect.unit (s := S7) ![0] S7.size inb_S7_S7_0).toLoadRect (hm.unread b) = b := by
  rw [View.readAt_eq_ld, hm.read_unread, View.ld_unit_zero hz1]

set_option maxHeartbeats 4000000 in
theorem runC (c : Dev nD) (i : grid0.Coords) (arg2 : Memref sig .tc .vmem S512x4096 .f32) (harg2 : arg2.IsWhole) (arg3 : Memref sig .tc .vmem S4096 .f32) (harg3 : arg3.IsWhole) (arg4 : Memref sig .tc .vmem S7 .f32) (harg4 : arg4.IsWhole) (arg5 : Memref sig .tc .vmem S512x7 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : cond0_1 i)
    (X : Vec F S512x4096 .f32) (W : Vec F S4096 .f32) (B : Vec F S7 .f32) (A : Acc F) (K : PUnit → sProp 𝕄) :
    iprop(owns (c : Thread nD τ) arg2 fullShare X ∗ owns (c : Thread nD τ) arg3 fullShare W ∗ owns (c : Thread nD τ) arg4 fullShare B ∗ (∃ d, owns (c : Thread nD τ) arg5 fullShare d)
        ∗ accOn c arg6 arg7 arg8 arg9 arg10 arg11 arg12 arg13 A
        ∗ (iprop(owns (c : Thread nD τ) arg2 fullShare X ∗ owns (c : Thread nD τ) arg3 fullShare W ∗ owns (c : Thread nD τ) arg4 fullShare B ∗ owns (c : Thread nD τ) arg5 fullShare (epilogue (loopOut X W A) B)
              ∗ accOn c arg6 arg7 arg8 arg9 arg10 arg11 arg12 arg13 (loopOut X W A)) -∗ K ⟨⟩))
      ⊢ wp frame (wpE (defs₀ (F := F)) Variants.none c none) Set.univ (cc0__kernel i arg2 harg2 arg3 harg3 arg4 harg4 arg5 harg5 arg6 harg6 arg7 harg7 arg8 harg8 arg9 harg9 arg10 harg10 arg11 harg11 arg12 harg12 arg13 harg13) K := by
  simp only [cc0__kernel_eq_skeleton]; unfold cc0__kernel_skel
  unfold accOn
  iintro ⟨H2, H3, H4, H5, ⟨H6, H7, H8, H9, H10, H11, H12, H13⟩, Hk⟩
  sl_exec (disch := first | exact hc0 | exact hc1)
  sl_for (fun n (_ : Unit) => tripRes c arg2 harg2 arg3 harg3 arg4 harg4 arg5 harg5 arg6 harg6 arg7 harg7 arg8 harg8 arg9 harg9 arg10 harg10 arg11 harg11 arg12 harg12 arg13 harg13 X W (tripsFrom (wsl W) (xsl X) n A)) $$ [H2 H3 H6 H7 H8 H9 H10 H11 H12 H13]
  case region => intro k acc; dsimp only; rw [tripsFrom_succ_nat _ _ k.val k.isLt]; exact trip_sound c i arg2 harg2 arg3 harg3 arg4 harg4 arg5 harg5 arg6 harg6 arg7 harg7 arg8 harg8 arg9 harg9 arg10 harg10 arg11 harg11 arg12 harg12 arg13 harg13 k X W _
  · unfold tripRes
    isplitl [H2]; · iexact H2
    isplitl [H3]; · iexact H3
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro %acc HI
  unfold tripRes owns
  icases HI with ⟨⟨%f2, %hf2, H2⟩, ⟨%f3, %hf3, H3⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩
  obtain rfl := harg2.eq_unread hf2; obtain rfl := harg3.eq_unread hf3
  obtain rfl := harg6.eq_unread hf6; obtain rfl := harg7.eq_unread hf7; obtain rfl := harg8.eq_unread hf8; obtain rfl := harg9.eq_unread hf9
  obtain rfl := harg10.eq_unread hf10; obtain rfl := harg11.eq_unread hf11; obtain rfl := harg12.eq_unread hf12; obtain rfl := harg13.eq_unread hf13
  icases H4 with ⟨%f4, %hf4, H4⟩
  obtain rfl := harg4.eq_unread hf4
  icases H5 with ⟨%d5, %f5, -, H5⟩
  sl_exec (disch := first | exact hc0 | exact hc1)
  sl_step
  sl_unfold_run_names
  iapply Hk
  unfold loopOut
  isplitl [H2]
  · iexists _; isplitr
    swap; · iexact H2
    ipureintro; exact harg2.read_unread _
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro
    rw [read_whole_store7, readAt_whole arg6 harg6, readAt_whole arg7 harg7, readAt_whole arg8 harg8, readAt_whole arg9 harg9,
      readAt_whole arg10 harg10, readAt_whole arg11 harg11, readAt_whole arg12 harg12, readAt_whole arg13 harg13, readAt_whole1 arg4 harg4]
    rfl
  isplitl [H6]
  · iexists _; isplitr
    swap; · iexact H6
    ipureintro; exact harg6.read_unread _
  isplitl [H7]
  · iexists _; isplitr
    swap; · iexact H7
    ipureintro; exact harg7.read_unread _
  isplitl [H8]
  · iexists _; isplitr
    swap; · iexact H8
    ipureintro; exact harg8.read_unread _
  isplitl [H9]
  · iexists _; isplitr
    swap; · iexact H9
    ipureintro; exact harg9.read_unread _
  isplitl [H10]
  · iexists _; isplitr
    swap; · iexact H10
    ipureintro; exact harg10.read_unread _
  isplitl [H11]
  · iexists _; isplitr
    swap; · iexact H11
    ipureintro; exact harg11.read_unread _
  isplitl [H12]
  · iexists _; isplitr
    swap; · iexact H12
    ipureintro; exact harg12.read_unread _
  iexists _; isplitr
  swap; · iexact H13
  ipureintro; exact harg13.read_unread _

end Cert.KernelIdeal.Body

end
-- ==== Proof.BodyRuns.lean ====
/-
  The kernel body at a grid point, in its three control cases (first column tile, a middle one, the last one).
-/
import proofs.«101824_j84121229459701_2_alg».proof.Proof.BodyRunA
import proofs.«101824_j84121229459701_2_alg».proof.Proof.BodyRunB
import proofs.«101824_j84121229459701_2_alg».proof.Proof.BodyRunC
-- ==== Proof.BodyFrame.lean ====
/-
  The kernel's frame: the body obligation at a generic point from the three per-case runs (first, middle, last column
  tile), the invariant's entry and exit, the launch, and the frame claim — the program terminates without fault and
  leaves its argument arrays unchanged.
-/
import proofs.«101824_j84121229459701_2_alg».proof.Proof.BodyData
import proofs.«101824_j84121229459701_2_alg».proof.Proof.BodyRuns
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t` (the library's body obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- The accumulators at anything, the eight written out. -/
theorem accAny_eq (c : Dev nD) :
    (accAny c : sProp 𝕄) = iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) := rfl

/-- Named contents forgotten, on the scratch operands. -/
theorem accOn_any (c : Dev nD) (A : AccDefs.Acc F) :
    accOn c scM0_0 scM0_1 scM0_2 scM0_3 scM0_4 scM0_5 scM0_6 scM0_7 A ⊢ (iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) : sProp 𝕄) :=
  accOwned_any c A

set_option maxHeartbeats 4800000 in
/-- The body at any point. The inputs' memrefs hold their blocks; the closed forms say which of the three cases the point
    is in (first column tile, a middle one, the last), and that case's run applies. The invariant hands the body the eight
    accumulators at what the point before left (at anything before the first point) and takes them back at this point's;
    the output block is left alone away from the last column tile (idle, not written back) and left at the statistics
    there; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [PhiS_castSucc m c t]
  have hN : t.val < 64 := lt_of_lt_of_eq t.isLt (show cfg0.N = 64 from N_0)
  by_cases h3 : t.val % 4 = 3
  · -- the last column tile: the output block is live and left at the statistics
    have h0 : ¬t.val % 4 = 0 := by omega
    have hz : t.val ≠ 0 := by omega
    have hc0 : ¬cond0_0 (grid0.coords t) := fun h => h0 ((hcond0_0 t).mp h)
    have hc1 : cond0_1 (grid0.coords t) := (hcond0_1 t).mpr h3
    rw [show (dats m 0 c).leavesExact 3 t = owns (c : Thread nD τ) (ms0_3 t) fullShare ((dats m 0 c).after 3 t) from by
      unfold Dat.leavesExact; rw [liveAt0_3 t hc1], after0_3]
    unfold outAt
    rw [accAt_step m c t h0, PhiS_pos m c _ _ hz]
    simp only [accOwned_eq]
    iintro ⟨⟨HS, Hg⟩, Ho, ⟨%d0, H0⟩, ⟨%d1, H1⟩, ⟨%d2, H2⟩, ⟨%d3, H3⟩⟩
    iapply (runC c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc0 hc1 (iblk m c 0 t) (iblk m c 1 t) (iblk m c 2 t)
      (accAt m c (t.val - 1) (Nat.lt_of_le_of_lt (Nat.sub_le _ _) t.isLt)) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]
      · iexact HS
      iexact Hg
    isplitl [Ho]; · iexact Ho
    isplitl [H0]; · iexact H0
    isplitl [H1]; · iexact H1
    isplitl [H2]; · iexact H2
    iexact H3
  · -- away from it the output block is idle and not written back: handed back as found
    have hc1 : ¬cond0_1 (grid0.coords t) := fun h => h3 ((hcond0_1 t).mp h)
    rw [Dat.leavesExact_idle (dats m 0 c) 3 t (idleAt0_3 t hc1) (noFlush0_3 t hc1)]
    by_cases h0 : t.val % 4 = 0
    · -- the first column tile: the accumulators are reset, whatever they held
      have hc0 : cond0_0 (grid0.coords t) := (hcond0_0 t).mpr h0
      rw [accAt_reset m c t h0]
      by_cases hz : t.val = 0
      · rw [PhiS_zero m c _ _ hz, PhiA0_eq, accAny_eq]
        simp only [accOwned_eq]
        iintro ⟨⟨HS, Hg⟩, Ho, ⟨%d0, H0⟩, ⟨%d1, H1⟩, ⟨%d2, H2⟩, ⟨%d3, H3⟩⟩
        iapply (runA c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc0 hc1 (iblk m c 0 t) (iblk m c 1 t) (iblk m c 2 t)
          ((dats m 0 c).before 3 t d3) _)
        isplitl [H0]; · iexact H0
        isplitl [H1]; · iexact H1
        isplitl [H2]; · iexact H2
        isplitl [H3]; · iexact H3
        isplitl [HS]; · iexact HS
        iintro ⟨H0, H1, H2, H3, HS⟩
        isplitl [HS Hg]
        · isplitl [HS]
          · iexact HS
          iexact Hg
        isplitl [Ho]; · iexact Ho
        isplitl [H0]; · iexact H0
        isplitl [H1]; · iexact H1
        isplitl [H2]; · iexact H2
        iexists _; iexact H3
      · rw [PhiS_pos m c _ _ hz]
        simp only [accOwned_eq]
        iintro ⟨⟨HS, Hg⟩, Ho, ⟨%d0, H0⟩, ⟨%d1, H1⟩, ⟨%d2, H2⟩, ⟨%d3, H3⟩⟩
        iapply (runA c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc0 hc1 (iblk m c 0 t) (iblk m c 1 t) (iblk m c 2 t)
          ((dats m 0 c).before 3 t d3) _)
        isplitl [H0]; · iexact H0
        isplitl [H1]; · iexact H1
        isplitl [H2]; · iexact H2
        isplitl [H3]; · iexact H3
        isplitl [HS]; · iapply (accOn_any c _); iexact HS
        iintro ⟨H0, H1, H2, H3, HS⟩
        isplitl [HS Hg]
        · isplitl [HS]
          · iexact HS
          iexact Hg
        isplitl [Ho]; · iexact Ho
        isplitl [H0]; · iexact H0
        isplitl [H1]; · iexact H1
        isplitl [H2]; · iexact H2
        iexists _; iexact H3
    · -- a middle column tile: the accumulators go on from what the point before left
      have hz : t.val ≠ 0 := fun h => h0 (by rw [h])
      have hc0 : ¬cond0_0 (grid0.coords t) := fun h => h0 ((hcond0_0 t).mp h)
      rw [accAt_step m c t h0, PhiS_pos m c _ _ hz]
      simp only [accOwned_eq]
      iintro ⟨⟨HS, Hg⟩, Ho, ⟨%d0, H0⟩, ⟨%d1, H1⟩, ⟨%d2, H2⟩, ⟨%d3, H3⟩⟩
      iapply (runB c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc0 hc1 (iblk m c 0 t) (iblk m c 1 t) (iblk m c 2 t)
        ((dats m 0 c).before 3 t d3) (accAt m c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]
        · iexact HS
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region (the class's invariant) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS, Hg⟩
  isplitl [HS]
  · iapply (accOwned_any c _); iexact HS
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- At the compiled mesh, for any values, from any memory with zero counters: every weakly fair execution of @main on the
    TensorCores terminates, and every final state has every array of the pipeline at what the library computes from the
    proof data and every other unscoped buffer as launched. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- THE FRAME: the program runs (terminates, no fault) and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.AccDefsK.lean ====
/-
  The kernel's arithmetic between its memory operations, as pure functions of what it loads. Eight lane-wide
  accumulators (one 512 × 128 tile each: running maximum, running minimum, and the running sums of y, y², y³, y⁴, |y|, √|y|,
  where y = x · w) are reset at the first column tile of a row tile, updated once per 128-lane group — 32 groups per column
  tile — and reduced across lanes after the last column tile into the 512 × 7 block of statistics, scaled by the bias row.
  Each step is a composition of the program's named payloads; the loaded slices are parameters.
-/
import proofs.«101824_j84121229459701_2_alg».proof.Proof.Gen.Kernel.Skeleton

noncomputable section

namespace Cert.Kernel.AccDefs

open Cert.Kernel Cert.Kernel.Gen Idealize.ShloMosaic

variable {F : FTy → Type} [FloatOps F]

/-- The eight accumulators, in the order of the kernel's scratch operands. -/
structure Acc (F : FTy → Type) where
  mx : FVec F S512x128 .f32
  mn : FVec F S512x128 .f32
  s1 : FVec F S512x128 .f32
  s2 : FVec F S512x128 .f32
  s3 : FVec F S512x128 .f32
  s4 : FVec F S512x128 .f32
  sa : FVec F S512x128 .f32
  sq : FVec F S512x128 .f32

/-- The reset at the first column tile: −∞, +∞, and six zeros. -/
def accInit : Acc F :=
  ⟨k0_pay7, k0_pay8, k0_pay9, k0_pay10, k0_pay11, k0_pay12, k0_pay13, k0_pay1 k0_pay14⟩

/-- One lane group: with `wg` the 128 weights and `xg` the 512 × 128 slice of the group, each accumulator absorbs
    y = xg · wg (the maximum and minimum by max / min, the sums by +). -/
def tripStep (wg : Vec F S128 .f32) (xg : Vec F S512x128 .f32) (A : Acc F) : Acc F :=
  ⟨k0_pay19 wg xg A.mx, k0_pay20 wg xg A.mn, k0_pay21 wg xg A.s1, k0_pay22 wg xg A.s2,
   k0_pay2 (k0_pay15 wg xg) (k0_pay16 wg xg) A.s3, k0_pay3 (k0_pay16 wg xg) A.s4,
   k0_pay4 (k0_pay17 wg xg) A.sa, k0_pay5 (k0_pay18 wg xg) A.sq⟩

/-- The accumulators after the first `n` lane groups of a column tile, from `A`. -/
def tripsFrom (ws : Fin 32 → Vec F S128 .f32) (xs : Fin 32 → Vec F S512x128 .f32) : ℕ → Acc F → Acc F
  | 0, A => A
  | n + 1, A => if h : n < 32 then tripStep (ws ⟨n, h⟩) (xs ⟨n, h⟩) (tripsFrom ws xs n A) else tripsFrom ws xs n A

theorem tripsFrom_succ (ws : Fin 32 → Vec F S128 .f32) (xs : Fin 32 → Vec F S512x128 .f32) (k : Fin 32) (A : Acc F) :
    tripsFrom ws xs (k.val + 1) A = tripStep (ws k) (xs k) (tripsFrom ws xs k.val A) := by
  rw [tripsFrom, dif_pos k.isLt]

/-- The block of seven statistics per row, scaled by the bias row `b`, from the final accumulators: the lane
    reductions, the moments' algebra, the concatenation. -/
def epilogue (A : Acc F) (b : Vec F S7 .f32) : FVec F S512x7 .f32 :=
  k0_pay6 (k0_pay32 (k0_pay27 A.s1) (k0_pay28 A.s2) (k0_pay29 A.s3))
    (k0_pay33 (k0_pay25 A.mx) (k0_pay26 A.mn))
    (k0_pay35 (k0_pay25 A.mx) (k0_pay28 A.s2))
    (k0_pay36 (k0_pay23 A.sa) (k0_pay28 A.s2))
    (k0_pay37 (k0_pay25 A.mx) (k0_pay28 A.s2))
    (k0_pay38 (k0_pay24 A.sq) (k0_pay25 A.mx))
    (k0_pay39 (k0_pay27 A.s1) (k0_pay28 A.s2))
    (k0_pay40 (k0_pay27 A.s1) (k0_pay28 A.s2))
    (k0_pay41 (k0_pay27 A.s1) (k0_pay28 A.s2) (k0_pay29 A.s3) (k0_pay30 A.s4))
    (Scalar.ofBits .f32 0x7FC00000#32) b

end Cert.Kernel.AccDefs

end
-- ==== Proof.BodyBaseK.lean ====
import proofs.«101824_j84121229459701_2_alg».proof.Proof.Gen.Kernel.Frame
import proofs.«101824_j84121229459701_2_alg».proof.Proof.Gen.Kernel.Loops
import proofs.«101824_j84121229459701_2_alg».proof.Proof.AccDefsK
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, decided over the 16 × 4 grid

The grid point `t` is (row tile `t / 4`, column tile `t % 4`). The accumulators are reset at column tile 0 and the
statistics are stored at column tile 3. -/

/-- "This is the first column tile": the condition of the reset, as the body computes it from the point. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last column tile": the condition of the final reduction and store. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last column tile the body stores nothing into the output block, -/
theorem idleAt0_3 : ∀ t : Fin cfg0.N, ¬cond0_1 (grid0.coords t) → cfg0.idle 3 (grid0.coords t) = true := by decide +kernel
/-- and the block is not written back there; -/
theorem noFlush0_3 : ∀ t : Fin cfg0.N, ¬cond0_1 (grid0.coords t) → (cfg0.win 3).flush t = false := by decide +kernel
/-- at the last column tile it is live. -/
theorem liveAt0_3 : ∀ t : Fin cfg0.N, cond0_1 (grid0.coords t) → cfg0.idle 3 (grid0.coords t) = false := by decide +kernel

/-! ## The memrefs the body is called with -/

abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S7 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x7 .f32 := win0_3.stage (cfg0.slots t 3)
abbrev hs0_3 (t : Fin cfg0.N) : (ms0_3 t).IsWhole := hstage0_3 ((cfg0.slots t 3).cast nbuf0_3)

/-- The eight accumulators' buffers: whole scoped buffers of the kernel's own. -/
abbrev scM0_0 : Memref sig .tc .vmem S512x128 .f32 := Memref.whole cc0_scratch0
abbrev scM0_1 : Memref sig .tc .vmem S512x128 .f32 := Memref.whole cc0_scratch1
abbrev scM0_2 : Memref sig .tc .vmem S512x128 .f32 := Memref.whole cc0_scratch2
abbrev scM0_3 : Memref sig .tc .vmem S512x128 .f32 := Memref.whole cc0_scratch3
abbrev scM0_4 : Memref sig .tc .vmem S512x128 .f32 := Memref.whole cc0_scratch4
abbrev scM0_5 : Memref sig .tc .vmem S512x128 .f32 := Memref.whole cc0_scratch5
abbrev scM0_6 : Memref sig .tc .vmem S512x128 .f32 := Memref.whole cc0_scratch6
abbrev scM0_7 : Memref sig .tc .vmem S512x128 .f32 := Memref.whole cc0_scratch7

/-- The eight accumulators held at the fields of `A`. -/
def accOwned (c : Dev nD) (A : AccDefs.Acc F) : sProp 𝕄 :=
  iprop(owns (c : Thread nD τ) scM0_0 fullShare A.mx ∗ owns (c : Thread nD τ) scM0_1 fullShare A.mn
    ∗ owns (c : Thread nD τ) scM0_2 fullShare A.s1 ∗ owns (c : Thread nD τ) scM0_3 fullShare A.s2
    ∗ owns (c : Thread nD τ) scM0_4 fullShare A.s3 ∗ owns (c : Thread nD τ) scM0_5 fullShare A.s4
    ∗ owns (c : Thread nD τ) scM0_6 fullShare A.sa ∗ owns (c : Thread nD τ) scM0_7 fullShare A.sq)

/-- The eight accumulators held at anything. -/
def accAny (c : Dev nD) : sProp 𝕄 :=
  iprop((∃ d, owns (c : Thread nD τ) scM0_0 fullShare d) ∗ (∃ d, owns (c : Thread nD τ) scM0_1 fullShare d)
    ∗ (∃ d, owns (c : Thread nD τ) scM0_2 fullShare d) ∗ (∃ d, owns (c : Thread nD τ) scM0_3 fullShare d)
    ∗ (∃ d, owns (c : Thread nD τ) scM0_4 fullShare d) ∗ (∃ d, owns (c : Thread nD τ) scM0_5 fullShare d)
    ∗ (∃ d, owns (c : Thread nD τ) scM0_6 fullShare d) ∗ (∃ d, owns (c : Thread nD τ) scM0_7 fullShare d))

/-- The region's class invariant: the eight accumulators at anything, and the generator register at some state. -/
theorem PhiA0_eq (c : Dev nD) :
    (Pipeline.ΦA spec0 c : sProp 𝕄) = iprop(accAny c ∗ (∃ r, prngReg c r)) := by
  unfold Pipeline.ΦA accAny; rw [scopedRest0_eq]
  simp only [scM0_0, scM0_1, scM0_2, scM0_3, scM0_4, scM0_5, scM0_6, scM0_7, owns_whole]; try rfl

theorem accOwned_any (c : Dev nD) (A : AccDefs.Acc F) : accOwned c A ⊢ (accAny c : sProp 𝕄) := by
  unfold accOwned accAny
  iintro ⟨H0, H1, H2, H3, H4, H5, H6, H7⟩
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  iexists _; iexact H7

end Cert.Kernel.Body

end
-- ==== Proof.BodyTripK.lean ====
import proofs.«101824_j84121229459701_2_alg».proof.Proof.Gen.Kernel.Frame
import proofs.«101824_j84121229459701_2_alg».proof.Proof.Gen.Kernel.Loops
import proofs.«101824_j84121229459701_2_alg».proof.Proof.BodyBaseK
import Idealize.ShloMosaic.Lib.Pipeline.Value
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open AccDefs

/-! ## One lane group of the column tile

With the column tile's staged block `X` (512 × 4096) and weights `W` (4096), lane group `k` reads the 512 × 128 slice of `X`
and the 128 weights at column offset 128·k, and every accumulator, read whole, is stored back whole with the group absorbed. -/

/-- Lane group `k`'s slice of the staged block, and its weights. -/
def xsl (X : Vec F S512x4096 .f32) (k : Fin 32) : Vec F S512x128 .f32 :=
  View.ld X (Rect.unit (s := S512x4096) (k0_off2 k) S512x128.size (k0_off2_inb k))
def wsl (W : Vec F S4096 .f32) (k : Fin 32) : Vec F S128 .f32 :=
  View.ld W (Rect.unit (s := S4096) (k0_off1 k) S128.size (k0_off1_inb k))

/-- What one lane group touches: the two staged inputs and the eight accumulators, on any whole memrefs. -/
def tripRes (c : Dev nD) (arg2 : Memref sig .tc .vmem S512x4096 .f32) (harg2 : arg2.IsWhole) (arg3 : Memref sig .tc .vmem S4096 .f32) (harg3 : arg3.IsWhole) (arg4 : Memref sig .tc .vmem S7 .f32) (harg4 : arg4.IsWhole) (arg5 : Memref sig .tc .vmem S512x7 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole)
    (X : Vec F S512x4096 .f32) (W : Vec F S4096 .f32) (A : Acc F) : sProp 𝕄 :=
  iprop(owns (c : Thread nD τ) arg2 fullShare X ∗ owns (c : Thread nD τ) arg3 fullShare W
    ∗ owns (c : Thread nD τ) arg6 fullShare A.mx ∗ owns (c : Thread nD τ) arg7 fullShare A.mn ∗ owns (c : Thread nD τ) arg8 fullShare A.s1 ∗ owns (c : Thread nD τ) arg9 fullShare A.s2
    ∗ owns (c : Thread nD τ) arg10 fullShare A.s3 ∗ owns (c : Thread nD τ) arg11 fullShare A.s4 ∗ owns (c : Thread nD τ) arg12 fullShare A.sa ∗ owns (c : Thread nD τ) arg13 fullShare A.sq)

theorem hz2 : (![0, 0] : Fin S512x128.rank → Nat) = fun _ => 0 := by
  funext a; match a with | ⟨0, _⟩ => rfl | ⟨1, _⟩ => rfl

/-- A whole-block store into a whole buffer leaves its payload. -/
theorem read_whole_store (m : Memref sig .tc .vmem S512x128 .f32) (f : m.view.ty.Contents (Elt F)) (P : Vec F S512x128 .f32) :
    m.view.read (Elt F) (m.view.writes (Elt F) f [⟨Rect.unit (s := S512x128) ![0, 0] S512x128.size inb_S512x128_S512x128_0_0, P⟩]) = P := by
  rw [View.read_writes_eq_canon _ _ _ (fun y => ⟨_, List.mem_singleton_self _, View.mem_set_unit_zero hz2 inb_S512x128_S512x128_0_0 y⟩), View.canon_unit_zero hz2]

omit [FloatOps F] in
/-- A whole-block load of a whole buffer reads its contents. -/
theorem readAt_whole (m : Memref sig .tc .vmem S512x128 .f32) (hm : m.IsWhole) (a : Vec F S512x128 .f32) :
    View.readAt (Elt F) m.view (Rect.unit (s := S512x128) ![0, 0] S512x128.size inb_S512x128_S512x128_0_0).toLoadRect (hm.unread a) = a := by
  rw [View.readAt_eq_ld, hm.read_unread, View.ld_unit_zero hz2]

set_option maxHeartbeats 4000000 in
/-- One lane group, from the accumulators at `A` to the accumulators at `tripStep` of the group's slices. -/
theorem trip_sound (c : Dev nD) (i : grid0.Coords) (arg2 : Memref sig .tc .vmem S512x4096 .f32) (harg2 : arg2.IsWhole) (arg3 : Memref sig .tc .vmem S4096 .f32) (harg3 : arg3.IsWhole) (arg4 : Memref sig .tc .vmem S7 .f32) (harg4 : arg4.IsWhole) (arg5 : Memref sig .tc .vmem S512x7 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (k : Fin k0_t1_loop.trips)
    (X : Vec F S512x4096 .f32) (W : Vec F S4096 .f32) (A : Acc F) :
    tripRes c arg2 harg2 arg3 harg3 arg4 harg4 arg5 harg5 arg6 harg6 arg7 harg7 arg8 harg8 arg9 harg9 arg10 harg10 arg11 harg11 arg12 harg12 arg13 harg13 X W A
      ⊢ wp frame (wpE (defs₀ (F := F)) Variants.none c none) Set.univ (k0_t1_body i arg2 harg2 arg3 harg3 arg4 harg4 arg5 harg5 arg6 harg6 arg7 harg7 arg8 harg8 arg9 harg9 arg10 harg10 arg11 harg11 arg12 harg12 arg13 harg13 k ())
          (fun _ => tripRes c arg2 harg2 arg3 harg3 arg4 harg4 arg5 harg5 arg6 harg6 arg7 harg7 arg8 harg8 arg9 harg9 arg10 harg10 arg11 harg11 arg12 harg12 arg13 harg13 X W (tripStep (wsl W k) (xsl X k) A)) := by
  unfold k0_t1_body tripRes
  unfold owns
  iintro ⟨⟨%f2, %hf2, H2⟩, ⟨%f3, %hf3, H3⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩
  obtain rfl := harg2.eq_unread hf2; obtain rfl := harg3.eq_unread hf3
  obtain rfl := harg6.eq_unread hf6; obtain rfl := harg7.eq_unread hf7; obtain rfl := harg8.eq_unread hf8; obtain rfl := harg9.eq_unread hf9
  obtain rfl := harg10.eq_unread hf10; obtain rfl := harg11.eq_unread hf11; obtain rfl := harg12.eq_unread hf12; obtain rfl := harg13.eq_unread hf13
  sl_exec
  sl_step
  sl_unfold_run_names
  have hx : View.readAt (Elt F) arg2.view (Rect.unit (s := S512x4096) (k0_off2 k) S512x128.size (k0_off2_inb k)).toLoadRect (harg2.unread X) = xsl X k := by
    rw [View.readAt_eq_ld, harg2.read_unread]; rfl
  have hw : View.readAt (Elt F) arg3.view (Rect.unit (s := S4096) (k0_off1 k) S128.size (k0_off1_inb k)).toLoadRect (harg3.unread W) = wsl W k := by
    rw [View.readAt_eq_ld, harg3.read_unread]; rfl
  isplitl [H2]
  · iexists _; isplitr
    swap; · iexact H2
    ipureintro; exact harg2.read_unread _
  isplitl [H3]
  · iexists _; isplitr
    swap; · iexact H3
    ipureintro; exact harg3.read_unread _
  isplitl [H6]
  · iexists _; isplitr
    swap; · iexact H6
    ipureintro; rw [read_whole_store, hw, hx, readAt_whole]; rfl
  isplitl [H7]
  · iexists _; isplitr
    swap; · iexact H7
    ipureintro; rw [read_whole_store, hw, hx, readAt_whole]; rfl
  isplitl [H8]
  · iexists _; isplitr
    swap; · iexact H8
    ipureintro; rw [read_whole_store, hw, hx, readAt_whole]; rfl
  isplitl [H9]
  · iexists _; isplitr
    swap; · iexact H9
    ipureintro; rw [read_whole_store, hw, hx, readAt_whole]; rfl
  isplitl [H10]
  · iexists _; isplitr
    swap; · iexact H10
    ipureintro; rw [read_whole_store, hw, hx, readAt_whole]; rfl
  isplitl [H11]
  · iexists _; isplitr
    swap; · iexact H11
    ipureintro; rw [read_whole_store, hw, hx, readAt_whole]; rfl
  isplitl [H12]
  · iexists _; isplitr
    swap; · iexact H12
    ipureintro; rw [read_whole_store, hw, hx, readAt_whole]; rfl
  iexists _; isplitr
  swap; · iexact H13
  ipureintro; rw [read_whole_store, hw, hx, readAt_whole]; rfl

end Cert.Kernel.Body

end
-- ==== Proof.BodyRunDefsK.lean ====
import proofs.«101824_j84121229459701_2_alg».proof.Proof.Gen.Kernel.Frame
import proofs.«101824_j84121229459701_2_alg».proof.Proof.Gen.Kernel.Loops
import proofs.«101824_j84121229459701_2_alg».proof.Proof.BodyTripK
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open AccDefs

/-- The accumulators after all 32 lane groups of a column tile whose staged block is `X` and weights `W`, from `A`. -/
def loopOut (X : Vec F S512x4096 .f32) (W : Vec F S4096 .f32) (A : Acc F) : Acc F :=
  tripsFrom (wsl W) (xsl X) 32 A

/-- The eight accumulators held at the fields of `A`, on any eight memrefs. -/
def accOn (c : Dev nD) (arg6 arg7 arg8 arg9 arg10 arg11 arg12 arg13 : Memref sig .tc .vmem S512x128 .f32) (A : Acc F) : sProp 𝕄 :=
  iprop(owns (c : Thread nD τ) arg6 fullShare A.mx ∗ owns (c : Thread nD τ) arg7 fullShare A.mn
    ∗ owns (c : Thread nD τ) arg8 fullShare A.s1 ∗ owns (c : Thread nD τ) arg9 fullShare A.s2
    ∗ owns (c : Thread nD τ) arg10 fullShare A.s3 ∗ owns (c : Thread nD τ) arg11 fullShare A.s4
    ∗ owns (c : Thread nD τ) arg12 fullShare A.sa ∗ owns (c : Thread nD τ) arg13 fullShare A.sq)

theorem accOwned_eq (c : Dev nD) (A : Acc F) : accOwned c A = accOn c scM0_0 scM0_1 scM0_2 scM0_3 scM0_4 scM0_5 scM0_6 scM0_7 A := rfl

end Cert.Kernel.Body

end
-- ==== Proof.BodyDataK.lean ====
/-
  The kernel's proof data for the pipeline: what the eight accumulators hold after each grid point (by recursion on the
  point: reset at the first column tile of a row tile, carried on otherwise), what the output block holds after a point of
  the last column tile, the region invariant point by point, and the data record with its projections.
-/
import proofs.«101824_j84121229459701_2_alg».proof.Proof.BodyRunDefsK
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulators point by point -/

/-- The eight accumulators AFTER the body at position `n`: the 32 lane groups of the point's blocks absorbed, from the
    reset values at the first column tile of a row tile, from what the point before left otherwise. -/
def accAt (c : Dev nD) : (n : ℕ) → n < cfg0.N → AccDefs.Acc F
  | 0, hn => loopOut (iblk m c 0 ⟨0, hn⟩) (iblk m c 1 ⟨0, hn⟩) AccDefs.accInit
  | n + 1, hn =>
    if h0 : (n + 1) % 4 = 0 then
      loopOut (iblk m c 0 ⟨n + 1, hn⟩) (iblk m c 1 ⟨n + 1, hn⟩) AccDefs.accInit
    else
      loopOut (iblk m c 0 ⟨n + 1, hn⟩) (iblk m c 1 ⟨n + 1, hn⟩) (accAt c n (Nat.lt_of_succ_lt hn))

/-- At the first column tile of a row tile: from the reset values. -/
theorem accAt_reset (c : Dev nD) (t : Fin cfg0.N) (h0 : t.val % 4 = 0) :
    accAt m c t.val t.isLt = loopOut (iblk m c 0 t) (iblk m c 1 t) AccDefs.accInit := by
  obtain ⟨n, hn⟩ := t
  cases n with
  | zero => exact rfl
  | succ n => exact dif_pos h0

/-- At any other column tile: from what the point before left. -/
theorem accAt_step (c : Dev nD) (t : Fin cfg0.N) (h0 : ¬t.val % 4 = 0) :
    accAt m c t.val t.isLt
      = loopOut (iblk m c 0 t) (iblk m c 1 t) (accAt m c (t.val - 1) (Nat.lt_of_le_of_lt (Nat.sub_le _ _) t.isLt)) := by
  obtain ⟨n, hn⟩ := t
  cases n with
  | zero => exact absurd (Nat.zero_mod _) h0
  | succ n => exact dif_neg h0

/-- What the output block's staging buffer holds after a point of the last column tile: the statistics of the row
    tile's final accumulators, scaled by the bias row. (At the other points the window is idle and this is not consulted.) -/
def outAt (c : Dev nD) (t : Fin cfg0.N) : Vec F S512x7 .f32 :=
  AccDefs.epilogue (accAt m c t.val t.isLt) (iblk m c 2 t)

/-! ## The region invariant -/

/-- Before position `n`: before the first point the class's invariant (every scratch at anything); afterwards the eight
    accumulators at what the point before left, and the generator register at some state. -/
def PhiS (c : Dev nD) : (n : ℕ) → n ≤ cfg0.N → sProp 𝕄
  | 0, _ => Pipeline.ΦA spec0 c
  | n + 1, hn => iprop(accOwned c (accAt m c n hn) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(accOwned c (accAt m c n hn) ∗ (∃ r, prngReg c r)) := rfl

theorem PhiS_pos (c : Dev nD) (n : ℕ) (h : n ≤ cfg0.N) (hz : n ≠ 0) :
    PhiS m c n h = iprop(accOwned c (accAt m c (n - 1) (by omega)) ∗ (∃ r, prngReg c r)) := by
  cases n with
  | zero => exact absurd rfl hz
  | succ n => rfl

/-! ## The pipeline's proof data -/

/-- The proof data of the one pipeline on core `c`: the arrays as the region finds them; after the body at point `t`
    each input's buffer at its block and the output's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

/-- The proof data's arrays are the region-entry contents (the definition projected, nothing unfolded). -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

end Cert.Kernel.Body

end
-- ==== Proof.BodyRunAK.lean ====
import proofs.«101824_j84121229459701_2_alg».proof.Proof.Gen.Kernel.Frame
import proofs.«101824_j84121229459701_2_alg».proof.Proof.Gen.Kernel.Loops
import proofs.«101824_j84121229459701_2_alg».proof.Proof.BodyRunDefsK
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open AccDefs

/-- The step equation of the lane-group fold at a natural-number trip. -/
private theorem tripsFrom_succ_nat (ws : Fin 32 → Vec F S128 .f32) (xs : Fin 32 → Vec F S512x128 .f32) (n : ℕ) (h : n < 32) (A : Acc F) :
    tripsFrom ws xs (n + 1) A = tripStep (ws ⟨n, h⟩) (xs ⟨n, h⟩) (tripsFrom ws xs n A) := by
  rw [tripsFrom, dif_pos h]

/-! ## The first column tile of a row tile: the reset, then the 32 lane groups -/

theorem read_whole_store' (m : Memref sig .tc .vmem S512x128 .f32) (f : m.view.ty.Contents (Elt F)) (P Q : Vec F S512x128 .f32) (h : P = Q) :
    m.view.read (Elt F) (m.view.writes (Elt F) f [⟨Rect.unit (s := S512x128) ![0, 0] S512x128.size inb_S512x128_S512x128_0_0, P⟩]) = Q :=
  (read_whole_store m f P).trans h

set_option maxHeartbeats 4000000 in
theorem runA (c : Dev nD) (i : grid0.Coords) (arg2 : Memref sig .tc .vmem S512x4096 .f32) (harg2 : arg2.IsWhole) (arg3 : Memref sig .tc .vmem S4096 .f32) (harg3 : arg3.IsWhole) (arg4 : Memref sig .tc .vmem S7 .f32) (harg4 : arg4.IsWhole) (arg5 : Memref sig .tc .vmem S512x7 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc0 : cond0_0 i) (hc1 : ¬cond0_1 i)
    (X : Vec F S512x4096 .f32) (W : Vec F S4096 .f32) (B : Vec F S7 .f32) (D : Vec F S512x7 .f32) (K : PUnit → sProp 𝕄) :
    iprop(owns (c : Thread nD τ) arg2 fullShare X ∗ owns (c : Thread nD τ) arg3 fullShare W ∗ owns (c : Thread nD τ) arg4 fullShare B ∗ owns (c : Thread nD τ) arg5 fullShare D
        ∗ ((∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d))
        ∗ (iprop(owns (c : Thread nD τ) arg2 fullShare X ∗ owns (c : Thread nD τ) arg3 fullShare W ∗ owns (c : Thread nD τ) arg4 fullShare B ∗ owns (c : Thread nD τ) arg5 fullShare D
              ∗ accOn c arg6 arg7 arg8 arg9 arg10 arg11 arg12 arg13 (loopOut X W accInit)) -∗ K ⟨⟩))
      ⊢ wp frame (wpE (defs₀ (F := F)) Variants.none c none) Set.univ (cc0__kernel i arg2 harg2 arg3 harg3 arg4 harg4 arg5 harg5 arg6 harg6 arg7 harg7 arg8 harg8 arg9 harg9 arg10 harg10 arg11 harg11 arg12 harg12 arg13 harg13) K := by
  simp only [cc0__kernel_eq_skeleton]; unfold cc0__kernel_skel
  unfold accOn owns
  iintro ⟨H2, H3, H4, H5, ⟨⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩⟩, Hk⟩
  sl_exec (disch := first | exact hc0 | exact hc1)
  sl_unfold_run_names
  sl_for (fun n (_ : Unit) => tripRes c arg2 harg2 arg3 harg3 arg4 harg4 arg5 harg5 arg6 harg6 arg7 harg7 arg8 harg8 arg9 harg9 arg10 harg10 arg11 harg11 arg12 harg12 arg13 harg13 X W (tripsFrom (wsl W) (xsl X) n accInit)) $$ [H2 H3 H6 H7 H8 H9 H10 H11 H12 H13]
  case region => intro k acc; dsimp only; rw [tripsFrom_succ_nat _ _ k.val k.isLt]; exact trip_sound c i arg2 harg2 arg3 harg3 arg4 harg4 arg5 harg5 arg6 harg6 arg7 harg7 arg8 harg8 arg9 harg9 arg10 harg10 arg11 harg11 arg12 harg12 arg13 harg13 k X W _
  · unfold tripRes owns
    isplitl [H2]; · iexact H2
    isplitl [H3]; · iexact H3
    isplitl [H6]
    · iexists _; isplitr
      swap; · iexact H6
      ipureintro; exact read_whole_store' _ _ _ _ rfl
    isplitl [H7]
    · iexists _; isplitr
      swap; · iexact H7
      ipureintro; exact read_whole_store' _ _ _ _ rfl
    isplitl [H8]
    · iexists _; isplitr
      swap; · iexact H8
      ipureintro; exact read_whole_store' _ _ _ _ rfl
    isplitl [H9]
    · iexists _; isplitr
      swap; · iexact H9
      ipureintro; exact read_whole_store' _ _ _ _ rfl
    isplitl [H10]
    · iexists _; isplitr
      swap; · iexact H10
      ipureintro; exact read_whole_store' _ _ _ _ rfl
    isplitl [H11]
    · iexists _; isplitr
      swap; · iexact H11
      ipureintro; exact read_whole_store' _ _ _ _ rfl
    isplitl [H12]
    · iexists _; isplitr
      swap; · iexact H12
      ipureintro; exact read_whole_store' _ _ _ _ rfl
    iexists _; isplitr
    swap; · iexact H13
    ipureintro; exact read_whole_store' _ _ _ _ rfl
  iintro %acc HI
  unfold tripRes owns
  icases HI with ⟨H2, H3, H6, H7, H8, H9, H10, H11, H12, H13⟩
  sl_exec (disch := first | exact hc0 | exact hc1)
  sl_step
  iapply Hk
  unfold loopOut
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end Cert.Kernel.Body

end
-- ==== Proof.BodyRunBK.lean ====
import proofs.«101824_j84121229459701_2_alg».proof.Proof.Gen.Kernel.Frame
import proofs.«101824_j84121229459701_2_alg».proof.Proof.Gen.Kernel.Loops
import proofs.«101824_j84121229459701_2_alg».proof.Proof.BodyRunDefsK
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open AccDefs

/-- The step equation of the lane-group fold at a natural-number trip. -/
private theorem tripsFrom_succ_nat (ws : Fin 32 → Vec F S128 .f32) (xs : Fin 32 → Vec F S512x128 .f32) (n : ℕ) (h : n < 32) (A : Acc F) :
    tripsFrom ws xs (n + 1) A = tripStep (ws ⟨n, h⟩) (xs ⟨n, h⟩) (tripsFrom ws xs n A) := by
  rw [tripsFrom, dif_pos h]

/-! ## A middle column tile: the 32 lane groups only -/

set_option maxHeartbeats 4000000 in
theorem runB (c : Dev nD) (i : grid0.Coords) (arg2 : Memref sig .tc .vmem S512x4096 .f32) (harg2 : arg2.IsWhole) (arg3 : Memref sig .tc .vmem S4096 .f32) (harg3 : arg3.IsWhole) (arg4 : Memref sig .tc .vmem S7 .f32) (harg4 : arg4.IsWhole) (arg5 : Memref sig .tc .vmem S512x7 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : ¬cond0_1 i)
    (X : Vec F S512x4096 .f32) (W : Vec F S4096 .f32) (B : Vec F S7 .f32) (D : Vec F S512x7 .f32) (A : Acc F) (K : PUnit → sProp 𝕄) :
    iprop(owns (c : Thread nD τ) arg2 fullShare X ∗ owns (c : Thread nD τ) arg3 fullShare W ∗ owns (c : Thread nD τ) arg4 fullShare B ∗ owns (c : Thread nD τ) arg5 fullShare D
        ∗ accOn c arg6 arg7 arg8 arg9 arg10 arg11 arg12 arg13 A
        ∗ (iprop(owns (c : Thread nD τ) arg2 fullShare X ∗ owns (c : Thread nD τ) arg3 fullShare W ∗ owns (c : Thread nD τ) arg4 fullShare B ∗ owns (c : Thread nD τ) arg5 fullShare D
              ∗ accOn c arg6 arg7 arg8 arg9 arg10 arg11 arg12 arg13 (loopOut X W A)) -∗ K ⟨⟩))
      ⊢ wp frame (wpE (defs₀ (F := F)) Variants.none c none) Set.univ (cc0__kernel i arg2 harg2 arg3 harg3 arg4 harg4 arg5 harg5 arg6 harg6 arg7 harg7 arg8 harg8 arg9 harg9 arg10 harg10 arg11 harg11 arg12 harg12 arg13 harg13) K := by
  simp only [cc0__kernel_eq_skeleton]; unfold cc0__kernel_skel
  unfold accOn
  iintro ⟨H2, H3, H4, H5, ⟨H6, H7, H8, H9, H10, H11, H12, H13⟩, Hk⟩
  sl_exec (disch := first | exact hc0 | exact hc1)
  sl_for (fun n (_ : Unit) => tripRes c arg2 harg2 arg3 harg3 arg4 harg4 arg5 harg5 arg6 harg6 arg7 harg7 arg8 harg8 arg9 harg9 arg10 harg10 arg11 harg11 arg12 harg12 arg13 harg13 X W (tripsFrom (wsl W) (xsl X) n A)) $$ [H2 H3 H6 H7 H8 H9 H10 H11 H12 H13]
  case region => intro k acc; dsimp only; rw [tripsFrom_succ_nat _ _ k.val k.isLt]; exact trip_sound c i arg2 harg2 arg3 harg3 arg4 harg4 arg5 harg5 arg6 harg6 arg7 harg7 arg8 harg8 arg9 harg9 arg10 harg10 arg11 harg11 arg12 harg12 arg13 harg13 k X W _
  · unfold tripRes
    isplitl [H2]; · iexact H2
    isplitl [H3]; · iexact H3
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro %acc HI
  unfold tripRes owns
  icases HI with ⟨⟨%f2, %hf2, H2⟩, ⟨%f3, %hf3, H3⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩
  obtain rfl := harg2.eq_unread hf2; obtain rfl := harg3.eq_unread hf3
  obtain rfl := harg6.eq_unread hf6; obtain rfl := harg7.eq_unread hf7; obtain rfl := harg8.eq_unread hf8; obtain rfl := harg9.eq_unread hf9
  obtain rfl := harg10.eq_unread hf10; obtain rfl := harg11.eq_unread hf11; obtain rfl := harg12.eq_unread hf12; obtain rfl := harg13.eq_unread hf13
  sl_exec (disch := first | exact hc0 | exact hc1)
  sl_step
  iapply Hk
  unfold loopOut
  isplitl [H2]
  · iexists _; isplitr
    swap; · iexact H2
    ipureintro; exact harg2.read_unread _
  isplitl [H3]
  · iexists _; isplitr
    swap; · iexact H3
    ipureintro; exact harg3.read_unread _
  isplitl [H4]; · iexact H4
  isplitl [H5]; · iexact H5
  isplitl [H6]
  · iexists _; isplitr
    swap; · iexact H6
    ipureintro; exact harg6.read_unread _
  isplitl [H7]
  · iexists _; isplitr
    swap; · iexact H7
    ipureintro; exact harg7.read_unread _
  isplitl [H8]
  · iexists _; isplitr
    swap; · iexact H8
    ipureintro; exact harg8.read_unread _
  isplitl [H9]
  · iexists _; isplitr
    swap; · iexact H9
    ipureintro; exact harg9.read_unread _
  isplitl [H10]
  · iexists _; isplitr
    swap; · iexact H10
    ipureintro; exact harg10.read_unread _
  isplitl [H11]
  · iexists _; isplitr
    swap; · iexact H11
    ipureintro; exact harg11.read_unread _
  isplitl [H12]
  · iexists _; isplitr
    swap; · iexact H12
    ipureintro; exact harg12.read_unread _
  iexists _; isplitr
  swap; · iexact H13
  ipureintro; exact harg13.read_unread _

end Cert.Kernel.Body

end
-- ==== Proof.BodyRunCK.lean ====
import proofs.«101824_j84121229459701_2_alg».proof.Proof.Gen.Kernel.Frame
import proofs.«101824_j84121229459701_2_alg».proof.Proof.Gen.Kernel.Loops
import proofs.«101824_j84121229459701_2_alg».proof.Proof.BodyRunDefsK
import Idealize.ShloMosaic.Lib.Pipeline.Value
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open AccDefs

/-- The step equation of the lane-group fold at a natural-number trip. -/
private theorem tripsFrom_succ_nat (ws : Fin 32 → Vec F S128 .f32) (xs : Fin 32 → Vec F S512x128 .f32) (n : ℕ) (h : n < 32) (A : Acc F) :
    tripsFrom ws xs (n + 1) A = tripStep (ws ⟨n, h⟩) (xs ⟨n, h⟩) (tripsFrom ws xs n A) := by
  rw [tripsFrom, dif_pos h]

/-! ## The last column tile of a row tile: the 32 lane groups, then the lane reductions and the store of the statistics -/

theorem hz7 : (![0, 0] : Fin S512x7.rank → Nat) = fun _ => 0 := by
  funext a; match a with | ⟨0, _⟩ => rfl | ⟨1, _⟩ => rfl
theorem hz1 : (![0] : Fin S7.rank → Nat) = fun _ => 0 := by
  funext a; match a with | ⟨0, _⟩ => rfl

/-- A whole-block store into a whole 512 × 7 buffer leaves its payload. -/
theorem read_whole_store7 (m : Memref sig .tc .vmem S512x7 .f32) (f : m.view.ty.Contents (Elt F)) (P : Vec F S512x7 .f32) :
    m.view.read (Elt F) (m.view.writes (Elt F) f [⟨Rect.unit (s := S512x7) ![0, 0] S512x7.size inb_S512x7_S512x7_0_0, P⟩]) = P := by
  rw [View.read_writes_eq_canon _ _ _ (fun y => ⟨_, List.mem_singleton_self _, View.mem_set_unit_zero hz7 inb_S512x7_S512x7_0_0 y⟩), View.canon_unit_zero hz7]

omit [FloatOps F] in
/-- A whole load of a whole 7-element buffer reads its contents. -/
theorem readAt_whole1 (m : Memref sig .tc .vmem S7 .f32) (hm : m.IsWhole) (b : Vec F S7 .f32) :
    View.readAt (Elt F) m.view (Rect.unit (s := S7) ![0] S7.size inb_S7_S7_0).toLoadRect (hm.unread b) = b := by
  rw [View.readAt_eq_ld, hm.read_unread, View.ld_unit_zero hz1]

set_option maxHeartbeats 4000000 in
theorem runC (c : Dev nD) (i : grid0.Coords) (arg2 : Memref sig .tc .vmem S512x4096 .f32) (harg2 : arg2.IsWhole) (arg3 : Memref sig .tc .vmem S4096 .f32) (harg3 : arg3.IsWhole) (arg4 : Memref sig .tc .vmem S7 .f32) (harg4 : arg4.IsWhole) (arg5 : Memref sig .tc .vmem S512x7 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : cond0_1 i)
    (X : Vec F S512x4096 .f32) (W : Vec F S4096 .f32) (B : Vec F S7 .f32) (A : Acc F) (K : PUnit → sProp 𝕄) :
    iprop(owns (c : Thread nD τ) arg2 fullShare X ∗ owns (c : Thread nD τ) arg3 fullShare W ∗ owns (c : Thread nD τ) arg4 fullShare B ∗ (∃ d, owns (c : Thread nD τ) arg5 fullShare d)
        ∗ accOn c arg6 arg7 arg8 arg9 arg10 arg11 arg12 arg13 A
        ∗ (iprop(owns (c : Thread nD τ) arg2 fullShare X ∗ owns (c : Thread nD τ) arg3 fullShare W ∗ owns (c : Thread nD τ) arg4 fullShare B ∗ owns (c : Thread nD τ) arg5 fullShare (epilogue (loopOut X W A) B)
              ∗ accOn c arg6 arg7 arg8 arg9 arg10 arg11 arg12 arg13 (loopOut X W A)) -∗ K ⟨⟩))
      ⊢ wp frame (wpE (defs₀ (F := F)) Variants.none c none) Set.univ (cc0__kernel i arg2 harg2 arg3 harg3 arg4 harg4 arg5 harg5 arg6 harg6 arg7 harg7 arg8 harg8 arg9 harg9 arg10 harg10 arg11 harg11 arg12 harg12 arg13 harg13) K := by
  simp only [cc0__kernel_eq_skeleton]; unfold cc0__kernel_skel
  unfold accOn
  iintro ⟨H2, H3, H4, H5, ⟨H6, H7, H8, H9, H10, H11, H12, H13⟩, Hk⟩
  sl_exec (disch := first | exact hc0 | exact hc1)
  sl_for (fun n (_ : Unit) => tripRes c arg2 harg2 arg3 harg3 arg4 harg4 arg5 harg5 arg6 harg6 arg7 harg7 arg8 harg8 arg9 harg9 arg10 harg10 arg11 harg11 arg12 harg12 arg13 harg13 X W (tripsFrom (wsl W) (xsl X) n A)) $$ [H2 H3 H6 H7 H8 H9 H10 H11 H12 H13]
  case region => intro k acc; dsimp only; rw [tripsFrom_succ_nat _ _ k.val k.isLt]; exact trip_sound c i arg2 harg2 arg3 harg3 arg4 harg4 arg5 harg5 arg6 harg6 arg7 harg7 arg8 harg8 arg9 harg9 arg10 harg10 arg11 harg11 arg12 harg12 arg13 harg13 k X W _
  · unfold tripRes
    isplitl [H2]; · iexact H2
    isplitl [H3]; · iexact H3
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro %acc HI
  unfold tripRes owns
  icases HI with ⟨⟨%f2, %hf2, H2⟩, ⟨%f3, %hf3, H3⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩
  obtain rfl := harg2.eq_unread hf2; obtain rfl := harg3.eq_unread hf3
  obtain rfl := harg6.eq_unread hf6; obtain rfl := harg7.eq_unread hf7; obtain rfl := harg8.eq_unread hf8; obtain rfl := harg9.eq_unread hf9
  obtain rfl := harg10.eq_unread hf10; obtain rfl := harg11.eq_unread hf11; obtain rfl := harg12.eq_unread hf12; obtain rfl := harg13.eq_unread hf13
  icases H4 with ⟨%f4, %hf4, H4⟩
  obtain rfl := harg4.eq_unread hf4
  icases H5 with ⟨%d5, %f5, -, H5⟩
  sl_exec (disch := first | exact hc0 | exact hc1)
  sl_step
  sl_unfold_run_names
  iapply Hk
  unfold loopOut
  isplitl [H2]
  · iexists _; isplitr
    swap; · iexact H2
    ipureintro; exact harg2.read_unread _
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro
    rw [read_whole_store7, readAt_whole arg6 harg6, readAt_whole arg7 harg7, readAt_whole arg8 harg8, readAt_whole arg9 harg9,
      readAt_whole arg10 harg10, readAt_whole arg11 harg11, readAt_whole arg12 harg12, readAt_whole arg13 harg13, readAt_whole1 arg4 harg4]
    rfl
  isplitl [H6]
  · iexists _; isplitr
    swap; · iexact H6
    ipureintro; exact harg6.read_unread _
  isplitl [H7]
  · iexists _; isplitr
    swap; · iexact H7
    ipureintro; exact harg7.read_unread _
  isplitl [H8]
  · iexists _; isplitr
    swap; · iexact H8
    ipureintro; exact harg8.read_unread _
  isplitl [H9]
  · iexists _; isplitr
    swap; · iexact H9
    ipureintro; exact harg9.read_unread _
  isplitl [H10]
  · iexists _; isplitr
    swap; · iexact H10
    ipureintro; exact harg10.read_unread _
  isplitl [H11]
  · iexists _; isplitr
    swap; · iexact H11
    ipureintro; exact harg11.read_unread _
  isplitl [H12]
  · iexists _; isplitr
    swap; · iexact H12
    ipureintro; exact harg12.read_unread _
  iexists _; isplitr
  swap; · iexact H13
  ipureintro; exact harg13.read_unread _

end Cert.Kernel.Body

end
-- ==== Proof.BodyRunsK.lean ====
/-
  The kernel body at a grid point, in its three control cases (first column tile, a middle one, the last one).
-/
import proofs.«101824_j84121229459701_2_alg».proof.Proof.BodyRunAK
import proofs.«101824_j84121229459701_2_alg».proof.Proof.BodyRunBK
import proofs.«101824_j84121229459701_2_alg».proof.Proof.BodyRunCK
-- ==== Proof.BodyFrameK.lean ====
/-
  The kernel's frame: the body obligation at a generic point from the three per-case runs (first, middle, last column
  tile), the invariant's entry and exit, the launch, and the frame claim — the program terminates without fault and
  leaves its argument arrays unchanged.
-/
import proofs.«101824_j84121229459701_2_alg».proof.Proof.BodyDataK
import proofs.«101824_j84121229459701_2_alg».proof.Proof.BodyRunsK
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t` (the library's body obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- The accumulators at anything, the eight written out. -/
theorem accAny_eq (c : Dev nD) :
    (accAny c : sProp 𝕄) = iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) := rfl

/-- Named contents forgotten, on the scratch operands. -/
theorem accOn_any (c : Dev nD) (A : AccDefs.Acc F) :
    accOn c scM0_0 scM0_1 scM0_2 scM0_3 scM0_4 scM0_5 scM0_6 scM0_7 A ⊢ (iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) : sProp 𝕄) :=
  accOwned_any c A

set_option maxHeartbeats 4800000 in
/-- The body at any point. The inputs' memrefs hold their blocks; the closed forms say which of the three cases the point
    is in (first column tile, a middle one, the last), and that case's run applies. The invariant hands the body the eight
    accumulators at what the point before left (at anything before the first point) and takes them back at this point's;
    the output block is left alone away from the last column tile (idle, not written back) and left at the statistics
    there; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [PhiS_castSucc m c t]
  have hN : t.val < 64 := lt_of_lt_of_eq t.isLt (show cfg0.N = 64 from N_0)
  by_cases h3 : t.val % 4 = 3
  · -- the last column tile: the output block is live and left at the statistics
    have h0 : ¬t.val % 4 = 0 := by omega
    have hz : t.val ≠ 0 := by omega
    have hc0 : ¬cond0_0 (grid0.coords t) := fun h => h0 ((hcond0_0 t).mp h)
    have hc1 : cond0_1 (grid0.coords t) := (hcond0_1 t).mpr h3
    rw [show (dats m 0 c).leavesExact 3 t = owns (c : Thread nD τ) (ms0_3 t) fullShare ((dats m 0 c).after 3 t) from by
      unfold Dat.leavesExact; rw [liveAt0_3 t hc1], after0_3]
    unfold outAt
    rw [accAt_step m c t h0, PhiS_pos m c _ _ hz]
    simp only [accOwned_eq]
    iintro ⟨⟨HS, Hg⟩, Ho, ⟨%d0, H0⟩, ⟨%d1, H1⟩, ⟨%d2, H2⟩, ⟨%d3, H3⟩⟩
    iapply (runC c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc0 hc1 (iblk m c 0 t) (iblk m c 1 t) (iblk m c 2 t)
      (accAt m c (t.val - 1) (Nat.lt_of_le_of_lt (Nat.sub_le _ _) t.isLt)) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]
      · iexact HS
      iexact Hg
    isplitl [Ho]; · iexact Ho
    isplitl [H0]; · iexact H0
    isplitl [H1]; · iexact H1
    isplitl [H2]; · iexact H2
    iexact H3
  · -- away from it the output block is idle and not written back: handed back as found
    have hc1 : ¬cond0_1 (grid0.coords t) := fun h => h3 ((hcond0_1 t).mp h)
    rw [Dat.leavesExact_idle (dats m 0 c) 3 t (idleAt0_3 t hc1) (noFlush0_3 t hc1)]
    by_cases h0 : t.val % 4 = 0
    · -- the first column tile: the accumulators are reset, whatever they held
      have hc0 : cond0_0 (grid0.coords t) := (hcond0_0 t).mpr h0
      rw [accAt_reset m c t h0]
      by_cases hz : t.val = 0
      · rw [PhiS_zero m c _ _ hz, PhiA0_eq, accAny_eq]
        simp only [accOwned_eq]
        iintro ⟨⟨HS, Hg⟩, Ho, ⟨%d0, H0⟩, ⟨%d1, H1⟩, ⟨%d2, H2⟩, ⟨%d3, H3⟩⟩
        iapply (runA c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc0 hc1 (iblk m c 0 t) (iblk m c 1 t) (iblk m c 2 t)
          ((dats m 0 c).before 3 t d3) _)
        isplitl [H0]; · iexact H0
        isplitl [H1]; · iexact H1
        isplitl [H2]; · iexact H2
        isplitl [H3]; · iexact H3
        isplitl [HS]; · iexact HS
        iintro ⟨H0, H1, H2, H3, HS⟩
        isplitl [HS Hg]
        · isplitl [HS]
          · iexact HS
          iexact Hg
        isplitl [Ho]; · iexact Ho
        isplitl [H0]; · iexact H0
        isplitl [H1]; · iexact H1
        isplitl [H2]; · iexact H2
        iexists _; iexact H3
      · rw [PhiS_pos m c _ _ hz]
        simp only [accOwned_eq]
        iintro ⟨⟨HS, Hg⟩, Ho, ⟨%d0, H0⟩, ⟨%d1, H1⟩, ⟨%d2, H2⟩, ⟨%d3, H3⟩⟩
        iapply (runA c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc0 hc1 (iblk m c 0 t) (iblk m c 1 t) (iblk m c 2 t)
          ((dats m 0 c).before 3 t d3) _)
        isplitl [H0]; · iexact H0
        isplitl [H1]; · iexact H1
        isplitl [H2]; · iexact H2
        isplitl [H3]; · iexact H3
        isplitl [HS]; · iapply (accOn_any c _); iexact HS
        iintro ⟨H0, H1, H2, H3, HS⟩
        isplitl [HS Hg]
        · isplitl [HS]
          · iexact HS
          iexact Hg
        isplitl [Ho]; · iexact Ho
        isplitl [H0]; · iexact H0
        isplitl [H1]; · iexact H1
        isplitl [H2]; · iexact H2
        iexists _; iexact H3
    · -- a middle column tile: the accumulators go on from what the point before left
      have hz : t.val ≠ 0 := fun h => h0 (by rw [h])
      have hc0 : ¬cond0_0 (grid0.coords t) := fun h => h0 ((hcond0_0 t).mp h)
      rw [accAt_step m c t h0, PhiS_pos m c _ _ hz]
      simp only [accOwned_eq]
      iintro ⟨⟨HS, Hg⟩, Ho, ⟨%d0, H0⟩, ⟨%d1, H1⟩, ⟨%d2, H2⟩, ⟨%d3, H3⟩⟩
      iapply (runB c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc0 hc1 (iblk m c 0 t) (iblk m c 1 t) (iblk m c 2 t)
        ((dats m 0 c).before 3 t d3) (accAt m c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]
        · iexact HS
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region (the class's invariant) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS, Hg⟩
  isplitl [HS]
  · iapply (accOwned_any c _); iexact HS
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- At the compiled mesh, for any values, from any memory with zero counters: every weakly fair execution of @main on the
    TensorCores terminates, and every final state has every array of the pipeline at what the library computes from the
    proof data and every other unscoped buffer as launched. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- THE FRAME: the program runs (terminates, no fault) and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.Stats.lean ====
/-
  Row statistics: the arithmetic both programs perform on ONE row y : Fin 16384 → EReal of the product x · w, written
  twice — once in the grouping of the kernel (raw moments s₁ … s₄ of the row, then the central moments by the binomial
  expansions  m₂ = e₂ − μ²,  m₃ = e₃ − 3μe₂ + 2μ³,  m₄ = e₄ − 4μe₃ + 6μ²e₂ − 3μ⁴,  the skewness denominator m₂ · √m₂), once in
  the grouping of the reference (the centred row d = y − μ, the central moments as means of d², d³, d⁴, the skewness
  denominator m₂ ^ 1.5) — over the exact operations on the extended reals. Each function follows its program's own
  order of operations, so that a program's result read at an index IS the function by unfolding; that the two agree on a
  row of real numbers is the algebra, proved apart.
-/
import Idealize.ShloMosaic.PureOps.Ideal

noncomputable section

namespace Cert.Stats

open Idealize.ShloMosaic

/-- A 32-bit float literal read exactly. -/
abbrev lit (b : BitVec 32) : EReal := Ideal.ofBits .f32 b

/-- The row length 16384, the resolution 10⁻⁶ as the nearest binary32 number, the quiet-NaN pattern, and the small
    integers and 1.5 the two programs spell. -/
abbrev cN : EReal := lit 0x46800000#32
abbrev cRes : EReal := lit 0x358637BD#32
abbrev cNaN : EReal := lit 0x7FC00000#32
abbrev c0 : EReal := lit 0x00000000#32
abbrev c2 : EReal := lit 0x40000000#32
abbrev c3 : EReal := lit 0x40400000#32
abbrev c4 : EReal := lit 0x40800000#32
abbrev c6 : EReal := lit 0x40C00000#32
abbrev c15 : EReal := lit 0x3FC00000#32

/-- The absolute value as both programs compute it. -/
abbrev absE (x : EReal) : EReal := max x (-x)

/-- The seven columns in the kernel's grouping, from the row's maximum, minimum, and the six sums
    Σy, Σy², Σy³, Σy⁴, Σ|y|, Σ√|y|. -/
def kerCols (mx mn s1 s2 s3 s4 sabs ssqrt : EReal) : Fin 7 → EReal :=
  let mu := Ideal.div s1 cN
  let e2 := Ideal.div s2 cN
  let e3 := Ideal.div s3 cN
  let e4 := Ideal.div s4 cN
  let m2 := max (e2 - mu * mu) c0
  let m3 := (e3 - (c3 * mu) * e2) + ((c2 * mu) * mu) * mu
  let m4 := ((e4 - (c4 * mu) * e3) + ((c6 * mu) * mu) * e2) - (((c3 * mu) * mu) * mu) * mu
  let rms := Ideal.sqrt e2
  let z : BitVec 1 := Ideal.cmp .ole m2 ((cRes * mu) * (cRes * mu))
  ![absE (mx - mn),
    Ideal.div mx rms,
    Ideal.div rms (Ideal.div sabs cN),
    Ideal.div mx e2,
    Ideal.div mx (Ideal.div ssqrt cN),
    Scalar.select z cNaN (Ideal.div m4 (m2 * m2)) - c3,
    Scalar.select z cNaN (Ideal.div m3 (m2 * Ideal.sqrt m2))]

/-- The kernel's grouping on a row: the reductions over the whole row, then `kerCols`. -/
def kerOfRow (y : Fin 16384 → EReal) : Fin 7 → EReal :=
  kerCols (Finset.univ.sup y) (Finset.univ.inf y) (∑ j, y j) (∑ j, y j * y j) (∑ j, (y j * y j) * y j)
    (∑ j, (y j * y j) * (y j * y j)) (∑ j, absE (y j)) (∑ j, Ideal.sqrt (absE (y j)))

/-- The seven columns in the reference's grouping on a row. -/
def refCols (y : Fin 16384 → EReal) : Fin 7 → EReal :=
  let mx := Finset.univ.sup y
  let mn := Finset.univ.inf y
  let msq := Ideal.div (∑ j, y j * y j) cN
  let rms := Ideal.sqrt msq
  let mabs := Ideal.div (∑ j, absE (y j)) cN
  let msa := Ideal.div (∑ j, Ideal.sqrt (absE (y j))) cN
  let mu := Ideal.div (∑ j, y j) cN
  let d : Fin 16384 → EReal := fun j => y j - mu
  let m2 := Ideal.div (∑ j, d j * d j) cN
  let m3 := Ideal.div (∑ j, (d j * d j) * d j) cN
  let m4 := Ideal.div (∑ j, (d j * d j) * (d j * d j)) cN
  let z : BitVec 1 := Ideal.cmp .ole m2 ((cRes * mu) * (cRes * mu))
  ![absE (mx - mn),
    Ideal.div mx rms,
    Ideal.div rms mabs,
    Ideal.div mx msq,
    Ideal.div mx msa,
    Scalar.select z cNaN (Ideal.div m4 (m2 * m2)) - c3,
    Scalar.select z cNaN (Ideal.div m3 (Ideal.pow m2 c15))]

end Cert.Stats

end
-- ==== Proof.LibBlockedRow.lean ====
/-
  General lemmas about a quantity accumulated step by step and about a row cut into blocks.

  * A sequence `r 0, r 1, …, r N` in which each step absorbs one term, `r (k+1) = r k + t k` (respectively `⊔`, `⊓`), ends at
    `r 0` combined with the sum (respectively the supremum, the infimum) of all the terms.
  * A finite sum (supremum, infimum) over an index type `J` that is in bijection with a triple product `A × B × C` is the
    iterated sum (supremum, infimum) over the three factors; the instance used is a row of 16384 entries cut into
    4 tiles of 32 groups of 128 lanes, entry `4096 k + 128 g + l`.
-/
import Mathlib.Algebra.BigOperators.Fin
import Mathlib.Data.Fintype.BigOperators
import Mathlib.Data.Finset.Lattice.Fold
import Mathlib.Tactic.FinCases

namespace Cert.LibBlockedRow

/-- The indices below `n + 1` are `n` together with the indices below `n`. -/
theorem filter_lt_succ {N n : ℕ} (h : n < N) :
    (Finset.univ.filter fun g : Fin N => g.val < n + 1)
      = insert (⟨n, h⟩ : Fin N) (Finset.univ.filter fun g : Fin N => g.val < n) := by
  ext g
  simp only [Finset.mem_filter, Finset.mem_univ, true_and, Finset.mem_insert, Fin.ext_iff]
  omega

theorem notMem_filter_lt {N n : ℕ} (h : n < N) :
    (⟨n, h⟩ : Fin N) ∉ Finset.univ.filter fun g : Fin N => g.val < n := by
  simp only [Finset.mem_filter, Finset.mem_univ, true_and, lt_self_iff_false, not_false_eq_true]

theorem filter_lt_all {N : ℕ} : (Finset.univ.filter fun g : Fin N => g.val < N) = Finset.univ :=
  Finset.filter_true_of_mem fun g _ => g.isLt

/-- A quantity that absorbs one term per step by `+` ends at its start plus the sum of the terms. -/
theorem rec_sum {M : Type*} [AddCommMonoid M] {N : ℕ} (r : ℕ → M) (t : Fin N → M)
    (hs : ∀ k : Fin N, r (k.val + 1) = r k.val + t k) : r N = r 0 + ∑ g, t g := by
  have key : ∀ n, n ≤ N → r n = r 0 + ∑ g ∈ Finset.univ.filter (fun g : Fin N => g.val < n), t g := by
    intro n
    induction n with
    | zero => intro _; simp
    | succ n ih =>
      intro hn
      have h : n < N := hn
      rw [filter_lt_succ h, Finset.sum_insert (notMem_filter_lt h), hs ⟨n, h⟩, ih (le_of_lt h), add_assoc,
        add_comm (t ⟨n, h⟩)]
  have := key N le_rfl
  rwa [filter_lt_all] at this

/-- A quantity that absorbs one term per step by `⊔` ends at its start joined with the supremum of the terms. -/
theorem rec_sup {α : Type*} [SemilatticeSup α] [OrderBot α] {N : ℕ} (r : ℕ → α) (t : Fin N → α)
    (hs : ∀ k : Fin N, r (k.val + 1) = r k.val ⊔ t k) : r N = r 0 ⊔ Finset.univ.sup t := by
  have key : ∀ n, n ≤ N → r n = r 0 ⊔ (Finset.univ.filter (fun g : Fin N => g.val < n)).sup t := by
    intro n
    induction n with
    | zero => intro _; simp
    | succ n ih =>
      intro hn
      have h : n < N := hn
      rw [filter_lt_succ h, Finset.sup_insert, hs ⟨n, h⟩, ih (le_of_lt h), sup_assoc,
        sup_comm (t ⟨n, h⟩)]
  have := key N le_rfl
  rwa [filter_lt_all] at this

/-- A quantity that absorbs one term per step by `⊓` ends at its start met with the infimum of the terms. -/
theorem rec_inf {α : Type*} [SemilatticeInf α] [OrderTop α] {N : ℕ} (r : ℕ → α) (t : Fin N → α)
    (hs : ∀ k : Fin N, r (k.val + 1) = r k.val ⊓ t k) : r N = r 0 ⊓ Finset.univ.inf t := by
  have key : ∀ n, n ≤ N → r n = r 0 ⊓ (Finset.univ.filter (fun g : Fin N => g.val < n)).inf t := by
    intro n
    induction n with
    | zero => intro _; simp
    | succ n ih =>
      intro hn
      have h : n < N := hn
      rw [filter_lt_succ h, Finset.inf_insert, hs ⟨n, h⟩, ih (le_of_lt h), inf_assoc,
        inf_comm (t ⟨n, h⟩)]
  have := key N le_rfl
  rwa [filter_lt_all] at this

/-- Four terms joined from `⊥` one after the other are the supremum over `Fin 4`. -/
theorem sup_four {α : Type*} [SemilatticeSup α] [OrderBot α] (f : Fin 4 → α) :
    (((⊥ ⊔ f 0) ⊔ f 1) ⊔ f 2) ⊔ f 3 = Finset.univ.sup f := by
  refine le_antisymm ?_ (Finset.sup_le fun k _ => ?_)
  · exact sup_le (sup_le (sup_le (sup_le bot_le (Finset.le_sup (Finset.mem_univ _))) (Finset.le_sup (Finset.mem_univ _)))
      (Finset.le_sup (Finset.mem_univ _))) (Finset.le_sup (Finset.mem_univ _))
  · fin_cases k
    · exact le_sup_of_le_left (le_sup_of_le_left (le_sup_of_le_left le_sup_right))
    · exact le_sup_of_le_left (le_sup_of_le_left le_sup_right)
    · exact le_sup_of_le_left le_sup_right
    · exact le_sup_right

/-- Four terms met from `⊤` one after the other are the infimum over `Fin 4`. -/
theorem inf_four {α : Type*} [SemilatticeInf α] [OrderTop α] (f : Fin 4 → α) :
    (((⊤ ⊓ f 0) ⊓ f 1) ⊓ f 2) ⊓ f 3 = Finset.univ.inf f := by
  refine le_antisymm (Finset.le_inf fun k _ => ?_) ?_
  · fin_cases k
    · exact inf_le_of_left_le (inf_le_of_left_le (inf_le_of_left_le inf_le_right))
    · exact inf_le_of_left_le (inf_le_of_left_le inf_le_right)
    · exact inf_le_of_left_le inf_le_right
    · exact inf_le_right
  · exact le_inf (le_inf (le_inf (le_inf le_top (Finset.inf_le (Finset.mem_univ _))) (Finset.inf_le (Finset.mem_univ _)))
      (Finset.inf_le (Finset.mem_univ _))) (Finset.inf_le (Finset.mem_univ _))

/-- Four terms added from `0` one after the other are the sum over `Fin 4`. -/
theorem sum_four {M : Type*} [AddCommMonoid M] (f : Fin 4 → M) :
    (((0 + f 0) + f 1) + f 2) + f 3 = ∑ k, f k := by
  rw [Fin.sum_univ_four, zero_add]

section Triple

variable {A B C J : Type*} [Fintype A] [Fintype B] [Fintype C] [Fintype J]

/-- A sum over `J ≃ A × B × C` as an iterated sum. -/
theorem sum_triple {M : Type*} [AddCommMonoid M] (e : A × B × C ≃ J) (F : J → M) :
    ∑ a, ∑ b, ∑ c, F (e (a, b, c)) = ∑ j, F j := by
  rw [← e.sum_comp F, Fintype.sum_prod_type]
  refine Finset.sum_congr rfl fun a _ => ?_
  rw [Fintype.sum_prod_type]

/-- A supremum over `J ≃ A × B × C` as an iterated supremum. -/
theorem sup_triple {α : Type*} [SemilatticeSup α] [OrderBot α] (e : A × B × C ≃ J) (F : J → α) :
    (Finset.univ.sup fun a => Finset.univ.sup fun b => Finset.univ.sup fun c => F (e (a, b, c))) = Finset.univ.sup F := by
  refine le_antisymm ?_ (Finset.sup_le fun j _ => ?_)
  · exact Finset.sup_le fun a _ => Finset.sup_le fun b _ => Finset.sup_le fun c _ => Finset.le_sup (Finset.mem_univ _)
  · obtain ⟨⟨a, b, c⟩, rfl⟩ := e.surjective j
    exact le_trans (le_trans (Finset.le_sup (f := fun c => F (e (a, b, c))) (Finset.mem_univ c))
      (Finset.le_sup (f := fun b => Finset.univ.sup fun c => F (e (a, b, c))) (Finset.mem_univ b)))
      (Finset.le_sup (f := fun a => Finset.univ.sup fun b => Finset.univ.sup fun c => F (e (a, b, c))) (Finset.mem_univ a))

/-- An infimum over `J ≃ A × B × C` as an iterated infimum. -/
theorem inf_triple {α : Type*} [SemilatticeInf α] [OrderTop α] (e : A × B × C ≃ J) (F : J → α) :
    (Finset.univ.inf fun a => Finset.univ.inf fun b => Finset.univ.inf fun c => F (e (a, b, c))) = Finset.univ.inf F := by
  refine le_antisymm (Finset.le_inf fun j _ => ?_) ?_
  · obtain ⟨⟨a, b, c⟩, rfl⟩ := e.surjective j
    exact le_trans (Finset.inf_le (f := fun a => Finset.univ.inf fun b => Finset.univ.inf fun c => F (e (a, b, c))) (Finset.mem_univ a))
      (le_trans (Finset.inf_le (f := fun b => Finset.univ.inf fun c => F (e (a, b, c))) (Finset.mem_univ b))
      (Finset.inf_le (f := fun c => F (e (a, b, c))) (Finset.mem_univ c)))
  · exact Finset.le_inf fun a _ => Finset.le_inf fun b _ => Finset.le_inf fun c _ => Finset.inf_le (Finset.mem_univ _)

end Triple

/-- A row of 16384 entries as 128 lanes × 4 tiles × 32 groups: entry `4096 k + 128 g + l`. -/
def rowEquiv : Fin 128 × Fin 4 × Fin 32 ≃ Fin 16384 where
  toFun x := ⟨4096 * x.2.1.val + 128 * x.2.2.val + x.1.val, by have := x.1.isLt; have := x.2.1.isLt; have := x.2.2.isLt; omega⟩
  invFun j := (⟨j.val % 128, by omega⟩, ⟨j.val / 4096, by have := j.isLt; omega⟩, ⟨j.val / 128 % 32, by omega⟩)
  left_inv x := by
    obtain ⟨l, k, g⟩ := x
    have := l.isLt; have := k.isLt; have := g.isLt
    refine Prod.ext (Fin.ext ?_) (Prod.ext (Fin.ext ?_) (Fin.ext ?_)) <;> simp only <;> omega
  right_inv j := by
    have := j.isLt
    refine Fin.ext ?_
    simp only
    omega

theorem rowEquiv_apply (l : Fin 128) (k : Fin 4) (g : Fin 32) :
    rowEquiv (l, k, g) = ⟨4096 * k.val + 128 * g.val + l.val, by have := l.isLt; have := k.isLt; have := g.isLt; omega⟩ := rfl

end Cert.LibBlockedRow
-- ==== Proof.AccValue1.lean ====
/-
  The eight accumulators at a lane (p, l), in closed form over the extended reals.

  One lane group absorbs y = x · w at each lane: the running maximum by max, the running minimum by min, the six running
  sums by +. After the 32 groups of a column tile each accumulator is its start combined with the supremum, infimum or
  sum of the group's terms; after the four column tiles, started from −∞, +∞ and six zeros, it is the supremum, infimum
  or sum over the 4 × 32 groups.
-/
import proofs.«101824_j84121229459701_2_alg».proof.Proof.AccDefs
import proofs.«101824_j84121229459701_2_alg».proof.Proof.LibBlockedRow
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.AccValue

open Cert.KernelIdeal Cert.KernelIdeal.Gen Cert.KernelIdeal.AccDefs Idealize.ShloMosaic Idealize.ShloMosaic.ValueIdx
open Cert.LibBlockedRow

/-! ## One lane group at a lane -/

/-- The product y = x · w at lane (p, l): the weight row is broadcast over the 512 rows. -/
theorem pay15_at (wg : Vec Ideal S128 .f32) (xg : Vec Ideal S512x128 .f32) (p : Fin 512) (l : Fin 128) :
    k0_pay15 wg xg (ix2 p l) = xg (ix2 p l) * wg (ix1 l) := by
  unfold k0_pay15
  show xg (ix2 p l) * _ = _
  rw [broadcastTo_1b_ab_apply, shapeCast_a_1a_apply]

/-- The absolute value as the programs compute it. -/
abbrev absE (x : EReal) : EReal := max x (-x)

section Step

variable (wg : Vec Ideal S128 .f32) (xg : Vec Ideal S512x128 .f32) (A : Acc Ideal) (p : Fin 512) (l : Fin 128)

/-- y at the lane. -/
local notation "yv" => (xg (ix2 p l) * wg (ix1 l) : EReal)

theorem tripStep_mx : (tripStep wg xg A).mx (ix2 p l) = A.mx (ix2 p l) ⊔ yv := by
  show shapeCast S512x128 (maximumf A.mx (k0_pay15 wg xg)) shapeCasts_S512x128_S512x128 (ix2 p l) = _
  rw [shapeCast_self]
  show max (A.mx (ix2 p l)) (k0_pay15 wg xg (ix2 p l)) = _
  rw [pay15_at]

theorem tripStep_mn : (tripStep wg xg A).mn (ix2 p l) = A.mn (ix2 p l) ⊓ yv := by
  show shapeCast S512x128 (minimumf A.mn (k0_pay15 wg xg)) shapeCasts_S512x128_S512x128 (ix2 p l) = _
  rw [shapeCast_self]
  show min (A.mn (ix2 p l)) (k0_pay15 wg xg (ix2 p l)) = _
  rw [pay15_at]

theorem tripStep_s1 : (tripStep wg xg A).s1 (ix2 p l) = A.s1 (ix2 p l) + yv := by
  show shapeCast S512x128 (addf A.s1 (k0_pay15 wg xg)) shapeCasts_S512x128_S512x128 (ix2 p l) = _
  rw [shapeCast_self]
  show A.s1 (ix2 p l) + k0_pay15 wg xg (ix2 p l) = _
  rw [pay15_at]

theorem tripStep_s2 : (tripStep wg xg A).s2 (ix2 p l) = A.s2 (ix2 p l) + yv * yv := by
  show shapeCast S512x128 (addf A.s2 (k0_pay16 wg xg)) shapeCasts_S512x128_S512x128 (ix2 p l) = _
  rw [shapeCast_self]
  show A.s2 (ix2 p l) + k0_pay15 wg xg (ix2 p l) * k0_pay15 wg xg (ix2 p l) = _
  rw [pay15_at]

theorem tripStep_s3 : (tripStep wg xg A).s3 (ix2 p l) = A.s3 (ix2 p l) + (yv * yv) * yv := by
  show shapeCast S512x128 (addf A.s3 (mulf (k0_pay16 wg xg) (k0_pay15 wg xg))) shapeCasts_S512x128_S512x128 (ix2 p l) = _
  rw [shapeCast_self]
  show A.s3 (ix2 p l) + (k0_pay15 wg xg (ix2 p l) * k0_pay15 wg xg (ix2 p l)) * k0_pay15 wg xg (ix2 p l) = _
  rw [pay15_at]

theorem tripStep_s4 : (tripStep wg xg A).s4 (ix2 p l) = A.s4 (ix2 p l) + (yv * yv) * (yv * yv) := by
  show shapeCast S512x128 (addf A.s4 (mulf (k0_pay16 wg xg) (k0_pay16 wg xg))) shapeCasts_S512x128_S512x128 (ix2 p l) = _
  rw [shapeCast_self]
  show A.s4 (ix2 p l) + (k0_pay15 wg xg (ix2 p l) * k0_pay15 wg xg (ix2 p l))
      * (k0_pay15 wg xg (ix2 p l) * k0_pay15 wg xg (ix2 p l)) = _
  rw [pay15_at]

theorem tripStep_sa : (tripStep wg xg A).sa (ix2 p l) = A.sa (ix2 p l) + absE yv := by
  show shapeCast S512x128 (addf A.sa (k0_pay17 wg xg)) shapeCasts_S512x128_S512x128 (ix2 p l) = _
  rw [shapeCast_self]
  show A.sa (ix2 p l) + absE (k0_pay15 wg xg (ix2 p l)) = _
  rw [pay15_at]

theorem tripStep_sq : (tripStep wg xg A).sq (ix2 p l) = A.sq (ix2 p l) + Ideal.sqrt (absE yv) := by
  show shapeCast S512x128 (addf A.sq (k0_pay18 wg xg)) shapeCasts_S512x128_S512x128 (ix2 p l) = _
  rw [shapeCast_self]
  show A.sq (ix2 p l) + Ideal.sqrt (absE (k0_pay15 wg xg (ix2 p l))) = _
  rw [pay15_at]

end Step

/-! ## The 32 groups of a column tile -/

section Tile

variable (ws : Fin 32 → Vec Ideal S128 .f32) (xs : Fin 32 → Vec Ideal S512x128 .f32) (A : Acc Ideal)
  (p : Fin 512) (l : Fin 128)

local notation "yg" => (fun g : Fin 32 => (xs g (ix2 p l) * ws g (ix1 l) : EReal))

theorem trips_mx : (tripsFrom ws xs 32 A).mx (ix2 p l) = A.mx (ix2 p l) ⊔ Finset.univ.sup yg :=
  rec_sup (fun n => (tripsFrom ws xs n A).mx (ix2 p l)) yg fun k => by
    show (tripsFrom ws xs (k.val + 1) A).mx (ix2 p l) = _
    rw [tripsFrom_succ, tripStep_mx]

theorem trips_mn : (tripsFrom ws xs 32 A).mn (ix2 p l) = A.mn (ix2 p l) ⊓ Finset.univ.inf yg :=
  rec_inf (fun n => (tripsFrom ws xs n A).mn (ix2 p l)) yg fun k => by
    show (tripsFrom ws xs (k.val + 1) A).mn (ix2 p l) = _
    rw [tripsFrom_succ, tripStep_mn]

theorem trips_s1 : (tripsFrom ws xs 32 A).s1 (ix2 p l) = A.s1 (ix2 p l) + ∑ g, yg g :=
  rec_sum (fun n => (tripsFrom ws xs n A).s1 (ix2 p l)) yg fun k => by
    show (tripsFrom ws xs (k.val + 1) A).s1 (ix2 p l) = _
    rw [tripsFrom_succ, tripStep_s1]

theorem trips_s2 : (tripsFrom ws xs 32 A).s2 (ix2 p l) = A.s2 (ix2 p l) + ∑ g, yg g * yg g :=
  rec_sum (fun n => (tripsFrom ws xs n A).s2 (ix2 p l)) (fun g => yg g * yg g) fun k => by
    show (tripsFrom ws xs (k.val + 1) A).s2 (ix2 p l) = _
    rw [tripsFrom_succ, tripStep_s2]

theorem trips_s3 : (tripsFrom ws xs 32 A).s3 (ix2 p l) = A.s3 (ix2 p l) + ∑ g, (yg g * yg g) * yg g :=
  rec_sum (fun n => (tripsFrom ws xs n A).s3 (ix2 p l)) (fun g => (yg g * yg g) * yg g) fun k => by
    show (tripsFrom ws xs (k.val + 1) A).s3 (ix2 p l) = _
    rw [tripsFrom_succ, tripStep_s3]

theorem trips_s4 : (tripsFrom ws xs 32 A).s4 (ix2 p l) = A.s4 (ix2 p l) + ∑ g, (yg g * yg g) * (yg g * yg g) :=
  rec_sum (fun n => (tripsFrom ws xs n A).s4 (ix2 p l)) (fun g => (yg g * yg g) * (yg g * yg g)) fun k => by
    show (tripsFrom ws xs (k.val + 1) A).s4 (ix2 p l) = _
    rw [tripsFrom_succ, tripStep_s4]

theorem trips_sa : (tripsFrom ws xs 32 A).sa (ix2 p l) = A.sa (ix2 p l) + ∑ g, absE (yg g) :=
  rec_sum (fun n => (tripsFrom ws xs n A).sa (ix2 p l)) (fun g => absE (yg g)) fun k => by
    show (tripsFrom ws xs (k.val + 1) A).sa (ix2 p l) = _
    rw [tripsFrom_succ, tripStep_sa]

theorem trips_sq : (tripsFrom ws xs 32 A).sq (ix2 p l) = A.sq (ix2 p l) + ∑ g, Ideal.sqrt (absE (yg g)) :=
  rec_sum (fun n => (tripsFrom ws xs n A).sq (ix2 p l)) (fun g => Ideal.sqrt (absE (yg g))) fun k => by
    show (tripsFrom ws xs (k.val + 1) A).sq (ix2 p l) = _
    rw [tripsFrom_succ, tripStep_sq]

end Tile

/-! ## The reset values -/

theorem ofBits_negInf : Ideal.ofBits .f32 0xFF800000#32 = (⊥ : EReal) := by simp [Ideal.ofBits, Ideal.ieee]

theorem ofBits_posInf : Ideal.ofBits .f32 0x7F800000#32 = (⊤ : EReal) := by simp [Ideal.ofBits, Ideal.ieee]

section Init

variable (p : Fin 512) (l : Fin 128)

theorem accInit_mx : (accInit (F := Ideal)).mx (ix2 p l) = (⊥ : EReal) := by
  show shapeCast S512x128 (broadcast S512x128 (Ideal.ofBits .f32 0xFF800000#32)) shapeCasts_S512x128_S512x128 (ix2 p l) = _
  rw [shapeCast_self]; exact ofBits_negInf

theorem accInit_mn : (accInit (F := Ideal)).mn (ix2 p l) = (⊤ : EReal) := by
  show shapeCast S512x128 (broadcast S512x128 (Ideal.ofBits .f32 0x7F800000#32)) shapeCasts_S512x128_S512x128 (ix2 p l) = _
  rw [shapeCast_self]; exact ofBits_posInf

/-- A zero splat, stored through the identity cast, read at a lane. -/
theorem zeroSplat_at :
    shapeCast S512x128 (broadcast S512x128 (Ideal.ofBits .f32 0x00000000#32)) shapeCasts_S512x128_S512x128 (ix2 p l)
      = (0 : EReal) := by
  rw [shapeCast_self]; exact Ideal.ofBits_zero_f32

theorem accInit_s1 : (accInit (F := Ideal)).s1 (ix2 p l) = (0 : EReal) := zeroSplat_at p l
theorem accInit_s2 : (accInit (F := Ideal)).s2 (ix2 p l) = (0 : EReal) := zeroSplat_at p l
theorem accInit_s3 : (accInit (F := Ideal)).s3 (ix2 p l) = (0 : EReal) := zeroSplat_at p l
theorem accInit_s4 : (accInit (F := Ideal)).s4 (ix2 p l) = (0 : EReal) := zeroSplat_at p l
theorem accInit_sa : (accInit (F := Ideal)).sa (ix2 p l) = (0 : EReal) := zeroSplat_at p l
theorem accInit_sq : (accInit (F := Ideal)).sq (ix2 p l) = (0 : EReal) := zeroSplat_at p l

end Init

/-! ## The four column tiles of a row tile -/

/-- The accumulators after all four column tiles of a row tile. -/
def accFinal (ws : Fin 4 → Fin 32 → Vec Ideal S128 .f32) (xs : Fin 4 → Fin 32 → Vec Ideal S512x128 .f32) : Acc Ideal :=
  tripsFrom (ws 3) (xs 3) 32 (tripsFrom (ws 2) (xs 2) 32 (tripsFrom (ws 1) (xs 1) 32 (tripsFrom (ws 0) (xs 0) 32 accInit)))

section Final

variable (ws : Fin 4 → Fin 32 → Vec Ideal S128 .f32) (xs : Fin 4 → Fin 32 → Vec Ideal S512x128 .f32)
  (p : Fin 512) (l : Fin 128)

local notation "yy" => (fun (k : Fin 4) (g : Fin 32) => (xs k g (ix2 p l) * ws k g (ix1 l) : EReal))

theorem accFinal_mx : (accFinal ws xs).mx (ix2 p l) = Finset.univ.sup fun k => Finset.univ.sup fun g => yy k g := by
  unfold accFinal
  rw [trips_mx, trips_mx, trips_mx, trips_mx, accInit_mx]
  exact sup_four fun k => Finset.univ.sup fun g => yy k g

theorem accFinal_mn : (accFinal ws xs).mn (ix2 p l) = Finset.univ.inf fun k => Finset.univ.inf fun g => yy k g := by
  unfold accFinal
  rw [trips_mn, trips_mn, trips_mn, trips_mn, accInit_mn]
  exact inf_four fun k => Finset.univ.inf fun g => yy k g

theorem accFinal_s1 : (accFinal ws xs).s1 (ix2 p l) = ∑ k, ∑ g, yy k g := by
  unfold accFinal
  rw [trips_s1, trips_s1, trips_s1, trips_s1, accInit_s1]
  exact sum_four fun k => ∑ g, yy k g

theorem accFinal_s2 : (accFinal ws xs).s2 (ix2 p l) = ∑ k, ∑ g, yy k g * yy k g := by
  unfold accFinal
  rw [trips_s2, trips_s2, trips_s2, trips_s2, accInit_s2]
  exact sum_four fun k => ∑ g, yy k g * yy k g

theorem accFinal_s3 : (accFinal ws xs).s3 (ix2 p l) = ∑ k, ∑ g, (yy k g * yy k g) * yy k g := by
  unfold accFinal
  rw [trips_s3, trips_s3, trips_s3, trips_s3, accInit_s3]
  exact sum_four fun k => ∑ g, (yy k g * yy k g) * yy k g

theorem accFinal_s4 : (accFinal ws xs).s4 (ix2 p l) = ∑ k, ∑ g, (yy k g * yy k g) * (yy k g * yy k g) := by
  unfold accFinal
  rw [trips_s4, trips_s4, trips_s4, trips_s4, accInit_s4]
  exact sum_four fun k => ∑ g, (yy k g * yy k g) * (yy k g * yy k g)

theorem accFinal_sa : (accFinal ws xs).sa (ix2 p l) = ∑ k, ∑ g, absE (yy k g) := by
  unfold accFinal
  rw [trips_sa, trips_sa, trips_sa, trips_sa, accInit_sa]
  exact sum_four fun k => ∑ g, absE (yy k g)

theorem accFinal_sq : (accFinal ws xs).sq (ix2 p l) = ∑ k, ∑ g, Ideal.sqrt (absE (yy k g)) := by
  unfold accFinal
  rw [trips_sq, trips_sq, trips_sq, trips_sq, accInit_sq]
  exact sum_four fun k => ∑ g, Ideal.sqrt (absE (yy k g))

end Final

end Cert.KernelIdeal.AccValue

end
-- ==== Proof.LibConcatUnitCols.lean ====
/-
  Seven unit-width columns joined along axis 1, read at an index.

  `concatenate ⟨2, ![a, 7]⟩ 1 [x₀, …, x₆]` of seven arrays of shape [a, 1] is, at (p, c), piece c at (p, 0): the
  coordinate c on the joined axis falls in the span of piece c (the c pieces before it have total extent c, and the piece
  itself has extent one), at offset zero. Stated for any row extent `a` and any element type.
-/
import Idealize.ShloMosaic.Lib.Pipeline.Value
import Idealize.ShloMosaic.Lib.ValueIdx

namespace Idealize.ShloMosaic.LibConcatUnitCols

open Idealize.ShloMosaic Idealize.ShloMosaic.ValueIdx

variable {α : Type}

/-- The shape [a, 1] of one column. -/
abbrev Col (a : Nat) : Shape := ⟨2, ![a, 1]⟩
/-- The shape [a, 7] of the seven columns side by side. -/
abbrev Cols7 (a : Nat) : Shape := ⟨2, ![a, 7]⟩

/-- One piece: piece `k` (of the seven) of the list is `x`, and the index's column is `k`; then the joined array at
    (p, k) is `x` at (p, 0). -/
theorem concat7_piece {a : Nat} (xs : List ((s : Shape) × (s.Idx → α)))
    (h : Shape.Concatenates (xs.map (·.1)) (Cols7 a) 1) (p : Fin a) (c : Fin 7)
    (k : Nat) (hk : k < xs.length) (x : (Col a).Idx → α) (hxk : xs[k] = ⟨Col a, x⟩)
    (hpre : (((xs.take k).map (·.1)).map fun s => if h : s.rank = (Cols7 a).rank then s.size ((1 : Fin (Cols7 a).rank).cast h.symm) else 0).sum = c.val) :
    concatenate (Cols7 a) 1 xs h (ix2 p c) = x (ix2 p (0 : Fin 1)) :=
  concatenate_apply_piece (1 : Fin (Cols7 a).rank) xs h (ix2 p c) k hk (Col a) x hxk rfl c.val hpre (ix2 p (0 : Fin 1))
    (fun b => match b with
      | ⟨0, _⟩ => fun _ => rfl
      | ⟨1, _⟩ => fun hb => absurd rfl hb)
    (by show c.val + 0 = c.val; rfl)

/-- **Seven unit-width columns joined along axis 1, at (p, c)**: column c at (p, 0). -/
theorem concat7_unitCols_apply {a : Nat} (x0 x1 x2 x3 x4 x5 x6 : (Col a).Idx → α)
    (h : Shape.Concatenates [Col a, Col a, Col a, Col a, Col a, Col a, Col a] (Cols7 a) 1) (p : Fin a) (c : Fin 7) :
    concatenate (Cols7 a) 1 [⟨Col a, x0⟩, ⟨Col a, x1⟩, ⟨Col a, x2⟩, ⟨Col a, x3⟩, ⟨Col a, x4⟩, ⟨Col a, x5⟩, ⟨Col a, x6⟩] h (ix2 p c)
      = (![x0, x1, x2, x3, x4, x5, x6] c) (ix2 p (0 : Fin 1)) := by
  match c with
  | ⟨0, _⟩ => exact concat7_piece [⟨Col a, x0⟩, ⟨Col a, x1⟩, ⟨Col a, x2⟩, ⟨Col a, x3⟩, ⟨Col a, x4⟩, ⟨Col a, x5⟩, ⟨Col a, x6⟩] h p ⟨0, by omega⟩ 0 (by simp) x0 rfl rfl
  | ⟨1, _⟩ => exact concat7_piece [⟨Col a, x0⟩, ⟨Col a, x1⟩, ⟨Col a, x2⟩, ⟨Col a, x3⟩, ⟨Col a, x4⟩, ⟨Col a, x5⟩, ⟨Col a, x6⟩] h p ⟨1, by omega⟩ 1 (by simp) x1 rfl rfl
  | ⟨2, _⟩ => exact concat7_piece [⟨Col a, x0⟩, ⟨Col a, x1⟩, ⟨Col a, x2⟩, ⟨Col a, x3⟩, ⟨Col a, x4⟩, ⟨Col a, x5⟩, ⟨Col a, x6⟩] h p ⟨2, by omega⟩ 2 (by simp) x2 rfl rfl
  | ⟨3, _⟩ => exact concat7_piece [⟨Col a, x0⟩, ⟨Col a, x1⟩, ⟨Col a, x2⟩, ⟨Col a, x3⟩, ⟨Col a, x4⟩, ⟨Col a, x5⟩, ⟨Col a, x6⟩] h p ⟨3, by omega⟩ 3 (by simp) x3 rfl rfl
  | ⟨4, _⟩ => exact concat7_piece [⟨Col a, x0⟩, ⟨Col a, x1⟩, ⟨Col a, x2⟩, ⟨Col a, x3⟩, ⟨Col a, x4⟩, ⟨Col a, x5⟩, ⟨Col a, x6⟩] h p ⟨4, by omega⟩ 4 (by simp) x4 rfl rfl
  | ⟨5, _⟩ => exact concat7_piece [⟨Col a, x0⟩, ⟨Col a, x1⟩, ⟨Col a, x2⟩, ⟨Col a, x3⟩, ⟨Col a, x4⟩, ⟨Col a, x5⟩, ⟨Col a, x6⟩] h p ⟨5, by omega⟩ 5 (by simp) x5 rfl rfl
  | ⟨6, _⟩ => exact concat7_piece [⟨Col a, x0⟩, ⟨Col a, x1⟩, ⟨Col a, x2⟩, ⟨Col a, x3⟩, ⟨Col a, x4⟩, ⟨Col a, x5⟩, ⟨Col a, x6⟩] h p ⟨6, by omega⟩ 6 (by simp) x6 rfl rfl

end Idealize.ShloMosaic.LibConcatUnitCols
-- ==== Proof.AccValue2.lean ====
/-
  The reductions across the 128 lanes and the moments' algebra, in closed form over the extended reals.

  A lane-wide accumulator v reduces, at row p, to the sum (the supremum, the infimum) over the 128 lanes of v at (p, l),
  kept as a 512 × 1 column; the four raw moments are divided by the row length. The seven statistics of a row are then
  the scalar function `kerMid` of the eight reduced values — `Cert.Stats.kerCols` with the four means already taken —
  and the block is that column vector times the bias row.
-/
import proofs.«101824_j84121229459701_2_alg».proof.Proof.AccDefs
import proofs.«101824_j84121229459701_2_alg».proof.Proof.Stats
import proofs.«101824_j84121229459701_2_alg».proof.Proof.LibConcatUnitCols
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.AccValue

open Cert.KernelIdeal Cert.KernelIdeal.Gen Cert.KernelIdeal.AccDefs Idealize.ShloMosaic Idealize.ShloMosaic.ValueIdx
open Cert.Stats (cN cRes cNaN c0 c2 c3 c4 c6 lit)

/-! ## General facts -/

/-- An `[a]` array cast to the column `[a, 1]` reads, at `(i, u)`, the operand at `i`, whatever the unit coordinate. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A fold of `max` from `⊥` is the supremum. -/
theorem fold_max_bot {ι : Type*} (s : Finset ι) (f : ι → EReal) : s.fold max ⊥ f = s.sup f :=
  eq_of_forall_ge_iff fun c => by
    rw [Finset.fold_max_le, Finset.sup_le_iff]
    exact ⟨fun h => h.2, fun h => ⟨bot_le, h⟩⟩

/-- A fold of `min` from `⊤` is the infimum. -/
theorem fold_min_top {ι : Type*} (s : Finset ι) (f : ι → EReal) : s.fold min ⊤ f = s.inf f :=
  eq_of_forall_le_iff fun c => by
    rw [Finset.le_fold_min, Finset.le_inf_iff]
    exact ⟨fun h => h.2, fun h => ⟨le_top, h⟩⟩

/-- A float minimum reduction over one axis, at the exact values: the fold of `min` from the accumulator's value over
    that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

theorem ofBits_negInf' : Ideal.ofBits .f32 0xFF800000#32 = (⊥ : EReal) := by simp [Ideal.ofBits, Ideal.ieee]

theorem ofBits_posInf' : Ideal.ofBits .f32 0x7F800000#32 = (⊤ : EReal) := by simp [Ideal.ofBits, Ideal.ieee]

/-! ## The lane reductions at a row -/

/-- Row `p` with lane `l` inserted is `(p, l)`. -/
theorem lift_at (h : S512x128.Reduces [1] S512) (p : Fin 512) (l : Fin 128) : h.lift (ix1 p) l = ix2 p l := by
  funext c
  match c with
  | ⟨0, _⟩ => rfl
  | ⟨1, _⟩ => rfl

section Reduce

variable (v : Vec Ideal S512x128 .f32) (p : Fin 512) (u : Fin 1)

theorem redAdd_at :
    shapeCast S512x1 (multiReduction (F := Ideal) .add [1] S512 v 0x00000000#32 reduces_S512x128_S512 (.inl rfl) rfl)
      shapeCasts_S512_S512x1 (ix2 p u) = ∑ l : Fin 128, v (ix2 p l) := by
  rw [shapeCast_a_a1_apply]
  refine (Ideal.multiReduction_add_single v 0x00000000#32 reduces_S512x128_S512 (.inl rfl) rfl (ix1 p)).trans ?_
  exact Finset.sum_congr rfl fun l _ => congrArg v (lift_at _ p l)

/-- The fold of `max` from −∞ over the lanes of row `p` is the supremum over the lanes. -/
theorem foldMax_lanes (h : S512x128.Reduces [1] S512) :
    (Finset.univ : Finset (Fin (S512x128.size 1))).fold max (FloatOps.ofBits .f32 0xFF800000#32 : Ideal .f32) (v ∘ h.lift (ix1 p))
      = Finset.univ.sup fun l : Fin 128 => v (ix2 p l) := by
  have e : (FloatOps.ofBits .f32 0xFF800000#32 : Ideal .f32) = (⊥ : EReal) := ofBits_negInf'
  rw [e]
  refine (fold_max_bot _ _).trans ?_
  exact congrArg _ (funext fun l => congrArg v (lift_at _ p l))

/-- The fold of `min` from +∞ over the lanes of row `p` is the infimum over the lanes. -/
theorem foldMin_lanes (h : S512x128.Reduces [1] S512) :
    (Finset.univ : Finset (Fin (S512x128.size 1))).fold min (FloatOps.ofBits .f32 0x7F800000#32 : Ideal .f32) (v ∘ h.lift (ix1 p))
      = Finset.univ.inf fun l : Fin 128 => v (ix2 p l) := by
  have e : (FloatOps.ofBits .f32 0x7F800000#32 : Ideal .f32) = (⊤ : EReal) := ofBits_posInf'
  rw [e]
  refine (fold_min_top _ _).trans ?_
  exact congrArg _ (funext fun l => congrArg v (lift_at _ p l))

theorem redMax_at (hφ : FKind.Formats .f32) (hacc : (0xFF800000#32 : BitVec 32) = FKind.maximumf.neutral .f32 hφ) :
    shapeCast S512x1 (multiReduction (F := Ideal) .maximumf [1] S512 v 0xFF800000#32 reduces_S512x128_S512 hφ hacc)
      shapeCasts_S512_S512x1 (ix2 p u) = Finset.univ.sup fun l : Fin 128 => v (ix2 p l) := by
  rw [shapeCast_a_a1_apply, Ideal.multiReduction_maximumf_single]
  exact foldMax_lanes v p _

theorem redMin_at (hφ : FKind.Formats .f32) (hacc : (0x7F800000#32 : BitVec 32) = FKind.minimumf.neutral .f32 hφ) :
    shapeCast S512x1 (multiReduction (F := Ideal) .minimumf [1] S512 v 0x7F800000#32 reduces_S512x128_S512 hφ hacc)
      shapeCasts_S512_S512x1 (ix2 p u) = Finset.univ.inf fun l : Fin 128 => v (ix2 p l) := by
  rw [shapeCast_a_a1_apply, multiReduction_minimumf_single]
  exact foldMin_lanes v p _

theorem pay23_at : k0_pay23 v (ix2 p u) = ∑ l : Fin 128, v (ix2 p l) := redAdd_at v p u
theorem pay24_at : k0_pay24 v (ix2 p u) = ∑ l : Fin 128, v (ix2 p l) := redAdd_at v p u
theorem pay25_at : k0_pay25 v (ix2 p u) = Finset.univ.sup fun l : Fin 128 => v (ix2 p l) := redMax_at v p u _ _
theorem pay26_at : k0_pay26 v (ix2 p u) = Finset.univ.inf fun l : Fin 128 => v (ix2 p l) := redMin_at v p u _ _

theorem pay27_at : k0_pay27 v (ix2 p u) = Ideal.div (∑ l : Fin 128, v (ix2 p l)) cN :=
  congrArg (fun s => Ideal.div s cN) (redAdd_at v p u)
theorem pay28_at : k0_pay28 v (ix2 p u) = Ideal.div (∑ l : Fin 128, v (ix2 p l)) cN :=
  congrArg (fun s => Ideal.div s cN) (redAdd_at v p u)
theorem pay29_at : k0_pay29 v (ix2 p u) = Ideal.div (∑ l : Fin 128, v (ix2 p l)) cN :=
  congrArg (fun s => Ideal.div s cN) (redAdd_at v p u)
theorem pay30_at : k0_pay30 v (ix2 p u) = Ideal.div (∑ l : Fin 128, v (ix2 p l)) cN :=
  congrArg (fun s => Ideal.div s cN) (redAdd_at v p u)

end Reduce

/-! ## The moments' algebra at a row -/

/-- The seven columns from the maximum, the minimum, the four means μ, e₂, e₃, e₄ and the sums Σ|y|, Σ√|y|. -/
def kerMid (mx mn mu e2 e3 e4 sabs ssqrt : EReal) : Fin 7 → EReal :=
  let m2 := max (e2 - mu * mu) c0
  let m3 := (e3 - (c3 * mu) * e2) + ((c2 * mu) * mu) * mu
  let m4 := ((e4 - (c4 * mu) * e3) + ((c6 * mu) * mu) * e2) - (((c3 * mu) * mu) * mu) * mu
  let rms := Ideal.sqrt e2
  let z : BitVec 1 := Ideal.cmp .ole m2 ((cRes * mu) * (cRes * mu))
  ![Cert.Stats.absE (mx - mn),
    Ideal.div mx rms,
    Ideal.div rms (Ideal.div sabs cN),
    Ideal.div mx e2,
    Ideal.div mx (Ideal.div ssqrt cN),
    Scalar.select z cNaN (Ideal.div m4 (m2 * m2)) - c3,
    Scalar.select z cNaN (Ideal.div m3 (m2 * Ideal.sqrt m2))]

theorem kerCols_eq_kerMid (mx mn s1 s2 s3 s4 sabs ssqrt : EReal) :
    Cert.Stats.kerCols mx mn s1 s2 s3 s4 sabs ssqrt
      = kerMid mx mn (Ideal.div s1 cN) (Ideal.div s2 cN) (Ideal.div s3 cN) (Ideal.div s4 cN) sabs ssqrt := rfl

/-- The seven columns of the kernel's block, before the bias, at one index of the 512 × 1 column shape: pointwise the
    scalar function of the eight reduced columns. -/
theorem cols_at (v21 v24 v25 v26 v27 v28 v29 v30 : FVec Ideal S512x1 .f32) (i : S512x1.Idx) (c : Fin 7) :
    (![k0_pay33 v25 v26, k0_pay35 v25 v28, k0_pay36 v21 v28, k0_pay37 v25 v28, k0_pay38 v24 v25,
       subf (select (k0_pay39 v27 v28) (broadcast S512x1 (Ideal.ofBits .f32 0x7FC00000#32)) (k0_pay41 v27 v28 v29 v30))
         (broadcast S512x1 (Ideal.ofBits .f32 0x40400000#32)),
       select (k0_pay39 v27 v28) (broadcast S512x1 (Ideal.ofBits .f32 0x7FC00000#32))
         (divf (k0_pay32 v27 v28 v29) (k0_pay40 v27 v28))] c) i
      = kerMid (v25 i) (v26 i) (v27 i) (v28 i) (v29 i) (v30 i) (v21 i) (v24 i) c := by
  fin_cases c <;> rfl

/-- The stored block at (p, c): piece c of the seven concatenated columns, at row p, times the bias row at c. -/
theorem pay6_at (v55 v72 v74 v75 v76 v77 : FVec Ideal S512x1 .f32) (v83 : IVec S512x1 1) (v85 v87 : FVec Ideal S512x1 .f32)
    (b : Vec Ideal S7 .f32) (p : Fin 512) (c : Fin 7) :
    k0_pay6 v55 v72 v74 v75 v76 v77 v83 v85 v87 (Scalar.ofBits .f32 0x7FC00000#32) b (ix2 p c)
      = (![v72, v74, v75, v76, v77,
           subf (select v83 (broadcast S512x1 (Ideal.ofBits .f32 0x7FC00000#32)) v87) (broadcast S512x1 (Ideal.ofBits .f32 0x40400000#32)),
           select v83 (broadcast S512x1 (Ideal.ofBits .f32 0x7FC00000#32)) (divf v55 v85)] c) (ix2 p (0 : Fin 1))
        * b (ix1 c) := by
  show concatenate S512x7 1 [⟨S512x1, v72⟩, ⟨S512x1, v74⟩, ⟨S512x1, v75⟩, ⟨S512x1, v76⟩, ⟨S512x1, v77⟩,
        ⟨S512x1, subf (select v83 (broadcast S512x1 (Ideal.ofBits .f32 0x7FC00000#32)) v87) (broadcast S512x1 (Ideal.ofBits .f32 0x40400000#32))⟩,
        ⟨S512x1, select v83 (broadcast S512x1 (Ideal.ofBits .f32 0x7FC00000#32)) (divf v55 v85)⟩]
        concatenates_S512x1_S512x1_S512x1_S512x1_S512x1_S512x1_S512x1_S512x7_d1 (ix2 p c)
      * broadcastTo S512x7 (shapeCast S1x7 b shapeCasts_S7_S1x7) broadcasts_S1x7_S512x7 (ix2 p c) = _
  rw [broadcastTo_1b_ab_apply, shapeCast_a_1a_apply, LibConcatUnitCols.concat7_unitCols_apply]

/-- The block at (p, c): column c of the row's statistics times the bias at c. -/
theorem epilogue_cols (A : Acc Ideal) (b : Vec Ideal S7 .f32) (p : Fin 512) (c : Fin 7) :
    epilogue A b (ix2 p c)
      = Cert.Stats.kerCols (Finset.univ.sup fun l : Fin 128 => A.mx (ix2 p l)) (Finset.univ.inf fun l : Fin 128 => A.mn (ix2 p l))
          (∑ l : Fin 128, A.s1 (ix2 p l)) (∑ l : Fin 128, A.s2 (ix2 p l)) (∑ l : Fin 128, A.s3 (ix2 p l))
          (∑ l : Fin 128, A.s4 (ix2 p l)) (∑ l : Fin 128, A.sa (ix2 p l)) (∑ l : Fin 128, A.sq (ix2 p l)) c
        * b (ix1 c) := by
  rw [kerCols_eq_kerMid, ← pay25_at A.mx p 0, ← pay26_at A.mn p 0, ← pay27_at A.s1 p 0, ← pay28_at A.s2 p 0,
    ← pay29_at A.s3 p 0, ← pay30_at A.s4 p 0, ← pay23_at A.sa p 0, ← pay24_at A.sq p 0, ← cols_at]
  exact pay6_at _ _ _ _ _ _ _ _ _ b p c

end Cert.KernelIdeal.AccValue

end
-- ==== Proof.AccValue.lean ====
/-
  The kernel's block of statistics in closed form: at row p and column c, the block computed from the accumulators
  after the four column tiles is column c of the row statistics of y p — the row's 16384 products x · w — times the bias
  at c. The accumulators hold, lane by lane, the supremum, infimum and sums over the 4 × 32 lane groups; the reduction
  over the 128 lanes completes them to the supremum, infimum and sums over the whole row, entry 4096 k + 128 g + l.
-/
import proofs.«101824_j84121229459701_2_alg».proof.Proof.AccDefs
import proofs.«101824_j84121229459701_2_alg».proof.Proof.Stats
import proofs.«101824_j84121229459701_2_alg».proof.Proof.LibBlockedRow
import proofs.«101824_j84121229459701_2_alg».proof.Proof.AccValue1
import proofs.«101824_j84121229459701_2_alg».proof.Proof.AccValue2
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.AccValue

open Cert.KernelIdeal Cert.KernelIdeal.Gen Cert.KernelIdeal.AccDefs Idealize.ShloMosaic Idealize.ShloMosaic.ValueIdx
open Cert.LibBlockedRow

section Row

variable (ws : Fin 4 → Fin 32 → Vec Ideal S128 .f32) (xs : Fin 4 → Fin 32 → Vec Ideal S512x128 .f32)
  (y : Fin 512 → Fin 16384 → EReal)
  (hy : ∀ (k : Fin 4) (g : Fin 32) (p : Fin 512) (l : Fin 128),
    xs k g (ValueIdx.ix2 p l) * ws k g (ValueIdx.ix1 l) = y p ⟨4096 * k.val + 128 * g.val + l.val, by omega⟩)
  (p : Fin 512)

include hy

/-- The product at tile k, group g, lane l is the row's entry at the blocked position. -/
theorem hy_row (l : Fin 128) (k : Fin 4) (g : Fin 32) :
    xs k g (ix2 p l) * ws k g (ix1 l) = y p (rowEquiv (l, k, g)) := hy k g p l

theorem row_mx : (Finset.univ.sup fun l : Fin 128 => (accFinal ws xs).mx (ix2 p l)) = Finset.univ.sup (y p) := by
  rw [← sup_triple rowEquiv (y p)]
  refine congrArg _ (funext fun l => ?_)
  rw [accFinal_mx]
  exact congrArg _ (funext fun k => congrArg _ (funext fun g => hy_row ws xs y hy p l k g))

theorem row_mn : (Finset.univ.inf fun l : Fin 128 => (accFinal ws xs).mn (ix2 p l)) = Finset.univ.inf (y p) := by
  rw [← inf_triple rowEquiv (y p)]
  refine congrArg _ (funext fun l => ?_)
  rw [accFinal_mn]
  exact congrArg _ (funext fun k => congrArg _ (funext fun g => hy_row ws xs y hy p l k g))

theorem row_s1 : ∑ l : Fin 128, (accFinal ws xs).s1 (ix2 p l) = ∑ j, y p j := by
  rw [← sum_triple rowEquiv (y p)]
  refine Finset.sum_congr rfl fun l _ => ?_
  rw [accFinal_s1]
  exact Finset.sum_congr rfl fun k _ => Finset.sum_congr rfl fun g _ => hy_row ws xs y hy p l k g

theorem row_s2 : ∑ l : Fin 128, (accFinal ws xs).s2 (ix2 p l) = ∑ j, y p j * y p j := by
  rw [← sum_triple rowEquiv fun j => y p j * y p j]
  refine Finset.sum_congr rfl fun l _ => ?_
  rw [accFinal_s2]
  exact Finset.sum_congr rfl fun k _ => Finset.sum_congr rfl fun g _ =>
    congrArg (fun t : EReal => t * t) (hy_row ws xs y hy p l k g)

theorem row_s3 : ∑ l : Fin 128, (accFinal ws xs).s3 (ix2 p l) = ∑ j, (y p j * y p j) * y p j := by
  rw [← sum_triple rowEquiv fun j => (y p j * y p j) * y p j]
  refine Finset.sum_congr rfl fun l _ => ?_
  rw [accFinal_s3]
  exact Finset.sum_congr rfl fun k _ => Finset.sum_congr rfl fun g _ =>
    congrArg (fun t : EReal => (t * t) * t) (hy_row ws xs y hy p l k g)

theorem row_s4 : ∑ l : Fin 128, (accFinal ws xs).s4 (ix2 p l) = ∑ j, (y p j * y p j) * (y p j * y p j) := by
  rw [← sum_triple rowEquiv fun j => (y p j * y p j) * (y p j * y p j)]
  refine Finset.sum_congr rfl fun l _ => ?_
  rw [accFinal_s4]
  exact Finset.sum_congr rfl fun k _ => Finset.sum_congr rfl fun g _ =>
    congrArg (fun t : EReal => (t * t) * (t * t)) (hy_row ws xs y hy p l k g)

theorem row_sa : ∑ l : Fin 128, (accFinal ws xs).sa (ix2 p l) = ∑ j, Cert.Stats.absE (y p j) := by
  rw [← sum_triple rowEquiv fun j => Cert.Stats.absE (y p j)]
  refine Finset.sum_congr rfl fun l _ => ?_
  rw [accFinal_sa]
  exact Finset.sum_congr rfl fun k _ => Finset.sum_congr rfl fun g _ =>
    congrArg (fun t : EReal => Cert.Stats.absE t) (hy_row ws xs y hy p l k g)

theorem row_sq : ∑ l : Fin 128, (accFinal ws xs).sq (ix2 p l) = ∑ j, Ideal.sqrt (Cert.Stats.absE (y p j)) := by
  rw [← sum_triple rowEquiv fun j => Ideal.sqrt (Cert.Stats.absE (y p j))]
  refine Finset.sum_congr rfl fun l _ => ?_
  rw [accFinal_sq]
  exact Finset.sum_congr rfl fun k _ => Finset.sum_congr rfl fun g _ =>
    congrArg (fun t : EReal => Ideal.sqrt (Cert.Stats.absE t)) (hy_row ws xs y hy p l k g)

end Row

theorem epilogue_at (ws : Fin 4 → Fin 32 → Vec Ideal S128 .f32) (xs : Fin 4 → Fin 32 → Vec Ideal S512x128 .f32) (b : Vec Ideal S7 .f32)
    (y : Fin 512 → Fin 16384 → EReal)
    (hy : ∀ (k : Fin 4) (g : Fin 32) (p : Fin 512) (l : Fin 128),
            xs k g (ValueIdx.ix2 p l) * ws k g (ValueIdx.ix1 l) = y p ⟨4096 * k.val + 128 * g.val + l.val, by omega⟩)
    (p : Fin 512) (c : Fin 7) :
    epilogue (accFinal ws xs) b (ValueIdx.ix2 p c) = Cert.Stats.kerOfRow (y p) c * b (ValueIdx.ix1 c) := by
  rw [epilogue_cols, row_mx ws xs y hy p, row_mn ws xs y hy p, row_s1 ws xs y hy p, row_s2 ws xs y hy p,
    row_s3 ws xs y hy p, row_s4 ws xs y hy p, row_sa ws xs y hy p, row_sq ws xs y hy p]
  rfl

end Cert.KernelIdeal.AccValue

end
-- ==== Proof.KerArrayBlock.lean ====
/-
  The kernel's staged blocks read at an index, as entries of the argument arrays: the printed index maps over the grid
  (point t is row tile t / 4, column tile t % 4), each window's block at a point, the lane-group slices the loop loads
  from a staged block, and the result array as one function `G` of the three argument arrays.
-/
import proofs.«101824_j84121229459701_2_alg».proof.Proof.BodyTrip
import proofs.«101824_j84121229459701_2_alg».proof.Proof.Stats
import Idealize.ShloMosaic.Lib.ValueIdx
import Idealize.ShloMosaic.Lib.Pipeline.Value
set_option maxRecDepth 16384

noncomputable section

namespace Cert.KernelIdeal.KerArray

open Cert.KernelIdeal Cert.KernelIdeal.Gen Cert.KernelIdeal.Body
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## The printed index maps over the grid

The grid point `t` is row tile `t / 4`, column tile `t % 4`. -/

/-- Each window's block index at point `t`, decided over the 64 points: the x block at (t / 4, t % 4), the weight block at
    t % 4, the bias block at 0, the output block at (t / 4, 0). -/
theorem idx_facts : ∀ t : Fin cfg0.N, win0_0.index t (0 : Fin 2) = t.val / 4 ∧ win0_0.index t (1 : Fin 2) = t.val % 4
    ∧ win0_1.index t (0 : Fin 1) = t.val % 4 ∧ win0_2.index t (0 : Fin 1) = 0
    ∧ win0_3.index t (0 : Fin 2) = t.val / 4 ∧ win0_3.index t (1 : Fin 2) = 0 :=
  (by decide +kernel : ∀ t : Fin grid0.N, _)

theorem N_eq : cfg0.N = 64 := N_0

/-! ## The input blocks read at an index -/

/-- Entry (p, q) of the x block at point `t` is entry (512 · (t / 4) + p, 4096 · (t % 4) + q) of the x array. -/
theorem xblk_at (c : Dev nD) (t : Fin cfg0.N) (p : Fin 512) (q : Fin 4096) (hr : 512 * (t.val / 4) + p.val < 8192)
    (hc : 4096 * (t.val % 4) + q.val < 16384) :
    iblk m c 0 t (ix2 p q)
      = m ((c : Thread nD τ).loc main_arg0) (ix2 (⟨512 * (t.val / 4) + p.val, hr⟩ : Fin 8192) (⟨4096 * (t.val % 4) + q.val, hc⟩ : Fin 16384)) := by
  obtain ⟨e00, e01, -, -, -, -⟩ := idx_facts t
  show V m c main_arg0 (((cfg0.win 0).blk t).view.emb (ix2 p q)) = V m c main_arg0 _
  refine congrArg (V m c main_arg0) ?_
  funext a; apply Fin.ext
  match a with
  | ⟨0, _⟩ => show win0_0.index t (0 : Fin 2) * 512 + 1 * p.val = 512 * (t.val / 4) + p.val; omega
  | ⟨1, _⟩ => show win0_0.index t (1 : Fin 2) * 4096 + 1 * q.val = 4096 * (t.val % 4) + q.val; omega

/-- Entry q of the weight block at point `t` is entry 4096 · (t % 4) + q of the weights. -/
theorem wblk_at (c : Dev nD) (t : Fin cfg0.N) (q : Fin 4096) (hc : 4096 * (t.val % 4) + q.val < 16384) :
    iblk m c 1 t (ix1 q) = m ((c : Thread nD τ).loc main_arg1) (ix1 (⟨4096 * (t.val % 4) + q.val, hc⟩ : Fin 16384)) := by
  obtain ⟨-, -, e1, -, -, -⟩ := idx_facts t
  show V m c main_arg1 (((cfg0.win 1).blk t).view.emb (ix1 q)) = V m c main_arg1 _
  refine congrArg (V m c main_arg1) ?_
  funext a; apply Fin.ext
  match a with
  | ⟨0, _⟩ => show win0_1.index t (0 : Fin 1) * 4096 + 1 * q.val = 4096 * (t.val % 4) + q.val; omega

/-- The bias block at any point is the whole bias row. -/
theorem bblk_at (c : Dev nD) (t : Fin cfg0.N) (q : Fin 7) :
    iblk m c 2 t (ix1 q) = m ((c : Thread nD τ).loc main_arg2) (ix1 q) := by
  obtain ⟨-, -, -, e2, -, -⟩ := idx_facts t
  show V m c main_arg2 (((cfg0.win 2).blk t).view.emb (ix1 q)) = V m c main_arg2 _
  refine congrArg (V m c main_arg2) ?_
  funext a; apply Fin.ext
  match a with
  | ⟨0, _⟩ => show win0_2.index t (0 : Fin 1) * 7 + 1 * q.val = q.val; omega

/-! ## The lane-group slices -/

/-- The loads' offsets in closed form: lane group g starts at column 128 · g. -/
theorem off2_eq : ∀ g : Fin 32, k0_off2 g 0 = 0 ∧ k0_off2 g 1 = 128 * g.val := by decide
theorem off1_eq : ∀ g : Fin 32, k0_off1 g 0 = 128 * g.val := by decide

/-- Entry (p, l) of lane group g's slice of a staged block is entry (p, 128 · g + l) of the block. -/
theorem xsl_at (X : Vec Ideal S512x4096 .f32) (g : Fin 32) (p : Fin 512) (l : Fin 128) (h : 128 * g.val + l.val < 4096) :
    xsl X g (ix2 p l) = X (ix2 p (⟨128 * g.val + l.val, h⟩ : Fin 4096)) := by
  show X ((Rect.unit (s := S512x4096) (k0_off2 g) S512x128.size (k0_off2_inb g)).idx (ix2 p l)) = _
  refine congrArg X ?_
  funext a; apply Fin.ext
  match a with
  | ⟨0, _⟩ => show k0_off2 g 0 + 1 * p.val = p.val; have e := (off2_eq g).1; omega
  | ⟨1, _⟩ => show k0_off2 g 1 + 1 * l.val = 128 * g.val + l.val; have e := (off2_eq g).2; omega

/-- Entry l of lane group g's weights is entry 128 · g + l of the staged weights. -/
theorem wsl_at (W : Vec Ideal S4096 .f32) (g : Fin 32) (l : Fin 128) (h : 128 * g.val + l.val < 4096) :
    wsl W g (ix1 l) = W (ix1 (⟨128 * g.val + l.val, h⟩ : Fin 4096)) := by
  show W ((Rect.unit (s := S4096) (k0_off1 g) S128.size (k0_off1_inb g)).idx (ix1 l)) = _
  refine congrArg W ?_
  funext a; apply Fin.ext
  match a with
  | ⟨0, _⟩ => show k0_off1 g 0 + 1 * l.val = 128 * g.val + l.val; have e := off1_eq g; omega

/-! ## The same reads with the target index named by its coordinates' values -/

theorem xblk_val (c : Dev nD) (t : Fin cfg0.N) (p : Fin 512) (q : Fin 4096) (r : Fin 8192) (s : Fin 16384)
    (hr : r.val = 512 * (t.val / 4) + p.val) (hs : s.val = 4096 * (t.val % 4) + q.val) :
    iblk m c 0 t (ix2 p q) = m ((c : Thread nD τ).loc main_arg0) (ix2 r s) := by
  have e := xblk_at m c t p q (by omega) (by omega)
  rw [e]
  exact congrArg (m ((c : Thread nD τ).loc main_arg0)) (by
    funext a
    match a with
    | ⟨0, _⟩ => exact Fin.ext hr.symm
    | ⟨1, _⟩ => exact Fin.ext hs.symm)

theorem wblk_val (c : Dev nD) (t : Fin cfg0.N) (q : Fin 4096) (s : Fin 16384) (hs : s.val = 4096 * (t.val % 4) + q.val) :
    iblk m c 1 t (ix1 q) = m ((c : Thread nD τ).loc main_arg1) (ix1 s) := by
  have e := wblk_at m c t q (by omega)
  rw [e]
  exact congrArg (m ((c : Thread nD τ).loc main_arg1)) (by
    funext a
    match a with
    | ⟨0, _⟩ => exact Fin.ext hs.symm)

theorem xsl_val (X : Vec Ideal S512x4096 .f32) (g : Fin 32) (p : Fin 512) (l : Fin 128) (s : Fin 4096) (hs : s.val = 128 * g.val + l.val) :
    xsl X g (ix2 p l) = X (ix2 p s) := by
  rw [xsl_at X g p l (by omega)]
  exact congrArg X (by
    funext a
    match a with
    | ⟨0, _⟩ => rfl
    | ⟨1, _⟩ => exact Fin.ext hs.symm)

theorem wsl_val (W : Vec Ideal S4096 .f32) (g : Fin 32) (l : Fin 128) (s : Fin 4096) (hs : s.val = 128 * g.val + l.val) :
    wsl W g (ix1 l) = W (ix1 s) := by
  rw [wsl_at W g l (by omega)]
  exact congrArg W (by
    funext a
    match a with
    | ⟨0, _⟩ => exact Fin.ext hs.symm)

/-! ## The result array as one function of the argument arrays -/

/-- Every row's seven statistics in the kernel's grouping, scaled by the bias: the whole result array as one function of the three argument arrays. -/
def G (x : (⟨S8192x16384, .f32⟩ : BufTy).Contents (Elt Ideal)) (w : (⟨S16384, .f32⟩ : BufTy).Contents (Elt Ideal)) (b : (⟨S7, .f32⟩ : BufTy).Contents (Elt Ideal)) : (⟨S8192x7, .f32⟩ : BufTy).Contents (Elt Ideal) :=
  fun i => Cert.Stats.kerOfRow (fun j => x (ValueIdx.ix2 (⟨(i 0).val, (i 0).isLt⟩ : Fin 8192) j) * w (ValueIdx.ix1 j)) ⟨(i 1).val, (i 1).isLt⟩ * b (ValueIdx.ix1 (⟨(i 1).val, (i 1).isLt⟩ : Fin 7))

/-- Its value at row r, column q. -/
theorem G_at (x : (⟨S8192x16384, .f32⟩ : BufTy).Contents (Elt Ideal)) (w : (⟨S16384, .f32⟩ : BufTy).Contents (Elt Ideal)) (b : (⟨S7, .f32⟩ : BufTy).Contents (Elt Ideal)) (r : Fin 8192) (q : Fin 7) :
    G x w b (ix2 r q) = Cert.Stats.kerOfRow (fun j => x (ix2 r j) * w (ix1 j)) q * b (ix1 q) := rfl

end Cert.KernelIdeal.KerArray

end
-- ==== Proof.KerArray.lean ====
/-
  From the blocks to the array: after the fourth point of a row tile the accumulators hold the four column tiles' lane
  groups absorbed in turn, so the block the body leaves there is the row tile's rows of `G` of the argument arrays; the
  points of the last column tile write back blocks that cover the result array; hence the run ends with the result array
  at `G` of the argument arrays, which are unchanged.
-/
import proofs.«101824_j84121229459701_2_alg».proof.Proof.BodyFrame
import proofs.«101824_j84121229459701_2_alg».proof.Proof.AccValue
import proofs.«101824_j84121229459701_2_alg».proof.Proof.KerArrayBlock
set_option maxRecDepth 16384

noncomputable section

namespace Cert.KernelIdeal.KerArray

open Cert.KernelIdeal Cert.KernelIdeal.Gen Cert.KernelIdeal.Body
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## One row tile: four points -/

/-- The accumulators do not depend on how the position is spelled. -/
theorem accAt_congr (c : Dev nD) (a b : ℕ) (h : a = b) (ha : a < cfg0.N) (hb : b < cfg0.N) : accAt m c a ha = accAt m c b hb := by
  subst h; rfl

/-- After the fourth point of a row tile: the four column tiles' lane groups absorbed in turn, from the reset values. -/
theorem accAt_tile (c : Dev nD) (t0 t1 t2 t3 : Fin cfg0.N) (h0 : t0.val % 4 = 0) (h1 : t1.val = t0.val + 1) (h2 : t2.val = t1.val + 1)
    (h3 : t3.val = t2.val + 1) :
    accAt m c t3.val t3.isLt
      = loopOut (iblk m c 0 t3) (iblk m c 1 t3) (loopOut (iblk m c 0 t2) (iblk m c 1 t2)
          (loopOut (iblk m c 0 t1) (iblk m c 1 t1) (loopOut (iblk m c 0 t0) (iblk m c 1 t0) AccDefs.accInit))) := by
  rw [accAt_step m c t3 (by omega), accAt_congr m c (t3.val - 1) t2.val (by omega) _ t2.isLt,
    accAt_step m c t2 (by omega), accAt_congr m c (t2.val - 1) t1.val (by omega) _ t1.isLt,
    accAt_step m c t1 (by omega), accAt_congr m c (t1.val - 1) t0.val (by omega) _ t0.isLt,
    accAt_reset m c t0 h0]

/-- One lane group of column tile k of a row tile: the slices' product is the row's product x · w at column 4096 · k + 128 · g + l. -/
theorem group_value (x : S8192x16384.Idx → EReal) (w : S16384.Idx → EReal) (X : Vec Ideal S512x4096 .f32) (W : Vec Ideal S4096 .f32)
    (i k : ℕ)
    (hX : ∀ (p : Fin 512) (q : Fin 4096) (r : Fin 8192) (s : Fin 16384), r.val = 512 * i + p.val → s.val = 4096 * k + q.val → X (ix2 p q) = x (ix2 r s))
    (hW : ∀ (q : Fin 4096) (s : Fin 16384), s.val = 4096 * k + q.val → W (ix1 q) = w (ix1 s))
    (g : Fin 32) (p : Fin 512) (l : Fin 128) (r : Fin 8192) (s : Fin 16384) (hr : r.val = 512 * i + p.val)
    (hs : s.val = 4096 * k + 128 * g.val + l.val) :
    xsl X g (ix2 p l) * wsl W g (ix1 l) = x (ix2 r s) * w (ix1 s) := by
  have hl : 128 * g.val + l.val < 4096 := by omega
  rw [xsl_val X g p l ⟨128 * g.val + l.val, hl⟩ rfl, wsl_val W g l ⟨128 * g.val + l.val, hl⟩ rfl,
    hX p ⟨128 * g.val + l.val, hl⟩ r s hr (by show s.val = 4096 * k + (128 * g.val + l.val); omega),
    hW ⟨128 * g.val + l.val, hl⟩ s (by show s.val = 4096 * k + (128 * g.val + l.val); omega)]

/-- The statistics of one row tile: from the four column tiles' staged blocks of x and w, each the corresponding part of the
    row tile's rows, the epilogue of the four loops is every row's seven statistics of x · w, scaled by the bias. -/
theorem tile_value (x : S8192x16384.Idx → EReal) (w : S16384.Idx → EReal)
    (X0 X1 X2 X3 : Vec Ideal S512x4096 .f32) (W0 W1 W2 W3 : Vec Ideal S4096 .f32) (B : Vec Ideal S7 .f32) (i : ℕ)
    (hX0 : ∀ (p : Fin 512) (q : Fin 4096) (r : Fin 8192) (s : Fin 16384), r.val = 512 * i + p.val → s.val = 4096 * 0 + q.val → X0 (ix2 p q) = x (ix2 r s))
    (hX1 : ∀ (p : Fin 512) (q : Fin 4096) (r : Fin 8192) (s : Fin 16384), r.val = 512 * i + p.val → s.val = 4096 * 1 + q.val → X1 (ix2 p q) = x (ix2 r s))
    (hX2 : ∀ (p : Fin 512) (q : Fin 4096) (r : Fin 8192) (s : Fin 16384), r.val = 512 * i + p.val → s.val = 4096 * 2 + q.val → X2 (ix2 p q) = x (ix2 r s))
    (hX3 : ∀ (p : Fin 512) (q : Fin 4096) (r : Fin 8192) (s : Fin 16384), r.val = 512 * i + p.val → s.val = 4096 * 3 + q.val → X3 (ix2 p q) = x (ix2 r s))
    (hW0 : ∀ (q : Fin 4096) (s : Fin 16384), s.val = 4096 * 0 + q.val → W0 (ix1 q) = w (ix1 s))
    (hW1 : ∀ (q : Fin 4096) (s : Fin 16384), s.val = 4096 * 1 + q.val → W1 (ix1 q) = w (ix1 s))
    (hW2 : ∀ (q : Fin 4096) (s : Fin 16384), s.val = 4096 * 2 + q.val → W2 (ix1 q) = w (ix1 s))
    (hW3 : ∀ (q : Fin 4096) (s : Fin 16384), s.val = 4096 * 3 + q.val → W3 (ix1 q) = w (ix1 s))
    (p : Fin 512) (q : Fin 7) (r : Fin 8192) (hr : r.val = 512 * i + p.val) :
    AccDefs.epilogue (loopOut X3 W3 (loopOut X2 W2 (loopOut X1 W1 (loopOut X0 W0 AccDefs.accInit)))) B (ix2 p q)
      = Cert.Stats.kerOfRow (fun j => x (ix2 r j) * w (ix1 j)) q * B (ix1 q) := by
  have hrow : ∀ (p' : Fin 512), 512 * i + p'.val < 8192 := fun p' => by have := r.isLt; have := p.isLt; have := p'.isLt; omega
  have key := AccValue.epilogue_at
    (fun k : Fin 4 => match k with | ⟨0, _⟩ => wsl W0 | ⟨1, _⟩ => wsl W1 | ⟨2, _⟩ => wsl W2 | ⟨3, _⟩ => wsl W3)
    (fun k : Fin 4 => match k with | ⟨0, _⟩ => xsl X0 | ⟨1, _⟩ => xsl X1 | ⟨2, _⟩ => xsl X2 | ⟨3, _⟩ => xsl X3)
    B (fun p' j => x (ix2 (⟨512 * i + p'.val, hrow p'⟩ : Fin 8192) j) * w (ix1 j))
    (fun k g p' l => match k with
      | ⟨0, _⟩ => group_value x w X0 W0 i 0 hX0 hW0 g p' l _ _ rfl rfl
      | ⟨1, _⟩ => group_value x w X1 W1 i 1 hX1 hW1 g p' l _ _ rfl rfl
      | ⟨2, _⟩ => group_value x w X2 W2 i 2 hX2 hW2 g p' l _ _ rfl rfl
      | ⟨3, _⟩ => group_value x w X3 W3 i 3 hX3 hW3 g p' l _ _ rfl rfl)
    p q
  have er : (⟨512 * i + p.val, hrow p⟩ : Fin 8192) = r := Fin.ext hr.symm
  rw [er] at key
  exact key

/-- At a point of the last column tile, entry (p, q) of what the body leaves in the output block is entry
    (512 · (t / 4) + p, q) of `G` of the argument arrays. -/
theorem out_point (c : Dev nD) (t : Fin cfg0.N) (ht : t.val % 4 = 3) (p : Fin 512) (q : Fin 7) (hr : 512 * (t.val / 4) + p.val < 8192) :
    outAt m c t (ix2 p q) = G (m ((c : Thread nD τ).loc main_arg0)) (m ((c : Thread nD τ).loc main_arg1)) (m ((c : Thread nD τ).loc main_arg2)) (ix2 (⟨512 * (t.val / 4) + p.val, hr⟩ : Fin 8192) q) := by
  have hN : cfg0.N = 64 := N_0
  have hlt := t.isLt
  have l2 : t.val - 1 < cfg0.N := by omega
  have l1 : t.val - 2 < cfg0.N := by omega
  have l0 : t.val - 3 < cfg0.N := by omega
  rw [G_at]
  unfold outAt
  rw [accAt_tile m c ⟨t.val - 3, l0⟩ ⟨t.val - 2, l1⟩ ⟨t.val - 1, l2⟩ t (by show (t.val - 3) % 4 = 0; omega)
    (by show t.val - 2 = t.val - 3 + 1; omega) (by show t.val - 1 = t.val - 2 + 1; omega) (by show t.val = t.val - 1 + 1; omega)]
  refine (tile_value (m ((c : Thread nD τ).loc main_arg0)) (m ((c : Thread nD τ).loc main_arg1))
    (iblk m c 0 ⟨t.val - 3, l0⟩) (iblk m c 0 ⟨t.val - 2, l1⟩) (iblk m c 0 ⟨t.val - 1, l2⟩) (iblk m c 0 t)
    (iblk m c 1 ⟨t.val - 3, l0⟩) (iblk m c 1 ⟨t.val - 2, l1⟩) (iblk m c 1 ⟨t.val - 1, l2⟩) (iblk m c 1 t)
    (iblk m c 2 t) (t.val / 4)
    (fun p' q' r s hr' hs' => xblk_val m c ⟨t.val - 3, l0⟩ p' q' r s (by show r.val = 512 * ((t.val - 3) / 4) + p'.val; omega) (by show s.val = 4096 * ((t.val - 3) % 4) + q'.val; omega))
    (fun p' q' r s hr' hs' => xblk_val m c ⟨t.val - 2, l1⟩ p' q' r s (by show r.val = 512 * ((t.val - 2) / 4) + p'.val; omega) (by show s.val = 4096 * ((t.val - 2) % 4) + q'.val; omega))
    (fun p' q' r s hr' hs' => xblk_val m c ⟨t.val - 1, l2⟩ p' q' r s (by show r.val = 512 * ((t.val - 1) / 4) + p'.val; omega) (by show s.val = 4096 * ((t.val - 1) % 4) + q'.val; omega))
    (fun p' q' r s hr' hs' => xblk_val m c t p' q' r s (by omega) (by omega))
    (fun q' s hs' => wblk_val m c ⟨t.val - 3, l0⟩ q' s (by show s.val = 4096 * ((t.val - 3) % 4) + q'.val; omega))
    (fun q' s hs' => wblk_val m c ⟨t.val - 2, l1⟩ q' s (by show s.val = 4096 * ((t.val - 2) % 4) + q'.val; omega))
    (fun q' s hs' => wblk_val m c ⟨t.val - 1, l2⟩ q' s (by show s.val = 4096 * ((t.val - 1) % 4) + q'.val; omega))
    (fun q' s hs' => wblk_val m c t q' s (by omega))
    p q ⟨512 * (t.val / 4) + p.val, hr⟩ rfl).trans ?_
  rw [bblk_at m c t q]

/-! ## From the blocks to the array -/

/-- What a point of the last column tile writes back is its block of `G` of the argument arrays. -/
theorem flushed_eq (c : Dev nD) (t : Fin cfg0.N) (ht : (cfg0.win 3).flush t = true) :
    (dats m 0 c).flushed 3 t = ((cfg0.win 3).blk t).view.read (Elt Ideal) (G (m ((c : Thread nD τ).loc main_arg0)) (m ((c : Thread nD τ).loc main_arg1)) (m ((c : Thread nD τ).loc main_arg2))) := by
  have h3 : t.val % 4 = 3 := (flush0_3 t).mp ht
  obtain ⟨-, -, -, -, e30, e31⟩ := idx_facts t
  have hN : t.val < 64 := lt_of_lt_of_eq t.isLt N_0
  show (cfg0.win 3).cut (grid0.coords t) ((dats m 0 c).after 3 t) = _
  rw [after0_3]
  funext j
  have hp : (j 0).val < 512 := (j 0).isLt
  have hq : (j 1).val < 7 := (j 1).isLt
  have hr : 512 * (t.val / 4) + (j 0).val < 8192 := by omega
  have ej : j = ix2 (⟨(j 0).val, hp⟩ : Fin 512) (⟨(j 1).val, hq⟩ : Fin 7) := by
    funext a
    match a with
    | ⟨0, _⟩ => rfl
    | ⟨1, _⟩ => rfl
  have ee : ((cfg0.win 3).blk t).view.emb j = ix2 (⟨512 * (t.val / 4) + (j 0).val, hr⟩ : Fin 8192) (⟨(j 1).val, hq⟩ : Fin 7) := by
    funext a; apply Fin.ext
    match a with
    | ⟨0, _⟩ => show win0_3.index t (0 : Fin 2) * 512 + 1 * (j 0).val = 512 * (t.val / 4) + (j 0).val; omega
    | ⟨1, _⟩ => show win0_3.index t (1 : Fin 2) * 7 + 1 * (j 1).val = (j 1).val; omega
  show outAt m c t j = G (m ((c : Thread nD τ).loc main_arg0)) (m ((c : Thread nD τ).loc main_arg1)) (m ((c : Thread nD τ).loc main_arg2)) (((cfg0.win 3).blk t).view.emb j)
  rw [ee]
  exact (congrArg (outAt m c t) ej).trans (out_point m c t h3 ⟨(j 0).val, hp⟩ ⟨(j 1).val, hq⟩ hr)

/-- An index of the result array is in point `t`'s block iff each coordinate is in the block's range on its axis. -/
theorem mem_blk (t : Fin cfg0.N) (i : S8192x7.Idx) :
    i ∈ ((cfg0.win 3).blk t).view.set ↔ ∀ a : Fin 2, win0_3.index t a * S512x7.size a ≤ (i a).val ∧ (i a).val < win0_3.index t a * S512x7.size a + S512x7.size a := by
  show i ∈ ((View.whole main_v0).slice (win0_3.rect t)).set ↔ _
  rw [View.set_slice_whole, Rect.mem_set_unit]
  exact Iff.rfl

/-- Every index of the result array is in the block some point of the last column tile writes back: row r in that of
    row tile r / 512. -/
theorem cover (i : S8192x7.Idx) : ∃ t : Fin cfg0.N, (cfg0.win 3).flush t = true ∧ i ∈ ((cfg0.win 3).blk t).view.set := by
  have hi0 : (i 0).val < 8192 := (i 0).isLt
  have hi1 : (i 1).val < 7 := (i 1).isLt
  have hN : cfg0.N = 64 := N_0
  have hlt : 4 * ((i 0).val / 512) + 3 < cfg0.N := by omega
  obtain ⟨-, -, -, -, e30, e31⟩ := idx_facts ⟨4 * ((i 0).val / 512) + 3, hlt⟩
  have hv : (⟨4 * ((i 0).val / 512) + 3, hlt⟩ : Fin cfg0.N).val = 4 * ((i 0).val / 512) + 3 := rfl
  refine ⟨⟨4 * ((i 0).val / 512) + 3, hlt⟩, (flush0_3 _).mpr (by rw [hv]; omega), ?_⟩
  rw [mem_blk]
  intro a
  match a with
  | ⟨0, _⟩ =>
    show win0_3.index ⟨4 * ((i 0).val / 512) + 3, hlt⟩ (0 : Fin 2) * 512 ≤ (i 0).val ∧ (i 0).val < win0_3.index ⟨4 * ((i 0).val / 512) + 3, hlt⟩ (0 : Fin 2) * 512 + 512
    rw [e30, hv]; omega
  | ⟨1, _⟩ =>
    show win0_3.index ⟨4 * ((i 0).val / 512) + 3, hlt⟩ (1 : Fin 2) * 7 ≤ (i 1).val ∧ (i 1).val < win0_3.index ⟨4 * ((i 0).val / 512) + 3, hlt⟩ (1 : Fin 2) * 7 + 7
    rw [e31]; omega

/-- The result array after the run is `G` of the argument arrays. -/
theorem final3 (c : Dev nD) : (dats m 0 c).arrAt 3 cfg0.N = G (m ((c : Thread nD τ).loc main_arg0)) (m ((c : Thread nD τ).loc main_arg1)) (m ((c : Thread nD τ).loc main_arg2)) :=
  (dats m 0 c).arrAt_eq_of_cover 3 (G (m ((c : Thread nD τ).loc main_arg0)) (m ((c : Thread nD τ).loc main_arg1)) (m ((c : Thread nD τ).loc main_arg2))) (fun t ht => flushed_eq m c t ht) cover

/-! ## The run, read -/

/-- The run with the result array named: `G` of the argument arrays, which end unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).1 3).trans (final3 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KerArray

end
-- ==== Proof.RefValue.lean ====
/-
  The reference's result read at an index.

  The reference computes, for every row r of the product y = x · w (y r j = x r j · w j), seven statistics of the row —
  the range |max − min|, max / rms, rms / mean|y|, max / mean y², max / mean √|y|, the excess kurtosis and the skewness
  (both guarded: not-a-number where the variance is at most (10⁻⁶ · μ)²) — joins them as seven columns and multiplies
  column c by the bias b c. Here every operation of the printed program is read at an index, bottom-up: the product
  at (r, j); the row maximum and minimum as the supremum and infimum of the row; each of the seven row sums as a sum
  over j of its summand at (r, j); the means; the seven columns at (r, 0); the join at (r, c); the result. The
  result at (r, c) is `Cert.Stats.refCols` of row r, at c, times b c.
-/
import proofs.«101824_j84121229459701_2_alg».proof.Proof.RefRead
import proofs.«101824_j84121229459701_2_alg».proof.Proof.Stats
import proofs.«101824_j84121229459701_2_alg».proof.Proof.LibConcatUnitCols
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx Cert.Stats
open Idealize.ShloMosaic.LibConcatUnitCols

/-! ## The row maximum and minimum as a supremum and an infimum -/

/-- The binary32 pattern of −∞ read exactly is the bottom of the extended reals. -/
theorem lit_neg_inf : Ideal.ofBits .f32 0xFF800000#32 = (⊥ : EReal) := by simp [Ideal.ofBits, Ideal.ieee]
/-- The binary32 pattern of +∞ read exactly is the top of the extended reals. -/
theorem lit_pos_inf : Ideal.ofBits .f32 0x7F800000#32 = (⊤ : EReal) := by simp [Ideal.ofBits, Ideal.ieee]

/-- A fold of `max` from ⊥ over a finite set is the supremum over it. -/
theorem fold_max_bot_eq_sup {ι : Type} (s : Finset ι) (f : ι → EReal) : s.fold max (⊥ : EReal) f = s.sup f := rfl
/-- A fold of `min` from ⊤ over a finite set is the infimum over it. -/
theorem fold_min_top_eq_inf {ι : Type} (s : Finset ι) (f : ι → EReal) : s.fold min (⊤ : EReal) f = s.inf f := rfl

/-- The witness that dropping axis 1 of [8192, 16384] leaves [8192]. -/
theorem reduces_row : (⟨2, ![8192, 16384]⟩ : Shape).Reduces [1] ⟨1, ![8192]⟩ := by decide

/-- The source index over row r with k inserted on the dropped axis is (r, k). -/
theorem lift_row (r : Fin 8192) (k : Fin 16384) : reduces_row.lift (ix1 r) k = ix2 r k :=
  funext fun a => Fin.ext (by match a with | ⟨0, _⟩ => rfl | ⟨1, _⟩ => rfl)

/-- A row maximum from −∞: the host's reduce by `maximum` over axis 1 of an [8192, 16384] array, at row r, is the
    supremum of the row. -/
theorem hostReduce_max_row (x : (⟨2, ![8192, 16384]⟩ : Shape).Idx → Ideal .f32)
    (h' : (⟨2, ![8192, 16384]⟩ : Shape).ReducesTo [1] ⟨1, ![8192]⟩) (hu : 0 < (⟨0, ![]⟩ : Shape).numel) (r : Fin 8192) :
    Host.reduce FloatOps.maximumf x (constant (F := Ideal) (⟨0, ![]⟩ : Shape) .f32 0xFF800000#32) h' hu (ix1 r)
      = Finset.univ.sup fun j : Fin 16384 => (x (ix2 r j) : EReal) := by
  rw [Host.reduce_eq_fold_single FloatOps.maximumf x _ h' reduces_row hu (ix1 r)]
  show (Finset.univ : Finset (Fin 16384)).fold max (Ideal.ofBits .f32 0xFF800000#32) (fun k => (x (reduces_row.lift (ix1 r) k) : EReal)) = _
  rw [lit_neg_inf]
  refine (fold_max_bot_eq_sup (Finset.univ : Finset (Fin 16384)) (fun k => (x (reduces_row.lift (ix1 r) k) : EReal))).trans ?_
  exact congrArg _ (funext fun k => congrArg x (lift_row r k))

/-- A row minimum from +∞, likewise the infimum of the row. -/
theorem hostReduce_min_row (x : (⟨2, ![8192, 16384]⟩ : Shape).Idx → Ideal .f32)
    (h' : (⟨2, ![8192, 16384]⟩ : Shape).ReducesTo [1] ⟨1, ![8192]⟩) (hu : 0 < (⟨0, ![]⟩ : Shape).numel) (r : Fin 8192) :
    Host.reduce FloatOps.minimumf x (constant (F := Ideal) (⟨0, ![]⟩ : Shape) .f32 0x7F800000#32) h' hu (ix1 r)
      = Finset.univ.inf fun j : Fin 16384 => (x (ix2 r j) : EReal) := by
  rw [Host.reduce_eq_fold_single FloatOps.minimumf x _ h' reduces_row hu (ix1 r)]
  show (Finset.univ : Finset (Fin 16384)).fold min (Ideal.ofBits .f32 0x7F800000#32) (fun k => (x (reduces_row.lift (ix1 r) k) : EReal)) = _
  rw [lit_pos_inf]
  refine (fold_min_top_eq_inf (Finset.univ : Finset (Fin 16384)) (fun k => (x (reduces_row.lift (ix1 r) k) : EReal))).trans ?_
  exact congrArg _ (funext fun k => congrArg x (lift_row r k))

/-! ## Indices -/

/-- Two rank-1 indices with the same coordinate are equal. -/
local macro "idx1" : tactic => `(tactic| exact funext fun a => Fin.ext (by match a with | ⟨0, _⟩ => rfl))
/-- Two rank-2 indices with the same coordinates are equal. -/
local macro "idx2" : tactic => `(tactic| exact funext fun a => Fin.ext (by match a with | ⟨0, _⟩ => rfl | ⟨1, _⟩ => rfl))

variable (x0 : (⟨S8192x16384, .f32⟩ : BufTy).Contents (Elt Ideal)) (x1 : (⟨S16384, .f32⟩ : BufTy).Contents (Elt Ideal))

/-! ## The row and its statistics, named as the target function spells them -/

/-- Row r of the product x · w. -/
abbrev row (r : Fin 8192) : Fin 16384 → EReal := fun j => x0 (ix2 r j) * x1 (ix1 j)
/-- The row's maximum. -/
abbrev mx (r : Fin 8192) : EReal := Finset.univ.sup (row x0 x1 r)
/-- The row's minimum. -/
abbrev mn (r : Fin 8192) : EReal := Finset.univ.inf (row x0 x1 r)
/-- The mean of the squares. -/
abbrev msq (r : Fin 8192) : EReal := Ideal.div (∑ j, row x0 x1 r j * row x0 x1 r j) cN
/-- The root mean square. -/
abbrev rms (r : Fin 8192) : EReal := Ideal.sqrt (msq x0 x1 r)
/-- The mean absolute value. -/
abbrev mabs (r : Fin 8192) : EReal := Ideal.div (∑ j, absE (row x0 x1 r j)) cN
/-- The mean of the square roots of the absolute values. -/
abbrev msa (r : Fin 8192) : EReal := Ideal.div (∑ j, Ideal.sqrt (absE (row x0 x1 r j))) cN
/-- The mean. -/
abbrev mu (r : Fin 8192) : EReal := Ideal.div (∑ j, row x0 x1 r j) cN
/-- The centred row. -/
abbrev dev (r : Fin 8192) : Fin 16384 → EReal := fun j => row x0 x1 r j - mu x0 x1 r
/-- The second central moment. -/
abbrev m2 (r : Fin 8192) : EReal := Ideal.div (∑ j, dev x0 x1 r j * dev x0 x1 r j) cN
/-- The third central moment. -/
abbrev m3 (r : Fin 8192) : EReal := Ideal.div (∑ j, (dev x0 x1 r j * dev x0 x1 r j) * dev x0 x1 r j) cN
/-- The fourth central moment. -/
abbrev m4 (r : Fin 8192) : EReal := Ideal.div (∑ j, (dev x0 x1 r j * dev x0 x1 r j) * (dev x0 x1 r j * dev x0 x1 r j)) cN
/-- The guard: the variance is at most the square of the resolution times the mean. -/
abbrev zbit (r : Fin 8192) : BitVec 1 := Ideal.cmp .ole (m2 x0 x1 r) ((cRes * mu x0 x1 r) * (cRes * mu x0 x1 r))

/-! ## The product and the summands that need only it, at (r, j) -/

/-- The product at (r, j). -/
theorem v2_at (r : Fin 8192) (j : Fin 16384) : val_main_v2 (F := Ideal) x0 x1 (ix2 r j) = row x0 x1 r j := by
  rw [val_main_v2_apply, val_main_v1_apply, val_main_v0_apply,
    show idx_main_v0 (idx_main_v1 (ix2 r j)) = ix1 j from by idx1]
  rfl

/-- Its square at (r, j). -/
theorem v9_at (r : Fin 8192) (j : Fin 16384) : val_main_v9 (F := Ideal) x0 x1 (ix2 r j) = row x0 x1 r j * row x0 x1 r j := by
  rw [val_main_v9_apply, v2_at]; rfl

/-- Its absolute value at (r, j). -/
theorem v16_at (r : Fin 8192) (j : Fin 16384) : val_main_v16 (F := Ideal) x0 x1 (ix2 r j) = absE (row x0 x1 r j) := by
  rw [val_main_v16_apply, v2_at]; rfl

/-- The square root of its absolute value at (r, j). -/
theorem v23_at (r : Fin 8192) (j : Fin 16384) : val_main_v23 (F := Ideal) x0 x1 (ix2 r j) = Ideal.sqrt (absE (row x0 x1 r j)) := by
  rw [val_main_v23_apply, v16_at]; rfl

/-! ## The row maximum and minimum -/

/-- The row maximum. -/
theorem v3_at (r : Fin 8192) : val_main_v3 (F := Ideal) x0 x1 (ix1 r) = mx x0 x1 r := by
  unfold val_main_v3
  refine (hostReduce_max_row (val_main_v2 (F := Ideal) x0 x1) reducesTo_S8192x16384_S8192_d1 h_S_ r).trans ?_
  exact congrArg _ (funext fun j => v2_at x0 x1 r j)

/-- The row minimum. -/
theorem v5_at (r : Fin 8192) : val_main_v5 (F := Ideal) x0 x1 (ix1 r) = mn x0 x1 r := by
  unfold val_main_v5
  refine (hostReduce_min_row (val_main_v2 (F := Ideal) x0 x1) reducesTo_S8192x16384_S8192_d1 h_S_ r).trans ?_
  exact congrArg _ (funext fun j => v2_at x0 x1 r j)

/-- The row maximum as a column. -/
theorem v4_at (r : Fin 8192) : val_main_v4 (F := Ideal) x0 x1 (ix2 r (0 : Fin 1)) = mx x0 x1 r := by
  rw [val_main_v4_apply, show idx_main_v4 (ix2 r (0 : Fin 1)) = ix1 r from by idx1, v3_at]

/-- The row minimum as a column. -/
theorem v6_at (r : Fin 8192) : val_main_v6 (F := Ideal) x0 x1 (ix2 r (0 : Fin 1)) = mn x0 x1 r := by
  rw [val_main_v6_apply, show idx_main_v6 (ix2 r (0 : Fin 1)) = ix1 r from by idx1, v5_at]

/-! ## The four row sums of the product and their means -/

theorem v10_at (r : Fin 8192) :
    val_main_v10 (F := Ideal) x0 x1 (ix1 r) = ∑ j : Fin 16384, row x0 x1 r j * row x0 x1 r j := by
  rw [val_main_v10_apply, val_main_cst_1_apply, Ideal.ofBits_def, Ideal.ofBits_zero_f32, zero_add]
  exact Finset.sum_congr rfl fun k _ => (congrArg (val_main_v9 (F := Ideal) x0 x1) (by idx2)).trans (v9_at x0 x1 r k)

theorem v17_at (r : Fin 8192) :
    val_main_v17 (F := Ideal) x0 x1 (ix1 r) = ∑ j : Fin 16384, absE (row x0 x1 r j) := by
  rw [val_main_v17_apply, val_main_cst_3_apply, Ideal.ofBits_def, Ideal.ofBits_zero_f32, zero_add]
  exact Finset.sum_congr rfl fun k _ => (congrArg (val_main_v16 (F := Ideal) x0 x1) (by idx2)).trans (v16_at x0 x1 r k)

theorem v24_at (r : Fin 8192) :
    val_main_v24 (F := Ideal) x0 x1 (ix1 r) = ∑ j : Fin 16384, Ideal.sqrt (absE (row x0 x1 r j)) := by
  rw [val_main_v24_apply, val_main_cst_5_apply, Ideal.ofBits_def, Ideal.ofBits_zero_f32, zero_add]
  exact Finset.sum_congr rfl fun k _ => (congrArg (val_main_v23 (F := Ideal) x0 x1) (by idx2)).trans (v23_at x0 x1 r k)

theorem v29_at (r : Fin 8192) :
    val_main_v29 (F := Ideal) x0 x1 (ix1 r) = ∑ j : Fin 16384, row x0 x1 r j := by
  rw [val_main_v29_apply, val_main_cst_7_apply, Ideal.ofBits_def, Ideal.ofBits_zero_f32, zero_add]
  exact Finset.sum_congr rfl fun k _ => (congrArg (val_main_v2 (F := Ideal) x0 x1) (by idx2)).trans (v2_at x0 x1 r k)

/-- The mean of the squares, as a column. -/
theorem v13_at (r : Fin 8192) : val_main_v13 (F := Ideal) x0 x1 (ix2 r (0 : Fin 1)) = msq x0 x1 r := by
  rw [val_main_v13_apply, val_main_v11_apply, val_main_v12_apply, val_main_cst_2_apply,
    show idx_main_v11 (ix2 r (0 : Fin 1)) = ix1 r from by idx1, v10_at]
  rfl

/-- The root mean square, as a column. -/
theorem v14_at (r : Fin 8192) : val_main_v14 (F := Ideal) x0 x1 (ix2 r (0 : Fin 1)) = rms x0 x1 r := by
  rw [val_main_v14_apply, v13_at]; rfl

/-- The mean absolute value, as a column. -/
theorem v20_at (r : Fin 8192) : val_main_v20 (F := Ideal) x0 x1 (ix2 r (0 : Fin 1)) = mabs x0 x1 r := by
  rw [val_main_v20_apply, val_main_v18_apply, val_main_v19_apply, val_main_cst_4_apply,
    show idx_main_v18 (ix2 r (0 : Fin 1)) = ix1 r from by idx1, v17_at]
  rfl

/-- The mean root absolute value, as a column. -/
theorem v27_at (r : Fin 8192) : val_main_v27 (F := Ideal) x0 x1 (ix2 r (0 : Fin 1)) = msa x0 x1 r := by
  rw [val_main_v27_apply, val_main_v25_apply, val_main_v26_apply, val_main_cst_6_apply,
    show idx_main_v25 (ix2 r (0 : Fin 1)) = ix1 r from by idx1, v24_at]
  rfl

/-- The mean, as a column. -/
theorem v32_at (r : Fin 8192) : val_main_v32 (F := Ideal) x0 x1 (ix2 r (0 : Fin 1)) = mu x0 x1 r := by
  rw [val_main_v32_apply, val_main_v30_apply, val_main_v31_apply, val_main_cst_8_apply,
    show idx_main_v30 (ix2 r (0 : Fin 1)) = ix1 r from by idx1, v29_at]
  rfl

/-! ## The centred row, its powers, their sums and means -/

/-- The mean broadcast along the row, at (r, j). -/
theorem v33_at (r : Fin 8192) (j : Fin 16384) : val_main_v33 (F := Ideal) x0 x1 (ix2 r j) = mu x0 x1 r := by
  rw [val_main_v33_apply, show idx_main_v33 (ix2 r j) = ix2 r (0 : Fin 1) from by idx2, v32_at]

/-- The centred product at (r, j). -/
theorem v34_at (r : Fin 8192) (j : Fin 16384) : val_main_v34 (F := Ideal) x0 x1 (ix2 r j) = dev x0 x1 r j := by
  rw [val_main_v34_apply, v2_at, v33_at]; rfl

/-- Its square. -/
theorem v35_at (r : Fin 8192) (j : Fin 16384) :
    val_main_v35 (F := Ideal) x0 x1 (ix2 r j) = dev x0 x1 r j * dev x0 x1 r j := by
  rw [val_main_v35_apply, v34_at]; rfl

/-- Its cube, as the program groups it. -/
theorem v40_at (r : Fin 8192) (j : Fin 16384) :
    val_main_v40 (F := Ideal) x0 x1 (ix2 r j) = (dev x0 x1 r j * dev x0 x1 r j) * dev x0 x1 r j := by
  rw [val_main_v40_apply, v35_at, v34_at]; rfl

/-- Its fourth power, as the program groups it. -/
theorem v45_at (r : Fin 8192) (j : Fin 16384) :
    val_main_v45 (F := Ideal) x0 x1 (ix2 r j) = (dev x0 x1 r j * dev x0 x1 r j) * (dev x0 x1 r j * dev x0 x1 r j) := by
  rw [val_main_v45_apply, v35_at]; rfl

theorem v36_at (r : Fin 8192) :
    val_main_v36 (F := Ideal) x0 x1 (ix1 r) = ∑ j : Fin 16384, dev x0 x1 r j * dev x0 x1 r j := by
  rw [val_main_v36_apply, val_main_cst_9_apply, Ideal.ofBits_def, Ideal.ofBits_zero_f32, zero_add]
  exact Finset.sum_congr rfl fun k _ => (congrArg (val_main_v35 (F := Ideal) x0 x1) (by idx2)).trans (v35_at x0 x1 r k)

theorem v41_at (r : Fin 8192) :
    val_main_v41 (F := Ideal) x0 x1 (ix1 r) = ∑ j : Fin 16384, (dev x0 x1 r j * dev x0 x1 r j) * dev x0 x1 r j := by
  rw [val_main_v41_apply, val_main_cst_11_apply, Ideal.ofBits_def, Ideal.ofBits_zero_f32, zero_add]
  exact Finset.sum_congr rfl fun k _ => (congrArg (val_main_v40 (F := Ideal) x0 x1) (by idx2)).trans (v40_at x0 x1 r k)

theorem v46_at (r : Fin 8192) :
    val_main_v46 (F := Ideal) x0 x1 (ix1 r) = ∑ j : Fin 16384, (dev x0 x1 r j * dev x0 x1 r j) * (dev x0 x1 r j * dev x0 x1 r j) := by
  rw [val_main_v46_apply, val_main_cst_13_apply, Ideal.ofBits_def, Ideal.ofBits_zero_f32, zero_add]
  exact Finset.sum_congr rfl fun k _ => (congrArg (val_main_v45 (F := Ideal) x0 x1) (by idx2)).trans (v45_at x0 x1 r k)

/-- The second central moment, as a column. -/
theorem v39_at (r : Fin 8192) : val_main_v39 (F := Ideal) x0 x1 (ix2 r (0 : Fin 1)) = m2 x0 x1 r := by
  rw [val_main_v39_apply, val_main_v37_apply, val_main_v38_apply, val_main_cst_10_apply,
    show idx_main_v37 (ix2 r (0 : Fin 1)) = ix1 r from by idx1, v36_at]
  rfl

/-- The third central moment, as a column. -/
theorem v44_at (r : Fin 8192) : val_main_v44 (F := Ideal) x0 x1 (ix2 r (0 : Fin 1)) = m3 x0 x1 r := by
  rw [val_main_v44_apply, val_main_v42_apply, val_main_v43_apply, val_main_cst_12_apply,
    show idx_main_v42 (ix2 r (0 : Fin 1)) = ix1 r from by idx1, v41_at]
  rfl

/-- The fourth central moment, as a column. -/
theorem v49_at (r : Fin 8192) : val_main_v49 (F := Ideal) x0 x1 (ix2 r (0 : Fin 1)) = m4 x0 x1 r := by
  rw [val_main_v49_apply, val_main_v47_apply, val_main_v48_apply, val_main_cst_14_apply,
    show idx_main_v47 (ix2 r (0 : Fin 1)) = ix1 r from by idx1, v46_at]
  rfl

/-- The guard bit, as a column. -/
theorem v53_at (r : Fin 8192) : val_main_v53 (F := Ideal) x0 x1 (ix2 r (0 : Fin 1)) = zbit x0 x1 r := by
  rw [val_main_v53_apply, val_main_v52_apply, val_main_v51_apply, val_main_v50_apply, val_main_cst_15_apply, v39_at, v32_at]
  rfl

/-! ## The ideal instance's operations on one value, and seven functions at a column index -/

/-- The absolute value at the ideal instance. -/
theorem absf_eq (a : EReal) : FloatOps.hostAbsf (F := Ideal) (φ := .f32) a = absE a := rfl
/-- The difference at the ideal instance. -/
theorem subf_eq (a b : EReal) : FloatOps.subf (F := Ideal) (φ := .f32) a b = a - b := rfl
/-- The product at the ideal instance. -/
theorem mulf_eq (a b : EReal) : FloatOps.mulf (F := Ideal) (φ := .f32) a b = a * b := rfl
/-- The quotient at the ideal instance. -/
theorem divf_eq (a b : EReal) : FloatOps.hostDivf (F := Ideal) (φ := .f32) a b = Ideal.div a b := rfl
/-- The square root at the ideal instance. -/
theorem sqrt_eq (a : EReal) : FloatOps.hostUnary (F := Ideal) (φ := .f32) .sqrt a = Ideal.sqrt a := rfl
/-- The power at the ideal instance. -/
theorem powf_eq (a b : EReal) : FloatOps.hostPowf (F := Ideal) (φ := .f32) a b = Ideal.pow a b := rfl
/-- A literal at the ideal instance. -/
theorem ofBits_eq (w : BitVec 32) : FloatOps.ofBits (F := Ideal) .f32 w = lit w := rfl

/-- Seven functions listed, taken at a column index and then at a point, against seven values listed, taken at the
    column index: equal when each function at the point is the value. -/
theorem vec7_apply_congr {α β : Type} (f0 f1 f2 f3 f4 f5 f6 : α → β) (g0 g1 g2 g3 g4 g5 g6 : β) (a : α)
    (h0 : f0 a = g0) (h1 : f1 a = g1) (h2 : f2 a = g2) (h3 : f3 a = g3) (h4 : f4 a = g4) (h5 : f5 a = g5) (h6 : f6 a = g6)
    (c : Fin 7) : (![f0, f1, f2, f3, f4, f5, f6] c) a = ![g0, g1, g2, g3, g4, g5, g6] c := by
  match c with
  | ⟨0, _⟩ => exact h0
  | ⟨1, _⟩ => exact h1
  | ⟨2, _⟩ => exact h2
  | ⟨3, _⟩ => exact h3
  | ⟨4, _⟩ => exact h4
  | ⟨5, _⟩ => exact h5
  | ⟨6, _⟩ => exact h6

/-- The target function on row r, as the list of its seven components in the row's named statistics. -/
theorem refCols_row (r : Fin 8192) :
    refCols (row x0 x1 r) =
      ![absE (mx x0 x1 r - mn x0 x1 r),
        Ideal.div (mx x0 x1 r) (rms x0 x1 r),
        Ideal.div (rms x0 x1 r) (mabs x0 x1 r),
        Ideal.div (mx x0 x1 r) (msq x0 x1 r),
        Ideal.div (mx x0 x1 r) (msa x0 x1 r),
        Scalar.select (zbit x0 x1 r) cNaN (Ideal.div (m4 x0 x1 r) (m2 x0 x1 r * m2 x0 x1 r)) - c3,
        Scalar.select (zbit x0 x1 r) cNaN (Ideal.div (m3 x0 x1 r) (Ideal.pow (m2 x0 x1 r) c15))] := rfl

/-! ## The seven columns at (r, 0) -/

/-- Column 0: the range. -/
theorem col0_at (r : Fin 8192) :
    val_main_v8 (F := Ideal) x0 x1 (ix2 r (0 : Fin 1)) = absE (mx x0 x1 r - mn x0 x1 r) := by
  rw [val_main_v8_apply, val_main_v7_apply, v4_at, v6_at, subf_eq, absf_eq]

/-- Column 1: the maximum over the root mean square. -/
theorem col1_at (r : Fin 8192) :
    val_main_v15 (F := Ideal) x0 x1 (ix2 r (0 : Fin 1)) = Ideal.div (mx x0 x1 r) (rms x0 x1 r) := by
  rw [val_main_v15_apply, v4_at, v14_at, divf_eq]

/-- Column 2: the root mean square over the mean absolute value. -/
theorem col2_at (r : Fin 8192) :
    val_main_v21 (F := Ideal) x0 x1 (ix2 r (0 : Fin 1)) = Ideal.div (rms x0 x1 r) (mabs x0 x1 r) := by
  rw [val_main_v21_apply, v14_at, v20_at, divf_eq]

/-- Column 3: the maximum over the mean square. -/
theorem col3_at (r : Fin 8192) :
    val_main_v22 (F := Ideal) x0 x1 (ix2 r (0 : Fin 1)) = Ideal.div (mx x0 x1 r) (msq x0 x1 r) := by
  rw [val_main_v22_apply, v4_at, v13_at, divf_eq]

/-- Column 4: the maximum over the mean root absolute value. -/
theorem col4_at (r : Fin 8192) :
    val_main_v28 (F := Ideal) x0 x1 (ix2 r (0 : Fin 1)) = Ideal.div (mx x0 x1 r) (msa x0 x1 r) := by
  rw [val_main_v28_apply, v4_at, v27_at, divf_eq]

/-- Column 5: the guarded excess kurtosis. -/
theorem col5_at (r : Fin 8192) :
    val_main_v58 (F := Ideal) x0 x1 (ix2 r (0 : Fin 1))
      = Scalar.select (zbit x0 x1 r) cNaN (Ideal.div (m4 x0 x1 r) (m2 x0 x1 r * m2 x0 x1 r)) - c3 := by
  rw [val_main_v58_apply, val_main_v56_apply, val_main_v55_apply, val_main_v54_apply, val_main_v57_apply, val_main_cst_17_apply,
    val_main_call0_v0_apply, val_main_cst_16_apply, v53_at, v49_at, v39_at, mulf_eq, divf_eq, subf_eq, ofBits_eq, ofBits_eq]

/-- Column 6: the guarded skewness. -/
theorem col6_at (r : Fin 8192) :
    val_main_v62 (F := Ideal) x0 x1 (ix2 r (0 : Fin 1))
      = Scalar.select (zbit x0 x1 r) cNaN (Ideal.div (m3 x0 x1 r) (Ideal.pow (m2 x0 x1 r) c15)) := by
  rw [val_main_v62_apply, val_main_v61_apply, val_main_v60_apply, val_main_v59_apply, val_main_cst_18_apply,
    val_main_call1_v0_apply, val_main_cst_19_apply, v53_at, v44_at, v39_at, powf_eq, divf_eq, ofBits_eq, ofBits_eq]

/-! ## The join, the bias and the result -/

/-- The seven columns joined, at (r, c). -/
theorem v63_at (r : Fin 8192) (c : Fin 7) : val_main_v63 (F := Ideal) x0 x1 (ix2 r c) = refCols (row x0 x1 r) c := by
  unfold val_main_v63
  rw [refCols_row]
  refine (concat7_unitCols_apply (a := 8192) (val_main_v8 (F := Ideal) x0 x1) (val_main_v15 (F := Ideal) x0 x1)
    (val_main_v21 (F := Ideal) x0 x1) (val_main_v22 (F := Ideal) x0 x1) (val_main_v28 (F := Ideal) x0 x1)
    (val_main_v58 (F := Ideal) x0 x1) (val_main_v62 (F := Ideal) x0 x1)
    concatenates_S8192x1_S8192x1_S8192x1_S8192x1_S8192x1_S8192x1_S8192x1_S8192x7_d1 r c).trans ?_
  exact vec7_apply_congr _ _ _ _ _ _ _ _ _ _ _ _ _ _ (ix2 r (0 : Fin 1))
    (col0_at x0 x1 r) (col1_at x0 x1 r) (col2_at x0 x1 r) (col3_at x0 x1 r) (col4_at x0 x1 r) (col5_at x0 x1 r) (col6_at x0 x1 r) c

/-- The bias broadcast down the rows, at (r, c). -/
theorem v65_at (x2 : (⟨S7, .f32⟩ : BufTy).Contents (Elt Ideal)) (r : Fin 8192) (c : Fin 7) :
    val_main_v65 (F := Ideal) x2 (ix2 r c) = x2 (ix1 c) := by
  rw [val_main_v65_apply, val_main_v64_apply, show idx_main_v64 (idx_main_v65 (ix2 r c)) = ix1 c from by idx1]

/-- **The reference's result at (r, c)**: the statistics of row r of x · w in the reference's grouping, column c, times the
    bias at c. -/
theorem result_at (x0 : (⟨S8192x16384, .f32⟩ : BufTy).Contents (Elt Ideal)) (x1 : (⟨S16384, .f32⟩ : BufTy).Contents (Elt Ideal)) (x2 : (⟨S7, .f32⟩ : BufTy).Contents (Elt Ideal)) (r : Fin 8192) (c : Fin 7) :
    Cert.ReferenceIdeal.ReadP.val_main_v66 (F := Ideal) x0 x1 x2 (ValueIdx.ix2 r c)
      = Cert.Stats.refCols (fun j => x0 (ValueIdx.ix2 r j) * x1 (ValueIdx.ix1 j)) c * x2 (ValueIdx.ix1 c) := by
  rw [val_main_v66_apply, v63_at, v65_at, mulf_eq]

end Cert.ReferenceIdeal.RefValue

end
-- ==== Proof.StatsConsts.lean ====
/-
  The float constants of the row statistics, as the extended reals their patterns denote: the row length 16384, zero,
  the small integers 2, 3, 4, 6 of the binomial expansions, and the exponent 3/2.
-/
import proofs.«101824_j84121229459701_2_alg».proof.Proof.Stats

noncomputable section

namespace Cert.Stats

open Idealize.ShloMosaic

/-- The pattern of `16384.0` denotes the real 16384 = 2¹⁴. -/
theorem cN_eq : cN = ((16384 : ℝ) : EReal) := by
  simp [Ideal.ofBits, Ideal.ieee, -EReal.coe_mul]; norm_num

/-- The pattern of `+0.0` denotes 0. -/
theorem c0_eq : c0 = 0 := by
  simp [Ideal.ofBits, Ideal.ieee]

/-- The pattern of `2.0` denotes the real 2. -/
theorem c2_eq : c2 = ((2 : ℝ) : EReal) := by
  simp [Ideal.ofBits, Ideal.ieee, -EReal.coe_mul]; norm_num

/-- The pattern of `3.0` denotes the real 3. -/
theorem c3_eq : c3 = ((3 : ℝ) : EReal) := by
  simp [Ideal.ofBits, Ideal.ieee, -EReal.coe_mul]; norm_num

/-- The pattern of `4.0` denotes the real 4. -/
theorem c4_eq : c4 = ((4 : ℝ) : EReal) := by
  simp [Ideal.ofBits, Ideal.ieee, -EReal.coe_mul]; norm_num

/-- The pattern of `6.0` denotes the real 6. -/
theorem c6_eq : c6 = ((6 : ℝ) : EReal) := by
  simp [Ideal.ofBits, Ideal.ieee, -EReal.coe_mul]; norm_num

/-- The pattern of `1.5` denotes the real 3/2. -/
theorem c15_eq : c15 = ((3 / 2 : ℝ) : EReal) := by
  simp [Ideal.ofBits, Ideal.ieee, -EReal.coe_mul]; norm_num

end Cert.Stats

end
-- ==== Proof.Moments.lean ====
/-
  The two groupings of the row statistics agree on a row of real numbers.

  Over the reals, with n terms, mean μ = Σr/n and raw moments e_k = Σr^k/n, the central moments are
    Σ(r−μ)²/n = e₂ − μ²  (a mean of squares, so nonnegative: clamping it below at 0 changes nothing),
    Σ(r−μ)³/n = e₃ − 3μe₂ + 2μ³,
    Σ(r−μ)⁴/n = e₄ − 4μe₃ + 6μ²e₂ − 3μ⁴,
  by expanding each power under the sum and using Σr = nμ. For v ≥ 0, v^(3/2) = v · √v. On the extended reals every
  operation involved, at real arguments and with the nonzero real divisor n, is the coerced real operation, so the
  identities transport; the comparison bit is then the same expression on both sides.
-/
import proofs.«101824_j84121229459701_2_alg».proof.Proof.StatsConsts
import Mathlib.Analysis.SpecialFunctions.Pow.Real

noncomputable section

namespace Cert.Stats

open Idealize.ShloMosaic

/-! ### The identities over the reals -/

section RealIdentities

variable {ι : Type*} [Fintype ι] (r : ι → ℝ)

/-- Σ(r−m)² = Σr² − 2mΣr + |ι|m², for any m. -/
theorem sum_dev2 (m : ℝ) :
    ∑ i, (r i - m) * (r i - m)
      = (∑ i, r i * r i) - 2 * m * (∑ i, r i) + (Fintype.card ι : ℝ) * (m * m) := by
  have h : ∀ i, (r i - m) * (r i - m) = r i * r i - 2 * m * r i + m * m := fun i => by ring
  rw [Finset.sum_congr rfl fun i _ => h i, Finset.sum_add_distrib, Finset.sum_sub_distrib,
    ← Finset.mul_sum Finset.univ r (2 * m), Finset.sum_const, Finset.card_univ, nsmul_eq_mul]

/-- Σ(r−m)³ = Σr³ − 3mΣr² + 3m²Σr − |ι|m³, for any m. -/
theorem sum_dev3 (m : ℝ) :
    ∑ i, ((r i - m) * (r i - m)) * (r i - m)
      = (∑ i, (r i * r i) * r i) - 3 * m * (∑ i, r i * r i) + 3 * (m * m) * (∑ i, r i)
        - (Fintype.card ι : ℝ) * (m * m * m) := by
  have h : ∀ i, ((r i - m) * (r i - m)) * (r i - m)
      = (r i * r i) * r i - 3 * m * (r i * r i) + 3 * (m * m) * r i - m * m * m := fun i => by ring
  rw [Finset.sum_congr rfl fun i _ => h i, Finset.sum_sub_distrib, Finset.sum_add_distrib, Finset.sum_sub_distrib,
    ← Finset.mul_sum Finset.univ (fun i => r i * r i) (3 * m), ← Finset.mul_sum Finset.univ r (3 * (m * m)),
    Finset.sum_const, Finset.card_univ, nsmul_eq_mul]

/-- Σ(r−m)⁴ = Σr⁴ − 4mΣr³ + 6m²Σr² − 4m³Σr + |ι|m⁴, for any m. -/
theorem sum_dev4 (m : ℝ) :
    ∑ i, ((r i - m) * (r i - m)) * ((r i - m) * (r i - m))
      = (∑ i, (r i * r i) * (r i * r i)) - 4 * m * (∑ i, (r i * r i) * r i) + 6 * (m * m) * (∑ i, r i * r i)
        - 4 * (m * m * m) * (∑ i, r i) + (Fintype.card ι : ℝ) * (m * m * m * m) := by
  have h : ∀ i, ((r i - m) * (r i - m)) * ((r i - m) * (r i - m))
      = (r i * r i) * (r i * r i) - 4 * m * ((r i * r i) * r i) + 6 * (m * m) * (r i * r i)
        - 4 * (m * m * m) * r i + m * m * m * m := fun i => by ring
  rw [Finset.sum_congr rfl fun i _ => h i, Finset.sum_add_distrib, Finset.sum_sub_distrib, Finset.sum_add_distrib,
    Finset.sum_sub_distrib, ← Finset.mul_sum Finset.univ (fun i => (r i * r i) * r i) (4 * m),
    ← Finset.mul_sum Finset.univ (fun i => r i * r i) (6 * (m * m)), ← Finset.mul_sum Finset.univ r (4 * (m * m * m)),
    Finset.sum_const, Finset.card_univ, nsmul_eq_mul]

variable {n : ℝ}

/-- The second central moment is the second raw moment minus the squared mean. -/
theorem mean_dev2 (hc : (Fintype.card ι : ℝ) = n) (hn : n ≠ 0) :
    (∑ i, (r i - (∑ i, r i) / n) * (r i - (∑ i, r i) / n)) / n
      = (∑ i, r i * r i) / n - (∑ i, r i) / n * ((∑ i, r i) / n) := by
  rw [sum_dev2, hc]
  generalize (∑ i, r i) = S1
  generalize (∑ i, r i * r i) = S2
  field_simp
  ring

/-- The third central moment from the raw moments, in the grouping (e₃ − (3μ)e₂) + ((2μ)μ)μ. -/
theorem mean_dev3 (hc : (Fintype.card ι : ℝ) = n) (hn : n ≠ 0) :
    (∑ i, ((r i - (∑ i, r i) / n) * (r i - (∑ i, r i) / n)) * (r i - (∑ i, r i) / n)) / n
      = ((∑ i, (r i * r i) * r i) / n - (3 * ((∑ i, r i) / n)) * ((∑ i, r i * r i) / n))
        + ((2 * ((∑ i, r i) / n)) * ((∑ i, r i) / n)) * ((∑ i, r i) / n) := by
  rw [sum_dev3, hc]
  generalize (∑ i, r i) = S1
  generalize (∑ i, r i * r i) = S2
  generalize (∑ i, (r i * r i) * r i) = S3
  field_simp
  ring

/-- The fourth central moment from the raw moments, in the grouping
    ((e₄ − (4μ)e₃) + ((6μ)μ)e₂) − (((3μ)μ)μ)μ. -/
theorem mean_dev4 (hc : (Fintype.card ι : ℝ) = n) (hn : n ≠ 0) :
    (∑ i, ((r i - (∑ i, r i) / n) * (r i - (∑ i, r i) / n)) * ((r i - (∑ i, r i) / n) * (r i - (∑ i, r i) / n))) / n
      = (((∑ i, (r i * r i) * (r i * r i)) / n - (4 * ((∑ i, r i) / n)) * ((∑ i, (r i * r i) * r i) / n))
          + ((6 * ((∑ i, r i) / n)) * ((∑ i, r i) / n)) * ((∑ i, r i * r i) / n))
        - (((3 * ((∑ i, r i) / n)) * ((∑ i, r i) / n)) * ((∑ i, r i) / n)) * ((∑ i, r i) / n) := by
  rw [sum_dev4, hc]
  generalize (∑ i, r i) = S1
  generalize (∑ i, r i * r i) = S2
  generalize (∑ i, (r i * r i) * r i) = S3
  generalize (∑ i, (r i * r i) * (r i * r i)) = S4
  field_simp
  ring

/-- A mean of squares over a positive count is nonnegative. -/
theorem mean_dev2_nonneg (m : ℝ) (hn : 0 < n) : 0 ≤ (∑ i, (r i - m) * (r i - m)) / n :=
  div_nonneg (Finset.sum_nonneg fun i _ => mul_self_nonneg _) hn.le

end RealIdentities

/-- For v ≥ 0, v · √v = v^(3/2). -/
theorem mul_sqrt_eq_rpow {v : ℝ} (hv : 0 ≤ v) : v * Real.sqrt v = Real.rpow v (3 / 2) := by
  have h : (3 / 2 : ℝ) = 1 + 1 / 2 := by norm_num
  rw [Real.rpow_eq_pow, h, Real.rpow_add' hv (by norm_num), Real.rpow_one, ← Real.sqrt_eq_rpow]

/-! ### Transport to the extended reals -/

/-- A finite sum of reals, taken in the extended reals, is the coerced real sum. -/
theorem coe_finsum {ι : Type*} (s : Finset ι) (f : ι → ℝ) :
    ∑ i ∈ s, ((f i : ℝ) : EReal) = ((∑ i ∈ s, f i : ℝ) : EReal) := by
  classical
  refine Finset.induction_on s (by simp) fun a s ha ih => ?_
  rw [Finset.sum_insert ha, Finset.sum_insert ha, EReal.coe_add, ih]

/-- The quotient of a real by a nonzero real is the coerced real quotient. -/
theorem div_coe_coe {c : ℝ} (hc : c ≠ 0) (a : ℝ) : Ideal.div (a : EReal) (c : EReal) = ((a / c : ℝ) : EReal) := by
  rw [Ideal.div_coe hc, ← EReal.coe_mul, mul_one_div]

/-- Clamping a real below at 0, in the extended reals, is the coerced real clamp. -/
theorem max_coe_zero (a : ℝ) : max (a : EReal) 0 = ((max a 0 : ℝ) : EReal) := by
  rcases le_total a 0 with h | h
  · have h' : (a : EReal) ≤ 0 := by exact_mod_cast h
    rw [max_eq_right h, max_eq_right h', EReal.coe_zero]
  · have h' : (0 : EReal) ≤ (a : EReal) := by exact_mod_cast h
    rw [max_eq_left h, max_eq_left h']

/-- For a real v ≥ 0, v · √v = v^(3/2) on the extended reals, the exponent spelled as the pattern of 1.5. -/
theorem mul_sqrt_eq_pow {v : ℝ} (hv : 0 ≤ v) : (v : EReal) * Ideal.sqrt (v : EReal) = Ideal.pow (v : EReal) c15 := by
  rw [c15_eq, Ideal.pow_coe_coe, Ideal.sqrt_coe, if_neg (not_lt.mpr hv), ← EReal.coe_mul, mul_sqrt_eq_rpow hv]

theorem card_row : (Fintype.card (Fin 16384) : ℝ) = 16384 := by simp

theorem row_ne : (16384 : ℝ) ≠ 0 := by norm_num

/-- The kernel's second central moment (raw moments, clamped at 0) is the reference's (mean of squared deviations). -/
theorem m2_eq (y : Fin 16384 → EReal) (hy : ∀ j, ∃ r : ℝ, y j = (r : EReal)) :
    max (Ideal.div (∑ j, y j * y j) cN - Ideal.div (∑ j, y j) cN * Ideal.div (∑ j, y j) cN) c0
      = Ideal.div (∑ j, (y j - Ideal.div (∑ j, y j) cN) * (y j - Ideal.div (∑ j, y j) cN)) cN := by
  choose r hr using hy
  obtain rfl : y = fun j => ((r j : ℝ) : EReal) := funext hr
  simp only [cN_eq, c0_eq, ← EReal.coe_mul, ← EReal.coe_sub, coe_finsum, div_coe_coe row_ne, max_coe_zero]
  rw [← mean_dev2 r card_row row_ne, max_eq_left (mean_dev2_nonneg r _ (by norm_num))]

/-- The reference's second central moment is a nonnegative real. -/
theorem m2_real (y : Fin 16384 → EReal) (hy : ∀ j, ∃ r : ℝ, y j = (r : EReal)) :
    ∃ v : ℝ, 0 ≤ v ∧
      Ideal.div (∑ j, (y j - Ideal.div (∑ j, y j) cN) * (y j - Ideal.div (∑ j, y j) cN)) cN = (v : EReal) := by
  choose r hr using hy
  obtain rfl : y = fun j => ((r j : ℝ) : EReal) := funext hr
  refine ⟨(∑ j, (r j - (∑ j, r j) / 16384) * (r j - (∑ j, r j) / 16384)) / 16384,
    mean_dev2_nonneg r _ (by norm_num), ?_⟩
  simp only [cN_eq, ← EReal.coe_mul, ← EReal.coe_sub, coe_finsum, div_coe_coe row_ne]

/-- The kernel's third central moment is the reference's. -/
theorem m3_eq (y : Fin 16384 → EReal) (hy : ∀ j, ∃ r : ℝ, y j = (r : EReal)) :
    (Ideal.div (∑ j, (y j * y j) * y j) cN - (c3 * Ideal.div (∑ j, y j) cN) * Ideal.div (∑ j, y j * y j) cN)
        + ((c2 * Ideal.div (∑ j, y j) cN) * Ideal.div (∑ j, y j) cN) * Ideal.div (∑ j, y j) cN
      = Ideal.div (∑ j, ((y j - Ideal.div (∑ j, y j) cN) * (y j - Ideal.div (∑ j, y j) cN))
          * (y j - Ideal.div (∑ j, y j) cN)) cN := by
  choose r hr using hy
  obtain rfl : y = fun j => ((r j : ℝ) : EReal) := funext hr
  simp only [cN_eq, c2_eq, c3_eq, ← EReal.coe_mul, ← EReal.coe_sub, ← EReal.coe_add, coe_finsum, div_coe_coe row_ne]
  rw [mean_dev3 r card_row row_ne]

/-- The kernel's fourth central moment is the reference's. -/
theorem m4_eq (y : Fin 16384 → EReal) (hy : ∀ j, ∃ r : ℝ, y j = (r : EReal)) :
    ((Ideal.div (∑ j, (y j * y j) * (y j * y j)) cN
          - (c4 * Ideal.div (∑ j, y j) cN) * Ideal.div (∑ j, (y j * y j) * y j) cN)
        + ((c6 * Ideal.div (∑ j, y j) cN) * Ideal.div (∑ j, y j) cN) * Ideal.div (∑ j, y j * y j) cN)
      - (((c3 * Ideal.div (∑ j, y j) cN) * Ideal.div (∑ j, y j) cN) * Ideal.div (∑ j, y j) cN)
        * Ideal.div (∑ j, y j) cN
      = Ideal.div (∑ j, ((y j - Ideal.div (∑ j, y j) cN) * (y j - Ideal.div (∑ j, y j) cN))
          * ((y j - Ideal.div (∑ j, y j) cN) * (y j - Ideal.div (∑ j, y j) cN))) cN := by
  choose r hr using hy
  obtain rfl : y = fun j => ((r j : ℝ) : EReal) := funext hr
  simp only [cN_eq, c3_eq, c4_eq, c6_eq, ← EReal.coe_mul, ← EReal.coe_sub, ← EReal.coe_add, coe_finsum,
    div_coe_coe row_ne]
  rw [mean_dev4 r card_row row_ne]

/-- On a row of real numbers the kernel's grouping and the reference's grouping give the same seven columns. -/
theorem kerOfRow_eq_refCols (y : Fin 16384 → EReal) (hy : ∀ j, ∃ r : ℝ, y j = (r : EReal)) : kerOfRow y = refCols y := by
  obtain ⟨v, hv0, hv⟩ := m2_real y hy
  simp only [kerOfRow, kerCols, refCols]
  rw [m2_eq y hy, m3_eq y hy, m4_eq y hy, hv, mul_sqrt_eq_pow hv0]

end Cert.Stats

end
-- ==== Proof.LibERealFinite.lean ====
/-
  Extended reals that are real numbers: the predicate, its closure under the arithmetic the
  normalisation uses, and the two operations with corners (the quotient by a nonzero real and the
  reciprocal square root of a positive real) at real arguments.
-/
import Idealize.ShloMosaic.PureOps.Ideal
import Idealize.ShloMosaic.PureOps.Ideal.Laws
import Idealize.ShloMosaic.Lib.ReduceAll

noncomputable section

namespace Cert.Lib

open Idealize.ShloMosaic

/-- An extended real that is a real number (neither infinity). -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem isReal_iff (x : EReal) : IsReal x ↔ x ≠ ⊤ ∧ x ≠ ⊥ := by
  constructor
  · rintro ⟨r, rfl⟩
    exact ⟨EReal.coe_ne_top r, EReal.coe_ne_bot r⟩
  · rintro ⟨h1, h2⟩
    exact ⟨x.toReal, (EReal.coe_toReal h1 h2).symm⟩

theorem IsReal.ne_top {x : EReal} (h : IsReal x) : x ≠ ⊤ := ((isReal_iff x).mp h).1

theorem IsReal.ne_bot {x : EReal} (h : IsReal x) : x ≠ ⊥ := ((isReal_iff x).mp h).2

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

/-- The larger of two reals, as extended reals, is the larger real. -/
theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem IsReal.max {x y : EReal} (hx : IsReal x) (hy : IsReal y) : IsReal (max x y) := by
  obtain ⟨a, rfl⟩ := hx
  obtain ⟨b, rfl⟩ := hy
  exact ⟨_, coe_max a b⟩

/-- A finite sum of reals, taken in the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A row of a matrix product of real matrices is real. -/
theorem IsReal.dot {ι : Type*} (s : Finset ι) (x w : ι → EReal) (hx : ∀ k, IsReal (x k)) (hw : ∀ k, IsReal (w k)) :
    IsReal (∑ k ∈ s, x k * w k) :=
  IsReal.sum s _ fun k _ => (hx k).mul (hw k)

/-- The quotient of a real by a nonzero real is the real quotient. -/
theorem div_coe_coe (a : ℝ) {c : ℝ} (hc : c ≠ 0) : Ideal.div (a : EReal) (c : EReal) = ((a / c : ℝ) : EReal) := by
  rw [Ideal.div_coe hc, ← EReal.coe_mul, mul_one_div]

theorem IsReal.div_coe {x : EReal} (hx : IsReal x) {c : ℝ} (hc : c ≠ 0) : IsReal (Ideal.div x (c : EReal)) := by
  obtain ⟨a, rfl⟩ := hx
  exact ⟨_, div_coe_coe a hc⟩

/-- The reciprocal square root of a positive real is the real one. -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

theorem isReal_rsqrt_pos {r : ℝ} (h : 0 < r) : IsReal (Ideal.rsqrt (r : EReal)) := ⟨_, rsqrt_coe_pos h⟩

/-- `(1 + ε) · x + z` of reals is real. -/
theorem IsReal.affine {a x z : EReal} (ha : IsReal a) (hx : IsReal x) (hz : IsReal z) : IsReal ((1 + a) * x + z) :=
  ((isReal_one.add ha).mul hx).add hz

/-- A gather of real entries has real entries: each one is an entry of the operand. -/
theorem isReal_gather {s si t : Shape} {w : Nat} (d : GatherDims s si t) (x : s.Idx → EReal) (idx : IVec si w)
    (hx : ∀ i, IsReal (x i)) (j : t.Idx) : IsReal (Host.gather d x idx j) :=
  hx _

/-- A scatter-add, on the extended reals, of real updates into real entries has real entries: each one is an
    entry of the operand plus a finite sum of updates. -/
theorem isReal_scatterAdd {φ : FTy} {s si su : Shape} {w : Nat} (d : ScatterDims s si su) (x : FVec Ideal s φ)
    (idx : IVec si w) (upd : FVec Ideal su φ) (hx : ∀ i, IsReal (x i)) (hu : ∀ j, IsReal (upd j)) (i : s.Idx) :
    IsReal (Host.scatterAdd d x idx upd i) := by
  show IsReal (x i + ∑ j ∈ _, upd j)
  exact (hx i).add (IsReal.sum _ _ fun j _ => hu j)

/-- The f32 pattern `0x7F800000` denotes +∞. -/
theorem ofBits_inf_f32 : Ideal.ofBits .f32 0x7F800000#32 = ⊤ := by
  simp [Ideal.ofBits, Ideal.ieee]

/-- An extended real whose absolute value compares below +∞ is a real. -/
theorem isReal_of_abs_lt_inf (x : EReal)
    (h : FloatOps.cmpf (F := Ideal) (φ := .f32) .olt (FloatOps.hostAbsf (F := Ideal) (φ := .f32) x)
      (FloatOps.ofBits (F := Ideal) .f32 0x7F800000#32) = 1#1) : IsReal x := by
  change BitVec.ofBool (decide (max x (-x) < Ideal.ofBits .f32 0x7F800000#32)) = 1#1 at h
  rw [ofBits_inf_f32] at h
  induction x using EReal.rec with
  | bot => simp at h
  | coe r => exact ⟨r, rfl⟩
  | top => simp at h

/-- `all (|x| < +∞)` over a whole array (the reduction by `and` of the comparison against the broadcast pattern of
    +∞ is 1) says every entry is a real. -/
theorem isReal_of_all_finite {s : Shape} {axes : List (Fin s.rank)} (x : FVec Ideal s .f32)
    (bc : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi (cmpf .olt (Host.absf x) (broadcastInDim s ![] bc (constant ⟨0, ![]⟩ .f32 0x7F800000#32)))
      (constantI ⟨0, ![]⟩ 1 1#1) h hu j = 1#1) (i : s.Idx) : IsReal (x i) := by
  haveI : Subsingleton (⟨0, ![]⟩ : Shape).Idx := ⟨fun a b => funext fun d => d.elim0⟩
  exact isReal_of_abs_lt_inf (x i) (Host.reduce_andi_all _ _ h hu j e i)

/-- The same for a scalar (no broadcast of the pattern). -/
theorem isReal_of_all_finite₀ {axes : List (Fin (⟨0, ![]⟩ : Shape).rank)} (x : FVec Ideal ⟨0, ![]⟩ .f32)
    (h : (⟨0, ![]⟩ : Shape).ReducesTo axes ⟨0, ![]⟩) (hu : 0 < (⟨0, ![]⟩ : Shape).numel) (j : (⟨0, ![]⟩ : Shape).Idx)
    (e : Host.reduce IntOp.andi (cmpf .olt (Host.absf x) (constant ⟨0, ![]⟩ .f32 0x7F800000#32))
      (constantI ⟨0, ![]⟩ 1 1#1) h hu j = 1#1) (i : (⟨0, ![]⟩ : Shape).Idx) : IsReal (x i) := by
  haveI : Subsingleton (⟨0, ![]⟩ : Shape).Idx := ⟨fun a b => funext fun d => d.elim0⟩
  exact isReal_of_abs_lt_inf (x i) (Host.reduce_andi_all _ _ h hu j e i)

end Cert.Lib

end
-- ==== Proof.Finite.lean ====
/-
  From the precondition to the finiteness of the inputs. The predicate is the conjunction of three tests "every entry's
  absolute value is below +∞", each a reduction by `and` of an elementwise comparison down to a scalar. That the
  conjunction is 1 gives each conjunct 1; a conjunct that is 1 gives the comparison 1 at every index; and an extended
  real whose absolute value is below +∞ is neither infinity, that is, a real number.
-/
import proofs.«101824_j84121229459701_2_alg».proof.Defs
import proofs.«101824_j84121229459701_2_alg».proof.Proof.Gen.Pre_finite_inputs
import proofs.«101824_j84121229459701_2_alg».proof.Proof.LibERealFinite
import Idealize.ShloMosaic.Lib.ReduceAll
import Idealize.ShloMosaic.Lib.ValueIdx

noncomputable section

namespace Cert.KernelIdeal.Finite

open Idealize.ShloMosaic Idealize.SL.Sem

/-- Under the precondition, on every device, every entry of the two float inputs is a real number. -/
theorem real_of_pre [hK : Cert.KernelIdeal.Facts] [hP : Cert.Pre_finite_inputs.Facts]
    (m : (ℓ : Loc Cert.KernelIdeal.nD Cert.KernelIdeal.τ Cert.KernelIdeal.sig) → Buf (Elt Ideal) ℓ) (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal)) := by
  -- the predicate's scalar result, read at its one index
  have e := congrFun (h c) ValueIdx.ix0
  dsimp only [Cert.Pre_finite_inputs.fn, andi] at e
  -- (all₀ ∧ all₁) ∧ all₂ = 1: keep the first two conjuncts
  obtain ⟨e01, -⟩ := IntOp.andi_eq_one.1 e
  obtain ⟨e0, e1⟩ := IntOp.andi_eq_one.1 e01
  exact ⟨fun i => Cert.Lib.isReal_of_all_finite
      (m ((c.tc : Thread Cert.KernelIdeal.nD Cert.KernelIdeal.τ).loc Cert.KernelIdeal.main_arg0)) _ _ _ _ e0 i,
    fun i => Cert.Lib.isReal_of_all_finite
      (m ((c.tc : Thread Cert.KernelIdeal.nD Cert.KernelIdeal.τ).loc Cert.KernelIdeal.main_arg1)) _ _ _ _ e1 i⟩

end Cert.KernelIdeal.Finite

end
-- ==== Proof.lean ====
/-
  Row statistics of x · w: a 16 × 4 grid of (512 rows) × (4096 columns) tiles against the plain reference.

  For each row y = x · w of 16384 numbers both programs return seven statistics scaled by a bias row: the peak-to-peak
  distance |max − min|, the crest, shape, impulse and clearance factors (the maximum against the root mean square, the root mean
  square against the mean magnitude, the maximum against the mean square and against the mean root magnitude), and the excess
  kurtosis and the skewness m₄/m₂² − 3 and m₃/m₂^{3/2}, both undefined (one fixed pattern) where m₂ ≤ (10⁻⁶ μ)².

  The kernel streams the row through eight lane-wide accumulators — the running maximum and minimum and the running sums of
  y, y², y³, y⁴, |y|, √|y| — reset at the first column tile of a row tile, updated once per 128-lane group, and reduced across
  lanes after the last column tile, where the central moments are recovered from the raw ones by the binomial expansions
      m₂ = e₂ − μ²,   m₃ = e₃ − 3μe₂ + 2μ³,   m₄ = e₄ − 4μe₃ + 6μ²e₂ − 3μ⁴        (e_k = Σyᵏ/n, μ = e₁),
  with m₂ clamped at 0 and m₂ · √m₂ for the power 3/2. The reference centres the row first and averages d², d³, d⁴, d = y − μ.
  On the extended reals the two agree for every row of REAL numbers: the expansions are identities of real polynomials,
  m₂ is then a nonnegative real (so the clamp is the identity and v · √v = v^{3/2}), the guard compares equal numbers, and the
  other five columns are the same expression of the same maxima, minima and sums; a sum or a maximum over 16384 columns is the
  same in any grouping (4 tiles × 32 groups × 128 lanes). The inputs' finiteness is what makes every row real.

  The modules: Stats (the two groupings, one row at a time), Moments (they agree on real rows), Finite (the precondition makes
  every entry of x and w real); AccDefs / AccValue (the accumulators as pure functions of the loaded slices, and in closed form);
  BodyBase … BodyFrame (the kernel body at a grid point in its three cases — first, middle, last column tile —, the lane-group loop
  by its invariant, the accumulators carried from point to point, the frame; written once over any number format and read at
  both); KerArray (the result array as one function of the arguments); RefRun / RefRead / RefValue (the reference's run and its
  result at an index). Here: the five claims assembled.
-/
import proofs.«101824_j84121229459701_2_alg».proof.Defs
import proofs.«101824_j84121229459701_2_alg».proof.Proof.Gen.Kernel
import proofs.«101824_j84121229459701_2_alg».proof.Proof.Gen.KernelIdeal
import proofs.«101824_j84121229459701_2_alg».proof.Proof.Gen.ReferenceIdeal
import proofs.«101824_j84121229459701_2_alg».proof.Proof.Gen.Pre_finite_inputs
import proofs.«101824_j84121229459701_2_alg».proof.Proof.BodyFrame
import proofs.«101824_j84121229459701_2_alg».proof.Proof.BodyFrameK
import proofs.«101824_j84121229459701_2_alg».proof.Proof.KerArray
import proofs.«101824_j84121229459701_2_alg».proof.Proof.RefValue
import proofs.«101824_j84121229459701_2_alg».proof.Proof.Moments
import proofs.«101824_j84121229459701_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its arguments as they were. -/
theorem frame_k : Cert.frame_Kernel := fun m ρ _ => Cert.Kernel.Body.frame m ρ

/-- So does the idealized kernel. -/
theorem frame_ki : Cert.frame_KernelIdeal := fun m ρ _ => Cert.KernelIdeal.Body.frame m ρ

/-- So does the reference: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The reference's result at row r, column q, is the kernel's: the reference's grouping on the row x(r,·) · w equals the
    kernel's because the row is real. -/
theorem result_eq (x : (⟨Cert.KernelIdeal.S8192x16384, .f32⟩ : BufTy).Contents (Elt Ideal)) (w : (⟨Cert.KernelIdeal.S16384, .f32⟩ : BufTy).Contents (Elt Ideal))
    (b : (⟨Cert.KernelIdeal.S7, .f32⟩ : BufTy).Contents (Elt Ideal))
    (hx : ∀ i, ∃ r : ℝ, x i = (r : EReal)) (hw : ∀ i, ∃ r : ℝ, w i = (r : EReal)) :
    Cert.ReferenceIdeal.ReadP.val_main_v66 (F := Ideal) x w b = Cert.KernelIdeal.KerArray.G x w b := by
  funext i
  obtain ⟨r, q, rfl⟩ : ∃ (r : Fin 8192) (q : Fin 7), i = ValueIdx.ix2 r q := ⟨i 0, i 1, ValueIdx.eq_ix2 i⟩
  rw [Cert.ReferenceIdeal.RefValue.result_at, Cert.KernelIdeal.KerArray.G_at]
  congr 1
  refine (congrFun (Cert.Stats.kerOfRow_eq_refCols _ (fun j => ?_)) q).symm
  obtain ⟨a, ha⟩ := hx (ValueIdx.ix2 r j)
  obtain ⟨a', ha'⟩ := hw (ValueIdx.ix1 j)
  exact ⟨a * a', by rw [ha, ha', EReal.coe_mul]⟩

/-- From memories agreeing on the arguments the two idealized programs end with equal results. -/
theorem algebraic : Cert.algebraic_KernelIdeal_ReferenceIdeal := by
  intro m ρ m' ρ' hpre hagree
  refine ⟨fun c => Cert.KernelIdeal.KerArray.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KerArray.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v66_eq, (hagree c).1, (hagree c).2.1, (hagree c).2.2]
  exact result_eq _ _ _ (Cert.KernelIdeal.Finite.real_of_pre m hpre c).1 (Cert.KernelIdeal.Finite.real_of_pre m hpre c).2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
